-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S64 .f32) (main_arg7 : FVec F S192x64 .f32) (main_arg8 : FVec F S64 .f32) (main_arg9 : FVec F S64x2 .f32) (main_arg10 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg7
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S3200000 32) (main_arg2 : IVec S3200000 32) (main_arg3 : FVec F S64x64 .f32) (main_arg4 : FVec F S64 .f32) (main_arg5 : FVec F S64x64 .f32) (main_arg6 : FVec F S64 .f32) (main_arg7 : FVec F S192x64 .f32) (main_arg8 : FVec F S64 .f32) (main_arg9 : FVec F S64x2 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S5000x64 : Shape := ⟨2, ![5000, 64]⟩
abbrev S1x64 : Shape := ⟨2, ![1, 64]⟩
abbrev S3200000x64 : Shape := ⟨2, ![3200000, 64]⟩
abbrev S5000x1 : Shape := ⟨2, ![5000, 1]⟩
abbrev S100000x192 : Shape := ⟨2, ![100000, 192]⟩
abbrev S100000x2 : Shape := ⟨2, ![100000, 2]⟩
abbrev S5000x192 : Shape := ⟨2, ![5000, 192]⟩
abbrev S5000x2 : Shape := ⟨2, ![5000, 2]⟩
abbrev S1x2 : Shape := ⟨2, ![1, 2]⟩

abbrev nBuf : Space → Nat
  | .hbm => 146
  | .vmem => 88
  | .smem => 0
  | _ => 0

abbrev hbmTy0_0 (i : Nat) : BufTy := match i % 128 with
  | 0 => ⟨S100000x64, .f32⟩
  | 1 => ⟨S3200000, .i32⟩
  | 2 => ⟨S3200000, .i32⟩
  | 3 => ⟨S64x64, .f32⟩
  | 4 => ⟨S64, .f32⟩
  | 5 => ⟨S64x64, .f32⟩
  | 6 => ⟨S64, .f32⟩
  | 7 => ⟨S192x64, .f32⟩
  | 8 => ⟨S64, .f32⟩
  | 9 => ⟨S64x2, .f32⟩
  | 10 => ⟨S2, .f32⟩
  | 11 => ⟨S_, .f32⟩
  | 12 => ⟨S100000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S_, .f32⟩
  | 22 => ⟨S3200000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S100000x64, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x64, .f32⟩
  | 47 => ⟨S_, .f32⟩
  | 48 => ⟨S100000x64, .f32⟩
  | 49 => ⟨S3200000x1, .i32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S100000x64, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x64, .f32⟩
  | 84 => ⟨S_, .f32⟩
  | 85 => ⟨S100000x64, .f32⟩
  | 86 => ⟨S3200000x1, .i32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .f32⟩
  | 101 => ⟨S_, .f32⟩
  | 102 => ⟨S100000x64, .f32⟩
  | 103 => ⟨S3200000x1, .i32⟩
  | 104 => ⟨S100000x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S_, .i32⟩
  | 113 => ⟨S3200000, .i32⟩
  | 114 => ⟨S3200000, .i1⟩
  | 115 => ⟨S_, .i32⟩
  | 116 => ⟨S3200000, .i32⟩
  | 117 => ⟨S3200000, .i32⟩
  | 118 => ⟨S3200000, .i32⟩
  | 119 => ⟨S3200000x1, .i32⟩
  | 120 => ⟨S3200000x64, .f32⟩
  | 121 => ⟨S_, .f32⟩
  | 122 => ⟨S100000x64, .f32⟩
  | 123 => ⟨S3200000x1, .i32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S_, .i32⟩
  | 2 => ⟨S3200000, .i32⟩
  | 3 => ⟨S3200000, .i1⟩
  | 4 => ⟨S_, .i32⟩
  | 5 => ⟨S3200000, .i32⟩
  | 6 => ⟨S3200000, .i32⟩
  | 7 => ⟨S3200000, .i32⟩
  | 8 => ⟨S3200000x1, .i32⟩
  | 9 => ⟨S3200000x64, .f32⟩
  | 10 => ⟨S_, .f32⟩
  | 11 => ⟨S100000x64, .f32⟩
  | 12 => ⟨S3200000x1, .i32⟩
  | 13 => ⟨S100000x64, .f32⟩
  | 14 => ⟨S100000x64, .f32⟩
  | 15 => ⟨S100000x64, .f32⟩
  | 16 => ⟨S100000x192, .f32⟩
  | 17 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x1, .f32⟩
  | .local _ .vmem, ⟨37, _⟩ => ⟨S5000x1, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x1, .f32⟩
  | .local _ .vmem, ⟨49, _⟩ => ⟨S5000x1, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x1, .f32⟩
  | .local _ .vmem, ⟨61, _⟩ => ⟨S5000x1, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x1, .f32⟩
  | .local _ .vmem, ⟨73, _⟩ => ⟨S5000x1, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x192, .f32⟩
  | .local _ .vmem, ⟨81, _⟩ => ⟨S5000x192, .f32⟩
  | .local _ .vmem, ⟨82, _⟩ => ⟨S192x64, .f32⟩
  | .local _ .vmem, ⟨83, _⟩ => ⟨S64, .f32⟩
  | .local _ .vmem, ⟨84, _⟩ => ⟨S64x2, .f32⟩
  | .local _ .vmem, ⟨85, _⟩ => ⟨S2, .f32⟩
  | .local _ .vmem, ⟨86, _⟩ => ⟨S5000x2, .f32⟩
  | .local _ .vmem, ⟨87, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28_0 : Ref sig .tc := ⟨.hbm, 51, rfl⟩
abbrev main_v28_1 : Ref sig .tc := ⟨.hbm, 52, rfl⟩
abbrev main_v29 : Ref sig .tc := ⟨.hbm, 53, rfl⟩
abbrev main_v30 : Ref sig .tc := ⟨.hbm, 54, rfl⟩
abbrev main_c_8 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41_0 : Ref sig .tc := ⟨.hbm, 68, rfl⟩
abbrev main_v41_1 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56_0 : Ref sig .tc := ⟨.hbm, 88, rfl⟩
abbrev main_v56_1 : Ref sig .tc := ⟨.hbm, 89, rfl⟩
abbrev main_v57 : Ref sig .tc := ⟨.hbm, 90, rfl⟩
abbrev main_v58 : Ref sig .tc := ⟨.hbm, 91, rfl⟩
abbrev main_c_15 : Ref sig .tc := ⟨.hbm, 92, rfl⟩
abbrev main_v59 : Ref sig .tc := ⟨.hbm, 93, rfl⟩
abbrev main_v60 : Ref sig .tc := ⟨.hbm, 94, rfl⟩
abbrev main_c_16 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69_0 : Ref sig .tc := ⟨.hbm, 105, rfl⟩
abbrev main_v69_1 : Ref sig .tc := ⟨.hbm, 106, rfl⟩
abbrev main_cst_18 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_19 : Ref sig .tc := ⟨.hbm, 112, rfl⟩
abbrev main_v74 : Ref sig .tc := ⟨.hbm, 113, rfl⟩
abbrev main_v75 : Ref sig .tc := ⟨.hbm, 114, rfl⟩
abbrev main_c_20 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_21 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84_0 : Ref sig .tc := ⟨.hbm, 125, rfl⟩
abbrev main_v84_1 : Ref sig .tc := ⟨.hbm, 126, rfl⟩
abbrev main_v85 : Ref sig .tc := ⟨.hbm, 127, rfl⟩
abbrev main_v86 : Ref sig .tc := ⟨.hbm, 128, rfl⟩
abbrev main_c_22 : Ref sig .tc := ⟨.hbm, 129, rfl⟩
abbrev main_v87 : Ref sig .tc := ⟨.hbm, 130, rfl⟩
abbrev main_v88 : Ref sig .tc := ⟨.hbm, 131, rfl⟩
abbrev main_c_23 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_24 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97_0 : Ref sig .tc := ⟨.hbm, 142, rfl⟩
abbrev main_v97_1 : Ref sig .tc := ⟨.hbm, 143, rfl⟩
abbrev main_v98 : Ref sig .tc := ⟨.hbm, 144, rfl⟩
abbrev main_v99 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_stg5_0 : Ref sig .tc := ⟨.vmem, 54, rfl⟩
abbrev cc4_stg5_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg3_1 : Ref sig .tc := ⟨.vmem, 75, rfl⟩
abbrev cc6_stg4_0 : Ref sig .tc := ⟨.vmem, 76, rfl⟩
abbrev cc6_stg4_1 : Ref sig .tc := ⟨.vmem, 77, rfl⟩
abbrev cc6_stg5_0 : Ref sig .tc := ⟨.vmem, 78, rfl⟩
abbrev cc6_stg5_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem4_1 : DmaSem sig := 53
abbrev cc4_sem5_0 : DmaSem sig := 54
abbrev cc4_sem5_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73
abbrev cc6_sem3_0 : DmaSem sig := 74
abbrev cc6_sem3_1 : DmaSem sig := 75
abbrev cc6_sem4_0 : DmaSem sig := 76
abbrev cc6_sem4_1 : DmaSem sig := 77
abbrev cc6_sem5_0 : DmaSem sig := 78
abbrev cc6_sem5_1 : DmaSem sig := 79
abbrev cc7_sem0_0 : DmaSem sig := 80
abbrev cc7_sem0_1 : DmaSem sig := 81
abbrev cc7_sem1_0 : DmaSem sig := 82
abbrev cc7_sem2_0 : DmaSem sig := 83
abbrev cc7_sem3_0 : DmaSem sig := 84
abbrev cc7_sem4_0 : DmaSem sig := 85
abbrev cc7_sem5_0 : DmaSem sig := 86
abbrev cc7_sem5_1 : DmaSem sig := 87

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x192 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S192x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x2 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S2 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x2 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  concatenates_S100000x64_S100000x64_S100000x64_S100000x192_d1 : Shape.Concatenates [S100000x64, S100000x64, S100000x64] S100000x192 1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  inb_S192x64_S192x64_0_0 : ∀ a, (![0, 0] : Fin 2 → Nat) a + S192x64.size a ≤ S192x64.size a
  h_S192x64 : 0 < S192x64.numel
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S3200000x1_S3200000_n_0_0_1_wf : ScatterDims.WF S100000 S3200000x1 S3200000 [] [0] [0] 1
  dot_S5000x64_S64x64_S5000x64_1_0_0_1_n_n_wf : DotDims.WF S5000x64 S64x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x192_S192x64_S5000x64_1_0_0_1_n_n_wf : DotDims.WF S5000x192 S192x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x192.size a ≤ S100000x192.size a
  hwx7_0 : ∀ i : grid7.Coords, EltTy.bits .f32 = 32 ∨ (Rect.block (s := S100000x192) S5000x192.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S192x64.size a ≤ S192x64.size a
  hwx7_1 : ∀ i : grid7.Coords, EltTy.bits .f32 = 32 ∨ (Rect.block (s := S192x64) S192x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x2.size a ≤ S64x2.size a
  hwx7_3 : ∀ i : grid7.Coords, EltTy.bits .f32 = 32 ∨ (Rect.block (s := S64x2) S64x2.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S2.size a ≤ S2.size a
  hwx7_4 : ∀ i : grid7.Coords, EltTy.bits .f32 = 32 ∨ (Rect.block (s := S2) S2.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x2.size a ≤ S100000x2.size a
  hwx7_5 : ∀ i : grid7.Coords, EltTy.bits .f32 = 32 ∨ (Rect.block (s := S100000x2) S5000x2.size (cc7_transform_5 i) (hinb7_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28_1) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v13) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v56_0) S5000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v56_1) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v56_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56_1) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v69_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v69_1) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v13) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71) S5000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v84_0) S5000x64.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v84_1) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v84_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v84_1) S5000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v97_0) S5000x64.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v97_1) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v98) S5000x192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S192x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg8) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg9) S64x2.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg10) S2.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v99) S5000x2.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S3200000 : Shape := ⟨1, ![3200000]⟩
abbrev S64x64 : Shape := ⟨2, ![64, 64]⟩
abbrev S64 : Shape := ⟨1, ![64]⟩
abbrev S192x64 : Shape := ⟨2, ![192, 64]⟩
abbrev S64x2 : Shape := ⟨2, ![64, 2]⟩
abbrev S2 : Shape := ⟨1, ![2]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x64 : Shape := ⟨2, ![1, 64]⟩
abbrev S3200000x64 : Shape := ⟨2, ![3200000, 64]⟩
abbrev S100000x192 : Shape := ⟨2, ![100000, 192]⟩
abbrev S100000x2 : Shape := ⟨2, ![100000, 2]⟩
abbrev S1x2 : Shape := ⟨2, ![1, 2]⟩

abbrev nBuf : Space → Nat
  | .hbm => 199
  | .vmem => 0
  | .smem => 0
  | _ => 0

abbrev hbmTy0_0 (i : Nat) : BufTy := match i % 128 with
  | 0 => ⟨S100000x64, .f32⟩
  | 1 => ⟨S3200000, .i32⟩
  | 2 => ⟨S3200000, .i32⟩
  | 3 => ⟨S64x64, .f32⟩
  | 4 => ⟨S64, .f32⟩
  | 5 => ⟨S64x64, .f32⟩
  | 6 => ⟨S64, .f32⟩
  | 7 => ⟨S192x64, .f32⟩
  | 8 => ⟨S64, .f32⟩
  | 9 => ⟨S64x2, .f32⟩
  | 10 => ⟨S2, .f32⟩
  | 11 => ⟨S_, .f32⟩
  | 12 => ⟨S100000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S_, .f32⟩
  | 22 => ⟨S3200000, .f32⟩
  | 23 => ⟨S100000, .f32⟩
  | 24 => ⟨S_, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S100000x64, .f32⟩
  | 51 => ⟨S_, .i32⟩
  | 52 => ⟨S3200000, .i32⟩
  | 53 => ⟨S3200000, .i1⟩
  | 54 => ⟨S_, .i32⟩
  | 55 => ⟨S3200000, .i32⟩
  | 56 => ⟨S3200000, .i32⟩
  | 57 => ⟨S3200000, .i32⟩
  | 58 => ⟨S3200000x1, .i32⟩
  | 59 => ⟨S3200000x64, .f32⟩
  | 60 => ⟨S_, .f32⟩
  | 61 => ⟨S100000x64, .f32⟩
  | 62 => ⟨S3200000x1, .i32⟩
  | 63 => ⟨S100000x64, .f32⟩
  | 64 => ⟨S100000x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x64, .f32⟩
  | 82 => ⟨S_, .f32⟩
  | 83 => ⟨S100000x64, .f32⟩
  | 84 => ⟨S3200000x1, .i32⟩
  | 85 => ⟨S100000x64, .f32⟩
  | 86 => ⟨S100000x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S100000x64, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x64, .f32⟩
  | 107 => ⟨S_, .f32⟩
  | 108 => ⟨S100000x64, .f32⟩
  | 109 => ⟨S3200000x1, .i32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S100000x64, .f32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x64, .f32⟩

abbrev hbmTy0_1 (i : Nat) : BufTy := match i % 128 with
  | 0 => ⟨S3200000x64, .f32⟩
  | 1 => ⟨S_, .f32⟩
  | 2 => ⟨S100000x64, .f32⟩
  | 3 => ⟨S3200000x1, .i32⟩
  | 4 => ⟨S100000x64, .f32⟩
  | 5 => ⟨S100000x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S100000x64, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x64, .f32⟩
  | 26 => ⟨S_, .f32⟩
  | 27 => ⟨S100000x64, .f32⟩
  | 28 => ⟨S3200000x1, .i32⟩
  | 29 => ⟨S100000x64, .f32⟩
  | 30 => ⟨S100000x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S100000x64, .f32⟩
  | 38 => ⟨S100000x64, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000x64, .f32⟩
  | 48 => ⟨S_, .f32⟩
  | 49 => ⟨S100000x64, .f32⟩
  | 50 => ⟨S3200000x1, .i32⟩
  | 51 => ⟨S100000x64, .f32⟩
  | 52 => ⟨S100000x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x64, .f32⟩
  | 59 => ⟨S100000x192, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x2, .f32⟩
  | 68 => ⟨S1x2, .f32⟩
  | 69 => ⟨S100000x2, .f32⟩
  | 70 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_cst : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_17 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_18 : Ref sig .tc := ⟨.hbm, 120, rfl⟩
abbrev main_v83 : Ref sig .tc := ⟨.hbm, 121, rfl⟩
abbrev main_v84 : Ref sig .tc := ⟨.hbm, 122, rfl⟩
abbrev main_c_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_23 : Ref sig .tc := ⟨.hbm, 145, rfl⟩
abbrev main_v103 : Ref sig .tc := ⟨.hbm, 146, rfl⟩
abbrev main_v104 : Ref sig .tc := ⟨.hbm, 147, rfl⟩
abbrev main_c_24 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_25 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_26 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_c_27 : Ref sig .tc := ⟨.hbm, 167, rfl⟩
abbrev main_v121 : Ref sig .tc := ⟨.hbm, 168, rfl⟩
abbrev main_v122 : Ref sig .tc := ⟨.hbm, 169, rfl⟩
abbrev main_c_28 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_cst_29 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_30 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_call3_cst : Ref sig .tc := ⟨.hbm, 192, rfl⟩
abbrev main_call3_v0 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x192_S192x64_S100000x64_1_0_0_1_n_n_wf : DotDims.WF S100000x192 S192x64 S100000x64 [1] [0] [0] [1] [] []
  dot_S100000x64_S64x2_S100000x2_1_0_0_1_n_n_wf : DotDims.WF S100000x64 S64x2 S100000x2 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.K.Reg0.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first two dense layers on a block of 5000 rows

At every grid point the body reads a block of 5000 rows of the input features and the whole of both weight
matrices and bias rows, and stores `max (max (x · W1 + b1) 0 · W2 + b2) 0` into the output block. Here: what
the output block holds after the body (the canon of its one store), the body's triple, and the pipeline's
proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole blocks as rectangles: the 5000×64 rows, a 64×64 weight matrix, a bias row of 64. -/
abbrev r0_a : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_v : Rect S64 := Rect.unit (s := S64) ![0] S64.size inb_S64_S64_0

/-- The output block after the body: its one store, of the two layers over the loaded blocks. -/
def out0_5 (x0 : Vec F S5000x64 .f32) (x1 : Vec F S64x64 .f32) (x2 : Vec F S64 .f32) (x3 : Vec F S64x64 .f32) (x4 : Vec F S64 .f32) : Vec F S5000x64 .f32 :=
  View.canon [⟨r0_a, k0_pay1 (View.ld x0 r0_a) (View.ld x1 r0_w) (View.ld x2 r0_v) (View.ld x3 r0_w) (View.ld x4 r0_v)⟩]

/-- One store of the whole block covers it. -/
theorem cover0_a (p0 : Vec F S5000x64 .f32) (y : S5000x64.Idx) :
    ∃ pc ∈ ([⟨r0_a, p0⟩] : List (View.Piece (Elt F) S5000x64 .f32)), y ∈ pc.1.set :=
  View.cover_of_tiled [⟨r0_a, p0⟩] S5000x64.size (by rfl) y

set_option maxHeartbeats 4000000 in
/-- The body on whole staging memrefs: the five inputs at read contents, the output at anything, runs to the
    continuation with the inputs as they were and the output at `out0_5`. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_a_kernel i arg1 harg1 arg2 harg2 arg3 harg3 arg4 harg4 arg5 harg5 arg6 harg6) K := by
  simp only [cc0__mlp_a_kernel_eq_skeleton]; unfold cc0__mlp_a_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_a _)

/-- The proof data of this pipeline on core `c`: the arrays as the region finds them; after the body each input's
    buffer at its block and the output's at the canon of its store; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Reg1.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 5000×64 block and the whole 5000×1 column, as rectangles. -/
abbrev r1_a : Rect S5000x64 := Rect.unit (s := S5000x64) ![0, 0] S5000x64.size inb_S5000x64_S5000x64_0_0
abbrev r1_b : Rect S5000x1 := Rect.unit (s := S5000x1) ![0, 0] S5000x1.size inb_S5000x1_S5000x1_0_0

/-- The first output block after the body: its one store, of `f - agg * dinv` over the loaded blocks. -/
def out1_4 (x0 x1 : Vec F S5000x64 .f32) (x2 : Vec F S5000x1 .f32) : Vec F S5000x64 .f32 :=
  View.canon [⟨r1_a, k1_pay1 (View.ld x2 r1_b) (View.ld x0 r1_a) (View.ld x1 r1_a)⟩]

/-- The second output block after the body: its one store, of `acc + t * (f - agg * dinv)`. -/
def out1_5 (x0 x1 : Vec F S5000x64 .f32) (x2 : Vec F S5000x1 .f32) (x3 : Vec F S5000x64 .f32) : Vec F S5000x64 .f32 :=
  View.canon [⟨r1_a, k1_pay2 (View.ld x2 r1_b) (View.ld x0 r1_a) (View.ld x1 r1_a) (View.ld x3 r1_a)⟩]

/-- One store of the whole block covers it. -/
theorem cover1_a (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

set_option maxHeartbeats 4000000 in
/-- The body on whole staging memrefs: the four inputs at read contents, the two outputs at anything, runs to the
    continuation with the inputs as they were and the outputs at `out1_4`, `out1_5`. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E (cc1__lap_step_kernel i arg1 harg1 arg2 harg2 arg3 harg3 arg4 harg4 arg5 harg5 arg6 harg6) K := by
  simp only [cc1__lap_step_kernel_eq_skeleton]; unfold cc1__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_a _)
  iexists _; isplitr
  swap; · iexact H5
  ipureintro
  exact View.read_writes_eq_canon _ _ _ (cover1_a _)

/-- The proof data of this pipeline on core `c`: the arrays as the region finds them; after the body each input's
    buffer at its block and each output's at the canon of its store; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Reg2.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 5000×64 block and the whole 5000×1 column, as rectangles. -/
abbrev r2_a : Rect S5000x64 := Rect.unit (s := S5000x64) ![0, 0] S5000x64.size inb_S5000x64_S5000x64_0_0
abbrev r2_b : Rect S5000x1 := Rect.unit (s := S5000x1) ![0, 0] S5000x1.size inb_S5000x1_S5000x1_0_0

/-- The first output block after the body: its one store, of `f - agg * dinv` over the loaded blocks. -/
def out2_4 (x0 x1 : Vec F S5000x64 .f32) (x2 : Vec F S5000x1 .f32) : Vec F S5000x64 .f32 :=
  View.canon [⟨r2_a, k2_pay1 (View.ld x2 r2_b) (View.ld x0 r2_a) (View.ld x1 r2_a)⟩]

/-- The second output block after the body: its one store, of `acc + t * (f - agg * dinv)`. -/
def out2_5 (x0 x1 : Vec F S5000x64 .f32) (x2 : Vec F S5000x1 .f32) (x3 : Vec F S5000x64 .f32) : Vec F S5000x64 .f32 :=
  View.canon [⟨r2_a, k2_pay2 (View.ld x2 r2_b) (View.ld x0 r2_a) (View.ld x1 r2_a) (View.ld x3 r2_a)⟩]

/-- One store of the whole block covers it. -/
theorem cover2_a (p0 : Vec F S5000x64 .f32) (y : S5000x64.Idx) :
    ∃ pc ∈ ([⟨r2_a, p0⟩] : List (View.Piece (Elt F) S5000x64 .f32)), y ∈ pc.1.set :=
  View.cover_of_tiled [⟨r2_a, p0⟩] S5000x64.size (by rfl) y

set_option maxHeartbeats 4000000 in
/-- The body on whole staging memrefs: the four inputs at read contents, the two outputs at anything, runs to the
    continuation with the inputs as they were and the outputs at `out2_4`, `out2_5`. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2)
            ∗ owns (c : Thread nD τ) arg6 fullShare (out2_5 x0 x1 x2 x3)) -∗ K ⟨⟩))
      ⊢ wp frame (wpE (defs₀ (F := F)) Variants.none c none) E (cc2__lap_step_kernel i arg1 harg1 arg2 harg2 arg3 harg3 arg4 harg4 arg5 harg5 arg6 harg6) K := by
  simp only [cc2__lap_step_kernel_eq_skeleton]; unfold cc2__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_a _)
  iexists _; isplitr
  swap; · iexact H5
  ipureintro
  exact View.read_writes_eq_canon _ _ _ (cover2_a _)

/-- The proof data of this pipeline on core `c`: the arrays as the region finds them; after the body each input's
    buffer at its block and each output's at the canon of its store; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.K.Reg3.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 5000×64 block and the whole 5000×1 column, as rectangles. -/
abbrev r3_a : Rect S5000x64 := Rect.unit (s := S5000x64) ![0, 0] S5000x64.size inb_S5000x64_S5000x64_0_0
abbrev r3_b : Rect S5000x1 := Rect.unit (s := S5000x1) ![0, 0] S5000x1.size inb_S5000x1_S5000x1_0_0

/-- The first output block after the body: its one store, of `f - agg * dinv` over the loaded blocks. -/
def out3_4 (x0 x1 : Vec F S5000x64 .f32) (x2 : Vec F S5000x1 .f32) : Vec F S5000x64 .f32 :=
  View.canon [⟨r3_a, k3_pay1 (View.ld x2 r3_b) (View.ld x0 r3_a) (View.ld x1 r3_a)⟩]

/-- The second output block after the body: its one store, of `acc + t * (f - agg * dinv)`. -/
def out3_5 (x0 x1 : Vec F S5000x64 .f32) (x2 : Vec F S5000x1 .f32) (x3 : Vec F S5000x64 .f32) : Vec F S5000x64 .f32 :=
  View.canon [⟨r3_a, k3_pay2 (View.ld x2 r3_b) (View.ld x0 r3_a) (View.ld x1 r3_a) (View.ld x3 r3_a)⟩]

/-- One store of the whole block covers it. -/
theorem cover3_a (p0 : Vec F S5000x64 .f32) (y : S5000x64.Idx) :
    ∃ pc ∈ ([⟨r3_a, p0⟩] : List (View.Piece (Elt F) S5000x64 .f32)), y ∈ pc.1.set :=
  View.cover_of_tiled [⟨r3_a, p0⟩] S5000x64.size (by rfl) y

set_option maxHeartbeats 4000000 in
/-- The body on whole staging memrefs: the four inputs at read contents, the two outputs at anything, runs to the
    continuation with the inputs as they were and the outputs at `out3_4`, `out3_5`. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2)
            ∗ owns (c : Thread nD τ) arg6 fullShare (out3_5 x0 x1 x2 x3)) -∗ K ⟨⟩))
      ⊢ wp frame (wpE (defs₀ (F := F)) Variants.none c none) E (cc3__lap_step_kernel i arg1 harg1 arg2 harg2 arg3 harg3 arg4 harg4 arg5 harg5 arg6 harg6) K := by
  simp only [cc3__lap_step_kernel_eq_skeleton]; unfold cc3__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_a _)
  iexists _; isplitr
  swap; · iexact H5
  ipureintro
  exact View.read_writes_eq_canon _ _ _ (cover3_a _)

/-- The proof data of this pipeline on core `c`: the arrays as the region finds them; after the body each input's
    buffer at its block and each output's at the canon of its store; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Reg4.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 5000×64 block and the whole 5000×1 column, as rectangles. -/
abbrev r4_a : Rect S5000x64 := Rect.unit (s := S5000x64) ![0, 0] S5000x64.size inb_S5000x64_S5000x64_0_0
abbrev r4_b : Rect S5000x1 := Rect.unit (s := S5000x1) ![0, 0] S5000x1.size inb_S5000x1_S5000x1_0_0

/-- The first output block after the body: its one store, of `f - agg * dinv` over the loaded blocks. -/
def out4_4 (x0 x1 : Vec F S5000x64 .f32) (x2 : Vec F S5000x1 .f32) : Vec F S5000x64 .f32 :=
  View.canon [⟨r4_a, k4_pay1 (View.ld x2 r4_b) (View.ld x0 r4_a) (View.ld x1 r4_a)⟩]

/-- The second output block after the body: its one store, of `acc + t * (f - agg * dinv)`. -/
def out4_5 (x0 x1 : Vec F S5000x64 .f32) (x2 : Vec F S5000x1 .f32) (x3 : Vec F S5000x64 .f32) : Vec F S5000x64 .f32 :=
  View.canon [⟨r4_a, k4_pay2 (View.ld x2 r4_b) (View.ld x0 r4_a) (View.ld x1 r4_a) (View.ld x3 r4_a)⟩]

/-- One store of the whole block covers it. -/
theorem cover4_a (p0 : Vec F S5000x64 .f32) (y : S5000x64.Idx) :
    ∃ pc ∈ ([⟨r4_a, p0⟩] : List (View.Piece (Elt F) S5000x64 .f32)), y ∈ pc.1.set :=
  View.cover_of_tiled [⟨r4_a, p0⟩] S5000x64.size (by rfl) y

set_option maxHeartbeats 4000000 in
/-- The body on whole staging memrefs: the four inputs at read contents, the two outputs at anything, runs to the
    continuation with the inputs as they were and the outputs at `out4_4`, `out4_5`. -/
theorem sound_kernel4 (c : Dev nD) (E : Set ℕ) (i : grid4.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2)
            ∗ owns (c : Thread nD τ) arg6 fullShare (out4_5 x0 x1 x2 x3)) -∗ K ⟨⟩))
      ⊢ wp frame (wpE (defs₀ (F := F)) Variants.none c none) E (cc4__lap_step_kernel i arg1 harg1 arg2 harg2 arg3 harg3 arg4 harg4 arg5 harg5 arg6 harg6) K := by
  simp only [cc4__lap_step_kernel_eq_skeleton]; unfold cc4__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_a _)
  iexists _; isplitr
  swap; · iexact H5
  ipureintro
  exact View.read_writes_eq_canon _ _ _ (cover4_a _)

/-- The proof data of this pipeline on core `c`: the arrays as the region finds them; after the body each input's
    buffer at its block and each output's at the canon of its store; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.K.Reg5.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole 5000×64 block and the whole 5000×1 column, as rectangles. -/
abbrev r5_a : Rect S5000x64 := Rect.unit (s := S5000x64) ![0, 0] S5000x64.size inb_S5000x64_S5000x64_0_0
abbrev r5_b : Rect S5000x1 := Rect.unit (s := S5000x1) ![0, 0] S5000x1.size inb_S5000x1_S5000x1_0_0

/-- The first output block after the body: its one store, of `f - agg * dinv` over the loaded blocks. -/
def out5_4 (x0 x1 : Vec F S5000x64 .f32) (x2 : Vec F S5000x1 .f32) : Vec F S5000x64 .f32 :=
  View.canon [⟨r5_a, k5_pay1 (View.ld x2 r5_b) (View.ld x0 r5_a) (View.ld x1 r5_a)⟩]

/-- The second output block after the body: its one store, of `acc + t * (f - agg * dinv)`. -/
def out5_5 (x0 x1 : Vec F S5000x64 .f32) (x2 : Vec F S5000x1 .f32) (x3 : Vec F S5000x64 .f32) : Vec F S5000x64 .f32 :=
  View.canon [⟨r5_a, k5_pay2 (View.ld x2 r5_b) (View.ld x0 r5_a) (View.ld x1 r5_a) (View.ld x3 r5_a)⟩]

/-- One store of the whole block covers it. -/
theorem cover5_a (p0 : Vec F S5000x64 .f32) (y : S5000x64.Idx) :
    ∃ pc ∈ ([⟨r5_a, p0⟩] : List (View.Piece (Elt F) S5000x64 .f32)), y ∈ pc.1.set :=
  View.cover_of_tiled [⟨r5_a, p0⟩] S5000x64.size (by rfl) y

set_option maxHeartbeats 4000000 in
/-- The body on whole staging memrefs: the four inputs at read contents, the two outputs at anything, runs to the
    continuation with the inputs as they were and the outputs at `out5_4`, `out5_5`. -/
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2)
            ∗ owns (c : Thread nD τ) arg6 fullShare (out5_5 x0 x1 x2 x3)) -∗ K ⟨⟩))
      ⊢ wp frame (wpE (defs₀ (F := F)) Variants.none c none) E (cc5__lap_step_kernel i arg1 harg1 arg2 harg2 arg3 harg3 arg4 harg4 arg5 harg5 arg6 harg6) K := by
  simp only [cc5__lap_step_kernel_eq_skeleton]; unfold cc5__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover5_a _)
  iexists _; isplitr
  swap; · iexact H5
  ipureintro
  exact View.read_writes_eq_canon _ _ _ (cover5_a _)

/-- The proof data of this pipeline on core `c`: the arrays as the region finds them; after the body each input's
    buffer at its block and each output's at the canon of its store; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t)
    | ⟨5, _⟩ => out5_5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) := by dsimp only [dat5]
theorem after5_5 (c : Dev nD) (t : Fin cfg5.N) : (dat5 V c).after 5 t = out5_5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.K.Reg6.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole 5000×64 block and the whole 5000×1 column, as rectangles. -/
abbrev r6_a : Rect S5000x64 := Rect.unit (s := S5000x64) ![0, 0] S5000x64.size inb_S5000x64_S5000x64_0_0
abbrev r6_b : Rect S5000x1 := Rect.unit (s := S5000x1) ![0, 0] S5000x1.size inb_S5000x1_S5000x1_0_0

/-- The first output block after the body: its one store, of `f - agg * dinv` over the loaded blocks. -/
def out6_4 (x0 x1 : Vec F S5000x64 .f32) (x2 : Vec F S5000x1 .f32) : Vec F S5000x64 .f32 :=
  View.canon [⟨r6_a, k6_pay1 (View.ld x2 r6_b) (View.ld x0 r6_a) (View.ld x1 r6_a)⟩]

/-- The second output block after the body: its one store, of `acc + t * (f - agg * dinv)`. -/
def out6_5 (x0 x1 : Vec F S5000x64 .f32) (x2 : Vec F S5000x1 .f32) (x3 : Vec F S5000x64 .f32) : Vec F S5000x64 .f32 :=
  View.canon [⟨r6_a, k6_pay2 (View.ld x2 r6_b) (View.ld x0 r6_a) (View.ld x1 r6_a) (View.ld x3 r6_a)⟩]

/-- One store of the whole block covers it. -/
theorem cover6_a (p0 : Vec F S5000x64 .f32) (y : S5000x64.Idx) :
    ∃ pc ∈ ([⟨r6_a, p0⟩] : List (View.Piece (Elt F) S5000x64 .f32)), y ∈ pc.1.set :=
  View.cover_of_tiled [⟨r6_a, p0⟩] S5000x64.size (by rfl) y

set_option maxHeartbeats 4000000 in
/-- The body on whole staging memrefs: the four inputs at read contents, the two outputs at anything, runs to the
    continuation with the inputs as they were and the outputs at `out6_4`, `out6_5`. -/
theorem sound_kernel6 (c : Dev nD) (E : Set ℕ) (i : grid6.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2)
            ∗ owns (c : Thread nD τ) arg6 fullShare (out6_5 x0 x1 x2 x3)) -∗ K ⟨⟩))
      ⊢ wp frame (wpE (defs₀ (F := F)) Variants.none c none) E (cc6__lap_step_kernel i arg1 harg1 arg2 harg2 arg3 harg3 arg4 harg4 arg5 harg5 arg6 harg6) K := by
  simp only [cc6__lap_step_kernel_eq_skeleton]; unfold cc6__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_a _)
  iexists _; isplitr
  swap; · iexact H5
  ipureintro
  exact View.read_writes_eq_canon _ _ _ (cover6_a _)

/-- The proof data of this pipeline on core `c`: the arrays as the region finds them; after the body each input's
    buffer at its block and each output's at the canon of its store; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t)
    | ⟨5, _⟩ => out6_5 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Gen

end
-- ==== Proof.K.Reg7.lean ====
import proofs.«107957_j86157043957975_1_alg».proof.Proof.Gen.Kernel.Launch
import proofs.«107957_j86157043957975_1_alg».proof.Proof.Gen.Kernel.Skeleton
import proofs.«107957_j86157043957975_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the head's two dense layers on a block of 5000 rows

At every grid point the body reads a block of 5000 rows of the concatenated features and the whole of both weight
matrices and bias rows, and stores `max (max (x · W1 + b1) 0 · W2 + b2) 0` into the output block. Here: what
the output block holds after the body (the canon of its one store), the body's triple, and the pipeline's
proof data at arbitrary region-entry contents `V`.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The whole blocks as rectangles: the 5000×192 rows, the 192×64 and 64×2 weight matrices, the bias rows of 64 and 2, the 5000×2 output. -/
abbrev r7_a : Rect S5000x192 := Rect.unit (s := S5000x192) ![0, 0] S5000x192.size inb_S5000x192_S5000x192_0_0
abbrev r7_w : Rect S192x64 := Rect.unit (s := S192x64) ![0, 0] S192x64.size inb_S192x64_S192x64_0_0
abbrev r7_v : Rect S64 := Rect.unit (s := S64) ![0] S64.size inb_S64_S64_0
abbrev r7_w' : Rect S64x2 := Rect.unit (s := S64x2) ![0, 0] S64x2.size inb_S64x2_S64x2_0_0
abbrev r7_v' : Rect S2 := Rect.unit (s := S2) ![0] S2.size inb_S2_S2_0
abbrev r7_o : Rect S5000x2 := Rect.unit (s := S5000x2) ![0, 0] S5000x2.size inb_S5000x2_S5000x2_0_0

/-- The output block after the body: its one store, of the two layers over the loaded blocks. -/
def out7_5 (x0 : Vec F S5000x192 .f32) (x1 : Vec F S192x64 .f32) (x2 : Vec F S64 .f32) (x3 : Vec F S64x2 .f32) (x4 : Vec F S2 .f32) : Vec F S5000x2 .f32 :=
  View.canon [⟨r7_o, k7_pay1 (View.ld x0 r7_a) (View.ld x1 r7_w) (View.ld x2 r7_v) (View.ld x3 r7_w') (View.ld x4 r7_v')⟩]

/-- One store of the whole block covers it. -/
theorem cover7_a (p0 : Vec F S5000x2 .f32) (y : S5000x2.Idx) :
    ∃ pc ∈ ([⟨r7_o, p0⟩] : List (View.Piece (Elt F) S5000x2 .f32)), y ∈ pc.1.set :=
  View.cover_of_tiled [⟨r7_o, p0⟩] S5000x2.size (by rfl) y

set_option maxHeartbeats 4000000 in
/-- The body on whole staging memrefs: the five inputs at read contents, the output at anything, runs to the
    continuation with the inputs as they were and the output at `out7_5`. -/
theorem sound_kernel7 (c : Dev nD) (E : Set ℕ) (i : grid7.Coords)
    (arg1 : Memref sig .tc .vmem S5000x192 .f32) (harg1 : arg1.IsWhole) (arg2 : Memref sig .tc .vmem S192x64 .f32) (harg2 : arg2.IsWhole)
    (arg3 : Memref sig .tc .vmem S64 .f32) (harg3 : arg3.IsWhole) (arg4 : Memref sig .tc .vmem S64x2 .f32) (harg4 : arg4.IsWhole)
    (arg5 : Memref sig .tc .vmem S2 .f32) (harg5 : arg5.IsWhole) (arg6 : Memref sig .tc .vmem S5000x2 .f32) (harg6 : arg6.IsWhole)
    (x0 : Vec F S5000x192 .f32) (x1 : Vec F S192x64 .f32) (x2 : Vec F S64 .f32) (x3 : Vec F S64x2 .f32) (x4 : Vec F S2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__mlp_b_kernel i arg1 harg1 arg2 harg2 arg3 harg3 arg4 harg4 arg5 harg5 arg6 harg6) K := by
  simp only [cc7__mlp_b_kernel_eq_skeleton]; unfold cc7__mlp_b_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_a _)

/-- The proof data of this pipeline on core `c`: the arrays as the region finds them; after the body each input's
    buffer at its block and the output's at the canon of its store; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.K.Run.lean ====
import proofs.«107957_j86157043957975_1_alg».proof.Proof.K.Reg0
import proofs.«107957_j86157043957975_1_alg».proof.Proof.K.Reg1
import proofs.«107957_j86157043957975_1_alg».proof.Proof.K.Reg2
import proofs.«107957_j86157043957975_1_alg».proof.Proof.K.Reg3
import proofs.«107957_j86157043957975_1_alg».proof.Proof.K.Reg4
import proofs.«107957_j86157043957975_1_alg».proof.Proof.K.Reg5
import proofs.«107957_j86157043957975_1_alg».proof.Proof.K.Reg6
import proofs.«107957_j86157043957975_1_alg».proof.Proof.K.Reg7
import proofs.«107957_j86157043957975_1_alg».proof.Proof.Gen.Kernel.Regions

/-!
# The buffers between the program's items

The program is nine stretches of host operations around eight kernel regions. Core `c`'s unscoped buffers after
each item are a fold from the launch memory: a host stretch applies its operations; a region leaves every buffer
as it found it except its output arrays, which end at what the pipeline's write-backs leave (`Dat.arrAt … N`).
`WJ` is the valuation after item `J - 1`; `XJ` is a region's arrays put back over its entry contents. The
unknowns of the conditional frame are then read off these.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- A family of valuations read at the TensorCore's references (what a region's proof data take). -/
abbrev atTc (W : Dev nD → Valuation τ sig (Elt F)) : (c : Dev nD) → (b : Ref sig .tc) → Buf (Elt F) ((c : Thread nD τ).loc b) :=
  fun c b => W c b

/-- Core `c`'s buffers at region 0's entry: the launch memory after the first three host stretches. -/
abbrev W3 (c : Dev nD) : Valuation τ sig (Elt F) := V3 m c

/-! ## Region 0 -/

/-- Region 0's arrays at what its write-backs leave, put back over its entry contents. -/
def X4 (c : Dev nD) : Valuation τ sig (Elt F) :=
  Pipeline.withArrays spec0 c (W3 m c) fun w => (dat0 (atTc (W3 m)) c).arrAt w cfg0.N
/-- Core `c`'s buffers after region 0: its entry contents with `main_v13` replaced. -/
def W4 (c : Dev nD) : Valuation τ sig (Elt F) :=
  Function.update (W3 m c) main_v13 (X4 m c main_v13)
/-- Region 0 leaves every buffer but its output arrays as it found it. -/
theorem W4_of (c : Dev nD) (r : Ref sig .tc) (h : r ∉ ([main_v13] : List (Ref sig .tc))) : W4 m c r = W3 m c r := by
  unfold W4
  simp only [Function.update_of_ne (StableHlo.devRef_ne_of_ne (List.ne_of_not_mem_cons h) : (Proc.devRef .tc r : DevRef τ sig) ≠ Proc.devRef .tc main_v13)]
/-- After region 0, `main_v13` holds what the write-backs of window 5 leave. -/
theorem W4_out_5 (c : Dev nD) : W4 m c main_v13 = (dat0 (atTc (W3 m)) c).arrAt 5 cfg0.N := by
  unfold W4
  rw [Function.update_self]
  exact Pipeline.withArrays_arr spec0 launch0.win.arr_inj c _ _ 5
set_option maxHeartbeats 4000000 in
/-- Each array of region 0 holds, after it, what the pipeline leaves there: an input array its entry contents,
    an output array its folded write-backs. -/
theorem hF0 (c : Dev nD) : ∀ w : Fin cfg0.W, (dat0 (atTc (W3 m)) c).arrAt w cfg0.N = atTc (W4 m) c (Pipeline.arrRef spec0 w)
  | ⟨0, _⟩ => ((dat0 (atTc (W3 m)) c).arrAt_in 0 rfl _).trans ((A_eq0 (atTc (W3 m)) c 0).trans (W4_of m c main_arg0 (by decide)).symm)
  | ⟨1, _⟩ => ((dat0 (atTc (W3 m)) c).arrAt_in 1 rfl _).trans ((A_eq0 (atTc (W3 m)) c 1).trans (W4_of m c main_arg3 (by decide)).symm)
  | ⟨2, _⟩ => ((dat0 (atTc (W3 m)) c).arrAt_in 2 rfl _).trans ((A_eq0 (atTc (W3 m)) c 2).trans (W4_of m c main_arg4 (by decide)).symm)
  | ⟨3, _⟩ => ((dat0 (atTc (W3 m)) c).arrAt_in 3 rfl _).trans ((A_eq0 (atTc (W3 m)) c 3).trans (W4_of m c main_arg5 (by decide)).symm)
  | ⟨4, _⟩ => ((dat0 (atTc (W3 m)) c).arrAt_in 4 rfl _).trans ((A_eq0 (atTc (W3 m)) c 4).trans (W4_of m c main_arg6 (by decide)).symm)
  | ⟨5, _⟩ => (W4_out_5 m c).symm
/-- A buffer that is no array of region 0 is as the region found it. -/
theorem hrest0 (c : Dev nD) : ∀ b, b ∉ Finset.univ.image (Pipeline.arrRef spec0) → atTc (W4 m) c b = atTc (W3 m) c b :=
  fun b hb => W4_of m c b (fun h => by
    exact hb (Finset.mem_image.mpr ⟨5, Finset.mem_univ _, (List.mem_singleton.mp h).symm⟩))
/-- Core `c`'s buffers after the host stretch `hostOps1`. -/
abbrev W5 (c : Dev nD) : Valuation τ sig (Elt F) := StableHlo.after hostOps1 (W4 m c)

/-! ## Region 1 -/

/-- Region 1's arrays at what its write-backs leave, put back over its entry contents. -/
def X6 (c : Dev nD) : Valuation τ sig (Elt F) :=
  Pipeline.withArrays spec1 c (W5 m c) fun w => (dat1 (atTc (W5 m)) c).arrAt w cfg1.N
/-- Core `c`'s buffers after region 1: its entry contents with `main_v28_0`, `main_v28_1` replaced. -/
def W6 (c : Dev nD) : Valuation τ sig (Elt F) :=
  Function.update (Function.update (W5 m c) main_v28_0 (X6 m c main_v28_0)) main_v28_1 (X6 m c main_v28_1)
/-- Region 1 leaves every buffer but its output arrays as it found it. -/
theorem W6_of (c : Dev nD) (r : Ref sig .tc) (h : r ∉ ([main_v28_0, main_v28_1] : List (Ref sig .tc))) : W6 m c r = W5 m c r := by
  unfold W6
  simp only [Function.update_of_ne (StableHlo.devRef_ne_of_ne (List.ne_of_not_mem_cons (List.not_mem_of_not_mem_cons h)) : (Proc.devRef .tc r : DevRef τ sig) ≠ Proc.devRef .tc main_v28_1), Function.update_of_ne (StableHlo.devRef_ne_of_ne (List.ne_of_not_mem_cons h) : (Proc.devRef .tc r : DevRef τ sig) ≠ Proc.devRef .tc main_v28_0)]
/-- After region 1, `main_v28_0` holds what the write-backs of window 4 leave. -/
theorem W6_out_4 (c : Dev nD) : W6 m c main_v28_0 = (dat1 (atTc (W5 m)) c).arrAt 4 cfg1.N := by
  unfold W6
  rw [Function.update_of_ne (StableHlo.devRef_ne_of_ne (by decide) : (Proc.devRef .tc main_v28_0 : DevRef τ sig) ≠ Proc.devRef .tc main_v28_1), Function.update_self]
  exact Pipeline.withArrays_arr spec1 launch1.win.arr_inj c _ _ 4
/-- After region 1, `main_v28_1` holds what the write-backs of window 5 leave. -/
theorem W6_out_5 (c : Dev nD) : W6 m c main_v28_1 = (dat1 (atTc (W5 m)) c).arrAt 5 cfg1.N := by
  unfold W6
  rw [Function.update_self]
  exact Pipeline.withArrays_arr spec1 launch1.win.arr_inj c _ _ 5
set_option maxHeartbeats 4000000 in
/-- Each array of region 1 holds, after it, what the pipeline leaves there: an input array its entry contents,
    an output array its folded write-backs. -/
theorem hF1 (c : Dev nD) : ∀ w : Fin cfg1.W, (dat1 (atTc (W5 m)) c).arrAt w cfg1.N = atTc (W6 m) c (Pipeline.arrRef spec1 w)
  | ⟨0, _⟩ => ((dat1 (atTc (W5 m)) c).arrAt_in 0 rfl _).trans ((A_eq1 (atTc (W5 m)) c 0).trans (W6_of m c main_v13 (by decide)).symm)
  | ⟨1, _⟩ => ((dat1 (atTc (W5 m)) c).arrAt_in 1 rfl _).trans ((A_eq1 (atTc (W5 m)) c 1).trans (W6_of m c main_v27 (by decide)).symm)
  | ⟨2, _⟩ => ((dat1 (atTc (W5 m)) c).arrAt_in 2 rfl _).trans ((A_eq1 (atTc (W5 m)) c 2).trans (W6_of m c main_v12 (by decide)).symm)
  | ⟨3, _⟩ => ((dat1 (atTc (W5 m)) c).arrAt_in 3 rfl _).trans ((A_eq1 (atTc (W5 m)) c 3).trans (W6_of m c main_v15 (by decide)).symm)
  | ⟨4, _⟩ => (W6_out_4 m c).symm
  | ⟨5, _⟩ => (W6_out_5 m c).symm
/-- A buffer that is no array of region 1 is as the region found it. -/
theorem hrest1 (c : Dev nD) : ∀ b, b ∉ Finset.univ.image (Pipeline.arrRef spec1) → atTc (W6 m) c b = atTc (W5 m) c b :=
  fun b hb => W6_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps2`. -/
abbrev W7 (c : Dev nD) : Valuation τ sig (Elt F) := StableHlo.after hostOps2 (W6 m c)

/-! ## Region 2 -/

/-- Region 2's arrays at what its write-backs leave, put back over its entry contents. -/
def X8 (c : Dev nD) : Valuation τ sig (Elt F) :=
  Pipeline.withArrays spec2 c (W7 m c) fun w => (dat2 (atTc (W7 m)) c).arrAt w cfg2.N
/-- Core `c`'s buffers after region 2: its entry contents with `main_v41_0`, `main_v41_1` replaced. -/
def W8 (c : Dev nD) : Valuation τ sig (Elt F) :=
  Function.update (Function.update (W7 m c) main_v41_0 (X8 m c main_v41_0)) main_v41_1 (X8 m c main_v41_1)
/-- Region 2 leaves every buffer but its output arrays as it found it. -/
theorem W8_of (c : Dev nD) (r : Ref sig .tc) (h : r ∉ ([main_v41_0, main_v41_1] : List (Ref sig .tc))) : W8 m c r = W7 m c r := by
  unfold W8
  simp only [Function.update_of_ne (StableHlo.devRef_ne_of_ne (List.ne_of_not_mem_cons (List.not_mem_of_not_mem_cons h)) : (Proc.devRef .tc r : DevRef τ sig) ≠ Proc.devRef .tc main_v41_1), Function.update_of_ne (StableHlo.devRef_ne_of_ne (List.ne_of_not_mem_cons h) : (Proc.devRef .tc r : DevRef τ sig) ≠ Proc.devRef .tc main_v41_0)]
/-- After region 2, `main_v41_0` holds what the write-backs of window 4 leave. -/
theorem W8_out_4 (c : Dev nD) : W8 m c main_v41_0 = (dat2 (atTc (W7 m)) c).arrAt 4 cfg2.N := by
  unfold W8
  rw [Function.update_of_ne (StableHlo.devRef_ne_of_ne (by decide) : (Proc.devRef .tc main_v41_0 : DevRef τ sig) ≠ Proc.devRef .tc main_v41_1), Function.update_self]
  exact Pipeline.withArrays_arr spec2 launch2.win.arr_inj c _ _ 4
/-- After region 2, `main_v41_1` holds what the write-backs of window 5 leave. -/
theorem W8_out_5 (c : Dev nD) : W8 m c main_v41_1 = (dat2 (atTc (W7 m)) c).arrAt 5 cfg2.N := by
  unfold W8
  rw [Function.update_self]
  exact Pipeline.withArrays_arr spec2 launch2.win.arr_inj c _ _ 5
set_option maxHeartbeats 4000000 in
/-- Each array of region 2 holds, after it, what the pipeline leaves there: an input array its entry contents,
    an output array its folded write-backs. -/
theorem hF2 (c : Dev nD) : ∀ w : Fin cfg2.W, (dat2 (atTc (W7 m)) c).arrAt w cfg2.N = atTc (W8 m) c (Pipeline.arrRef spec2 w)
  | ⟨0, _⟩ => ((dat2 (atTc (W7 m)) c).arrAt_in 0 rfl _).trans ((A_eq2 (atTc (W7 m)) c 0).trans (W8_of m c main_v28_0 (by decide)).symm)
  | ⟨1, _⟩ => ((dat2 (atTc (W7 m)) c).arrAt_in 1 rfl _).trans ((A_eq2 (atTc (W7 m)) c 1).trans (W8_of m c main_v40 (by decide)).symm)
  | ⟨2, _⟩ => ((dat2 (atTc (W7 m)) c).arrAt_in 2 rfl _).trans ((A_eq2 (atTc (W7 m)) c 2).trans (W8_of m c main_v12 (by decide)).symm)
  | ⟨3, _⟩ => ((dat2 (atTc (W7 m)) c).arrAt_in 3 rfl _).trans ((A_eq2 (atTc (W7 m)) c 3).trans (W8_of m c main_v28_1 (by decide)).symm)
  | ⟨4, _⟩ => (W8_out_4 m c).symm
  | ⟨5, _⟩ => (W8_out_5 m c).symm
/-- A buffer that is no array of region 2 is as the region found it. -/
theorem hrest2 (c : Dev nD) : ∀ b, b ∉ Finset.univ.image (Pipeline.arrRef spec2) → atTc (W8 m) c b = atTc (W7 m) c b :=
  fun b hb => W8_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps3`. -/
abbrev W9 (c : Dev nD) : Valuation τ sig (Elt F) := StableHlo.after hostOps3 (W8 m c)

/-! ## Region 3 -/

/-- Region 3's arrays at what its write-backs leave, put back over its entry contents. -/
def X10 (c : Dev nD) : Valuation τ sig (Elt F) :=
  Pipeline.withArrays spec3 c (W9 m c) fun w => (dat3 (atTc (W9 m)) c).arrAt w cfg3.N
/-- Core `c`'s buffers after region 3: its entry contents with `main_v56_0`, `main_v56_1` replaced. -/
def W10 (c : Dev nD) : Valuation τ sig (Elt F) :=
  Function.update (Function.update (W9 m c) main_v56_0 (X10 m c main_v56_0)) main_v56_1 (X10 m c main_v56_1)
/-- Region 3 leaves every buffer but its output arrays as it found it. -/
theorem W10_of (c : Dev nD) (r : Ref sig .tc) (h : r ∉ ([main_v56_0, main_v56_1] : List (Ref sig .tc))) : W10 m c r = W9 m c r := by
  unfold W10
  simp only [Function.update_of_ne (StableHlo.devRef_ne_of_ne (List.ne_of_not_mem_cons (List.not_mem_of_not_mem_cons h)) : (Proc.devRef .tc r : DevRef τ sig) ≠ Proc.devRef .tc main_v56_1), Function.update_of_ne (StableHlo.devRef_ne_of_ne (List.ne_of_not_mem_cons h) : (Proc.devRef .tc r : DevRef τ sig) ≠ Proc.devRef .tc main_v56_0)]
/-- After region 3, `main_v56_0` holds what the write-backs of window 4 leave. -/
theorem W10_out_4 (c : Dev nD) : W10 m c main_v56_0 = (dat3 (atTc (W9 m)) c).arrAt 4 cfg3.N := by
  unfold W10
  rw [Function.update_of_ne (StableHlo.devRef_ne_of_ne (by decide) : (Proc.devRef .tc main_v56_0 : DevRef τ sig) ≠ Proc.devRef .tc main_v56_1), Function.update_self]
  exact Pipeline.withArrays_arr spec3 launch3.win.arr_inj c _ _ 4
/-- After region 3, `main_v56_1` holds what the write-backs of window 5 leave. -/
theorem W10_out_5 (c : Dev nD) : W10 m c main_v56_1 = (dat3 (atTc (W9 m)) c).arrAt 5 cfg3.N := by
  unfold W10
  rw [Function.update_self]
  exact Pipeline.withArrays_arr spec3 launch3.win.arr_inj c _ _ 5
set_option maxHeartbeats 4000000 in
/-- Each array of region 3 holds, after it, what the pipeline leaves there: an input array its entry contents,
    an output array its folded write-backs. -/
theorem hF3 (c : Dev nD) : ∀ w : Fin cfg3.W, (dat3 (atTc (W9 m)) c).arrAt w cfg3.N = atTc (W10 m) c (Pipeline.arrRef spec3 w)
  | ⟨0, _⟩ => ((dat3 (atTc (W9 m)) c).arrAt_in 0 rfl _).trans ((A_eq3 (atTc (W9 m)) c 0).trans (W10_of m c main_v13 (by decide)).symm)
  | ⟨1, _⟩ => ((dat3 (atTc (W9 m)) c).arrAt_in 1 rfl _).trans ((A_eq3 (atTc (W9 m)) c 1).trans (W10_of m c main_v55 (by decide)).symm)
  | ⟨2, _⟩ => ((dat3 (atTc (W9 m)) c).arrAt_in 2 rfl _).trans ((A_eq3 (atTc (W9 m)) c 2).trans (W10_of m c main_v12 (by decide)).symm)
  | ⟨3, _⟩ => ((dat3 (atTc (W9 m)) c).arrAt_in 3 rfl _).trans ((A_eq3 (atTc (W9 m)) c 3).trans (W10_of m c main_v43 (by decide)).symm)
  | ⟨4, _⟩ => (W10_out_4 m c).symm
  | ⟨5, _⟩ => (W10_out_5 m c).symm
/-- A buffer that is no array of region 3 is as the region found it. -/
theorem hrest3 (c : Dev nD) : ∀ b, b ∉ Finset.univ.image (Pipeline.arrRef spec3) → atTc (W10 m) c b = atTc (W9 m) c b :=
  fun b hb => W10_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps4`. -/
abbrev W11 (c : Dev nD) : Valuation τ sig (Elt F) := StableHlo.after hostOps4 (W10 m c)

/-! ## Region 4 -/

/-- Region 4's arrays at what its write-backs leave, put back over its entry contents. -/
def X12 (c : Dev nD) : Valuation τ sig (Elt F) :=
  Pipeline.withArrays spec4 c (W11 m c) fun w => (dat4 (atTc (W11 m)) c).arrAt w cfg4.N
/-- Core `c`'s buffers after region 4: its entry contents with `main_v69_0`, `main_v69_1` replaced. -/
def W12 (c : Dev nD) : Valuation τ sig (Elt F) :=
  Function.update (Function.update (W11 m c) main_v69_0 (X12 m c main_v69_0)) main_v69_1 (X12 m c main_v69_1)
/-- Region 4 leaves every buffer but its output arrays as it found it. -/
theorem W12_of (c : Dev nD) (r : Ref sig .tc) (h : r ∉ ([main_v69_0, main_v69_1] : List (Ref sig .tc))) : W12 m c r = W11 m c r := by
  unfold W12
  simp only [Function.update_of_ne (StableHlo.devRef_ne_of_ne (List.ne_of_not_mem_cons (List.not_mem_of_not_mem_cons h)) : (Proc.devRef .tc r : DevRef τ sig) ≠ Proc.devRef .tc main_v69_1), Function.update_of_ne (StableHlo.devRef_ne_of_ne (List.ne_of_not_mem_cons h) : (Proc.devRef .tc r : DevRef τ sig) ≠ Proc.devRef .tc main_v69_0)]
/-- After region 4, `main_v69_0` holds what the write-backs of window 4 leave. -/
theorem W12_out_4 (c : Dev nD) : W12 m c main_v69_0 = (dat4 (atTc (W11 m)) c).arrAt 4 cfg4.N := by
  unfold W12
  rw [Function.update_of_ne (StableHlo.devRef_ne_of_ne (by decide) : (Proc.devRef .tc main_v69_0 : DevRef τ sig) ≠ Proc.devRef .tc main_v69_1), Function.update_self]
  exact Pipeline.withArrays_arr spec4 launch4.win.arr_inj c _ _ 4
/-- After region 4, `main_v69_1` holds what the write-backs of window 5 leave. -/
theorem W12_out_5 (c : Dev nD) : W12 m c main_v69_1 = (dat4 (atTc (W11 m)) c).arrAt 5 cfg4.N := by
  unfold W12
  rw [Function.update_self]
  exact Pipeline.withArrays_arr spec4 launch4.win.arr_inj c _ _ 5
set_option maxHeartbeats 4000000 in
/-- Each array of region 4 holds, after it, what the pipeline leaves there: an input array its entry contents,
    an output array its folded write-backs. -/
theorem hF4 (c : Dev nD) : ∀ w : Fin cfg4.W, (dat4 (atTc (W11 m)) c).arrAt w cfg4.N = atTc (W12 m) c (Pipeline.arrRef spec4 w)
  | ⟨0, _⟩ => ((dat4 (atTc (W11 m)) c).arrAt_in 0 rfl _).trans ((A_eq4 (atTc (W11 m)) c 0).trans (W12_of m c main_v56_0 (by decide)).symm)
  | ⟨1, _⟩ => ((dat4 (atTc (W11 m)) c).arrAt_in 1 rfl _).trans ((A_eq4 (atTc (W11 m)) c 1).trans (W12_of m c main_v68 (by decide)).symm)
  | ⟨2, _⟩ => ((dat4 (atTc (W11 m)) c).arrAt_in 2 rfl _).trans ((A_eq4 (atTc (W11 m)) c 2).trans (W12_of m c main_v12 (by decide)).symm)
  | ⟨3, _⟩ => ((dat4 (atTc (W11 m)) c).arrAt_in 3 rfl _).trans ((A_eq4 (atTc (W11 m)) c 3).trans (W12_of m c main_v56_1 (by decide)).symm)
  | ⟨4, _⟩ => (W12_out_4 m c).symm
  | ⟨5, _⟩ => (W12_out_5 m c).symm
/-- A buffer that is no array of region 4 is as the region found it. -/
theorem hrest4 (c : Dev nD) : ∀ b, b ∉ Finset.univ.image (Pipeline.arrRef spec4) → atTc (W12 m) c b = atTc (W11 m) c b :=
  fun b hb => W12_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps5`. -/
abbrev W13 (c : Dev nD) : Valuation τ sig (Elt F) := StableHlo.after hostOps5 (W12 m c)

/-! ## Region 5 -/

/-- Region 5's arrays at what its write-backs leave, put back over its entry contents. -/
def X14 (c : Dev nD) : Valuation τ sig (Elt F) :=
  Pipeline.withArrays spec5 c (W13 m c) fun w => (dat5 (atTc (W13 m)) c).arrAt w cfg5.N
/-- Core `c`'s buffers after region 5: its entry contents with `main_v84_0`, `main_v84_1` replaced. -/
def W14 (c : Dev nD) : Valuation τ sig (Elt F) :=
  Function.update (Function.update (W13 m c) main_v84_0 (X14 m c main_v84_0)) main_v84_1 (X14 m c main_v84_1)
/-- Region 5 leaves every buffer but its output arrays as it found it. -/
theorem W14_of (c : Dev nD) (r : Ref sig .tc) (h : r ∉ ([main_v84_0, main_v84_1] : List (Ref sig .tc))) : W14 m c r = W13 m c r := by
  unfold W14
  simp only [Function.update_of_ne (StableHlo.devRef_ne_of_ne (List.ne_of_not_mem_cons (List.not_mem_of_not_mem_cons h)) : (Proc.devRef .tc r : DevRef τ sig) ≠ Proc.devRef .tc main_v84_1), Function.update_of_ne (StableHlo.devRef_ne_of_ne (List.ne_of_not_mem_cons h) : (Proc.devRef .tc r : DevRef τ sig) ≠ Proc.devRef .tc main_v84_0)]
/-- After region 5, `main_v84_0` holds what the write-backs of window 4 leave. -/
theorem W14_out_4 (c : Dev nD) : W14 m c main_v84_0 = (dat5 (atTc (W13 m)) c).arrAt 4 cfg5.N := by
  unfold W14
  rw [Function.update_of_ne (StableHlo.devRef_ne_of_ne (by decide) : (Proc.devRef .tc main_v84_0 : DevRef τ sig) ≠ Proc.devRef .tc main_v84_1), Function.update_self]
  exact Pipeline.withArrays_arr spec5 launch5.win.arr_inj c _ _ 4
/-- After region 5, `main_v84_1` holds what the write-backs of window 5 leave. -/
theorem W14_out_5 (c : Dev nD) : W14 m c main_v84_1 = (dat5 (atTc (W13 m)) c).arrAt 5 cfg5.N := by
  unfold W14
  rw [Function.update_self]
  exact Pipeline.withArrays_arr spec5 launch5.win.arr_inj c _ _ 5
set_option maxHeartbeats 4000000 in
/-- Each array of region 5 holds, after it, what the pipeline leaves there: an input array its entry contents,
    an output array its folded write-backs. -/
theorem hF5 (c : Dev nD) : ∀ w : Fin cfg5.W, (dat5 (atTc (W13 m)) c).arrAt w cfg5.N = atTc (W14 m) c (Pipeline.arrRef spec5 w)
  | ⟨0, _⟩ => ((dat5 (atTc (W13 m)) c).arrAt_in 0 rfl _).trans ((A_eq5 (atTc (W13 m)) c 0).trans (W14_of m c main_v13 (by decide)).symm)
  | ⟨1, _⟩ => ((dat5 (atTc (W13 m)) c).arrAt_in 1 rfl _).trans ((A_eq5 (atTc (W13 m)) c 1).trans (W14_of m c main_v83 (by decide)).symm)
  | ⟨2, _⟩ => ((dat5 (atTc (W13 m)) c).arrAt_in 2 rfl _).trans ((A_eq5 (atTc (W13 m)) c 2).trans (W14_of m c main_v12 (by decide)).symm)
  | ⟨3, _⟩ => ((dat5 (atTc (W13 m)) c).arrAt_in 3 rfl _).trans ((A_eq5 (atTc (W13 m)) c 3).trans (W14_of m c main_v71 (by decide)).symm)
  | ⟨4, _⟩ => (W14_out_4 m c).symm
  | ⟨5, _⟩ => (W14_out_5 m c).symm
/-- A buffer that is no array of region 5 is as the region found it. -/
theorem hrest5 (c : Dev nD) : ∀ b, b ∉ Finset.univ.image (Pipeline.arrRef spec5) → atTc (W14 m) c b = atTc (W13 m) c b :=
  fun b hb => W14_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps6`. -/
abbrev W15 (c : Dev nD) : Valuation τ sig (Elt F) := StableHlo.after hostOps6 (W14 m c)

/-! ## Region 6 -/

/-- Region 6's arrays at what its write-backs leave, put back over its entry contents. -/
def X16 (c : Dev nD) : Valuation τ sig (Elt F) :=
  Pipeline.withArrays spec6 c (W15 m c) fun w => (dat6 (atTc (W15 m)) c).arrAt w cfg6.N
/-- Core `c`'s buffers after region 6: its entry contents with `main_v97_0`, `main_v97_1` replaced. -/
def W16 (c : Dev nD) : Valuation τ sig (Elt F) :=
  Function.update (Function.update (W15 m c) main_v97_0 (X16 m c main_v97_0)) main_v97_1 (X16 m c main_v97_1)
/-- Region 6 leaves every buffer but its output arrays as it found it. -/
theorem W16_of (c : Dev nD) (r : Ref sig .tc) (h : r ∉ ([main_v97_0, main_v97_1] : List (Ref sig .tc))) : W16 m c r = W15 m c r := by
  unfold W16
  simp only [Function.update_of_ne (StableHlo.devRef_ne_of_ne (List.ne_of_not_mem_cons (List.not_mem_of_not_mem_cons h)) : (Proc.devRef .tc r : DevRef τ sig) ≠ Proc.devRef .tc main_v97_1), Function.update_of_ne (StableHlo.devRef_ne_of_ne (List.ne_of_not_mem_cons h) : (Proc.devRef .tc r : DevRef τ sig) ≠ Proc.devRef .tc main_v97_0)]
/-- After region 6, `main_v97_0` holds what the write-backs of window 4 leave. -/
theorem W16_out_4 (c : Dev nD) : W16 m c main_v97_0 = (dat6 (atTc (W15 m)) c).arrAt 4 cfg6.N := by
  unfold W16
  rw [Function.update_of_ne (StableHlo.devRef_ne_of_ne (by decide) : (Proc.devRef .tc main_v97_0 : DevRef τ sig) ≠ Proc.devRef .tc main_v97_1), Function.update_self]
  exact Pipeline.withArrays_arr spec6 launch6.win.arr_inj c _ _ 4
/-- After region 6, `main_v97_1` holds what the write-backs of window 5 leave. -/
theorem W16_out_5 (c : Dev nD) : W16 m c main_v97_1 = (dat6 (atTc (W15 m)) c).arrAt 5 cfg6.N := by
  unfold W16
  rw [Function.update_self]
  exact Pipeline.withArrays_arr spec6 launch6.win.arr_inj c _ _ 5
set_option maxHeartbeats 4000000 in
/-- Each array of region 6 holds, after it, what the pipeline leaves there: an input array its entry contents,
    an output array its folded write-backs. -/
theorem hF6 (c : Dev nD) : ∀ w : Fin cfg6.W, (dat6 (atTc (W15 m)) c).arrAt w cfg6.N = atTc (W16 m) c (Pipeline.arrRef spec6 w)
  | ⟨0, _⟩ => ((dat6 (atTc (W15 m)) c).arrAt_in 0 rfl _).trans ((A_eq6 (atTc (W15 m)) c 0).trans (W16_of m c main_v84_0 (by decide)).symm)
  | ⟨1, _⟩ => ((dat6 (atTc (W15 m)) c).arrAt_in 1 rfl _).trans ((A_eq6 (atTc (W15 m)) c 1).trans (W16_of m c main_v96 (by decide)).symm)
  | ⟨2, _⟩ => ((dat6 (atTc (W15 m)) c).arrAt_in 2 rfl _).trans ((A_eq6 (atTc (W15 m)) c 2).trans (W16_of m c main_v12 (by decide)).symm)
  | ⟨3, _⟩ => ((dat6 (atTc (W15 m)) c).arrAt_in 3 rfl _).trans ((A_eq6 (atTc (W15 m)) c 3).trans (W16_of m c main_v84_1 (by decide)).symm)
  | ⟨4, _⟩ => (W16_out_4 m c).symm
  | ⟨5, _⟩ => (W16_out_5 m c).symm
/-- A buffer that is no array of region 6 is as the region found it. -/
theorem hrest6 (c : Dev nD) : ∀ b, b ∉ Finset.univ.image (Pipeline.arrRef spec6) → atTc (W16 m) c b = atTc (W15 m) c b :=
  fun b hb => W16_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps7`. -/
abbrev W17 (c : Dev nD) : Valuation τ sig (Elt F) := StableHlo.after hostOps7 (W16 m c)

/-! ## Region 7 -/

/-- Region 7's arrays at what its write-backs leave, put back over its entry contents. -/
def X18 (c : Dev nD) : Valuation τ sig (Elt F) :=
  Pipeline.withArrays spec7 c (W17 m c) fun w => (dat7 (atTc (W17 m)) c).arrAt w cfg7.N
/-- Core `c`'s buffers after region 7: its entry contents with `main_v99` replaced. -/
def W18 (c : Dev nD) : Valuation τ sig (Elt F) :=
  Function.update (W17 m c) main_v99 (X18 m c main_v99)
/-- Region 7 leaves every buffer but its output arrays as it found it. -/
theorem W18_of (c : Dev nD) (r : Ref sig .tc) (h : r ∉ ([main_v99] : List (Ref sig .tc))) : W18 m c r = W17 m c r := by
  unfold W18
  simp only [Function.update_of_ne (StableHlo.devRef_ne_of_ne (List.ne_of_not_mem_cons h) : (Proc.devRef .tc r : DevRef τ sig) ≠ Proc.devRef .tc main_v99)]
/-- After region 7, `main_v99` holds what the write-backs of window 5 leave. -/
theorem W18_out_5 (c : Dev nD) : W18 m c main_v99 = (dat7 (atTc (W17 m)) c).arrAt 5 cfg7.N := by
  unfold W18
  rw [Function.update_self]
  exact Pipeline.withArrays_arr spec7 launch7.win.arr_inj c _ _ 5
set_option maxHeartbeats 4000000 in
/-- Each array of region 7 holds, after it, what the pipeline leaves there: an input array its entry contents,
    an output array its folded write-backs. -/
theorem hF7 (c : Dev nD) : ∀ w : Fin cfg7.W, (dat7 (atTc (W17 m)) c).arrAt w cfg7.N = atTc (W18 m) c (Pipeline.arrRef spec7 w)
  | ⟨0, _⟩ => ((dat7 (atTc (W17 m)) c).arrAt_in 0 rfl _).trans ((A_eq7 (atTc (W17 m)) c 0).trans (W18_of m c main_v98 (by decide)).symm)
  | ⟨1, _⟩ => ((dat7 (atTc (W17 m)) c).arrAt_in 1 rfl _).trans ((A_eq7 (atTc (W17 m)) c 1).trans (W18_of m c main_arg7 (by decide)).symm)
  | ⟨2, _⟩ => ((dat7 (atTc (W17 m)) c).arrAt_in 2 rfl _).trans ((A_eq7 (atTc (W17 m)) c 2).trans (W18_of m c main_arg8 (by decide)).symm)
  | ⟨3, _⟩ => ((dat7 (atTc (W17 m)) c).arrAt_in 3 rfl _).trans ((A_eq7 (atTc (W17 m)) c 3).trans (W18_of m c main_arg9 (by decide)).symm)
  | ⟨4, _⟩ => ((dat7 (atTc (W17 m)) c).arrAt_in 4 rfl _).trans ((A_eq7 (atTc (W17 m)) c 4).trans (W18_of m c main_arg10 (by decide)).symm)
  | ⟨5, _⟩ => (W18_out_5 m c).symm
/-- A buffer that is no array of region 7 is as the region found it. -/
theorem hrest7 (c : Dev nD) : ∀ b, b ∉ Finset.univ.image (Pipeline.arrRef spec7) → atTc (W18 m) c b = atTc (W17 m) c b :=
  fun b hb => W18_of m c b (fun h => by
    exact hb (Finset.mem_image.mpr ⟨5, Finset.mem_univ _, (List.mem_singleton.mp h).symm⟩))

/-! ## The unknowns of the conditional frame, read off the fold -/

/-- What each region leaves in each buffer it may change: the fold's valuation after it (anything elsewhere). -/
def outsW : Outs (F := F) := fun J r c =>
  if J = 4 then X4 m c r else if J = 6 then X6 m c r else if J = 8 then X8 m c r else if J = 10 then X10 m c r
  else if J = 12 then X12 m c r else if J = 14 then X14 m c r else if J = 16 then X16 m c r else if J = 18 then X18 m c r
  else V0 m c r

theorem V4_eq (c : Dev nD) : V4 m (outsW m) c = W4 m c := rfl
theorem V5_eq (c : Dev nD) : V5 m (outsW m) c = W5 m c := rfl
theorem V6_eq (c : Dev nD) : V6 m (outsW m) c = W6 m c := rfl
theorem V7_eq (c : Dev nD) : V7 m (outsW m) c = W7 m c := rfl
theorem V8_eq (c : Dev nD) : V8 m (outsW m) c = W8 m c := rfl
theorem V9_eq (c : Dev nD) : V9 m (outsW m) c = W9 m c := rfl
theorem V10_eq (c : Dev nD) : V10 m (outsW m) c = W10 m c := rfl
theorem V11_eq (c : Dev nD) : V11 m (outsW m) c = W11 m c := rfl
theorem V12_eq (c : Dev nD) : V12 m (outsW m) c = W12 m c := rfl
theorem V13_eq (c : Dev nD) : V13 m (outsW m) c = W13 m c := rfl
theorem V14_eq (c : Dev nD) : V14 m (outsW m) c = W14 m c := rfl
theorem V15_eq (c : Dev nD) : V15 m (outsW m) c = W15 m c := rfl
theorem V16_eq (c : Dev nD) : V16 m (outsW m) c = W16 m c := rfl
theorem V17_eq (c : Dev nD) : V17 m (outsW m) c = W17 m c := rfl
theorem V18_eq (c : Dev nD) : V18 m (outsW m) c = W18 m c := rfl

/-! ## The proof data family and the regions as segments -/

local notation "𝕄" => MT nD τ sig Unit (Elt F) ℕ (UR sig nD τ) ℕ

/-- Every pipeline's proof data, each at its region's entry contents. -/
def pdats : (p : Fin 8) → (c : Dev nD) → Dat τ (Elt F) Unit ℕ (UR sig nD τ) ℕ (cfgs p) c
  | ⟨0, _⟩ => fun c => dat0 (atTc (W3 m)) c
  | ⟨1, _⟩ => fun c => dat1 (atTc (W5 m)) c
  | ⟨2, _⟩ => fun c => dat2 (atTc (W7 m)) c
  | ⟨3, _⟩ => fun c => dat3 (atTc (W9 m)) c
  | ⟨4, _⟩ => fun c => dat4 (atTc (W11 m)) c
  | ⟨5, _⟩ => fun c => dat5 (atTc (W13 m)) c
  | ⟨6, _⟩ => fun c => dat6 (atTc (W15 m)) c
  | ⟨7, _⟩ => fun c => dat7 (atTc (W17 m)) c
/-- No core owes another anything: no level is assigned. -/
abbrev noL : GSem nD τ sig → Finset Unit := fun _ => ∅
abbrev noLv : GSem nD τ sig → Unit → ℕ := fun _ _ => 0
/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Region 0 over the thread state "every unscoped buffer at the boundary's contents, the generator register at some
    state, nothing owed": its arrays split out of the unscoped buffers at entry and put back at the exit contents;
    the generator register into the class invariant and out; no semaphore of the kernel's own. -/
def reg0 : RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ noL noLv 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": its arrays split out of the unscoped buffers at entry and put back at the exit contents;
    the generator register into the class invariant and out; no semaphore of the kernel's own. -/
def reg1 : RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ noL noLv 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state "every unscoped buffer at the boundary's contents, the generator register at some
    state, nothing owed": its arrays split out of the unscoped buffers at entry and put back at the exit contents;
    the generator register into the class invariant and out; no semaphore of the kernel's own. -/
def reg2 : RegionSeg (pcfgs (F := F)) adm (pdats m) () defs₀ Variants.none noL noLv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ noL noLv 2 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state "every unscoped buffer at the boundary's contents, the generator register at some
    state, nothing owed": its arrays split out of the unscoped buffers at entry and put back at the exit contents;
    the generator register into the class invariant and out; no semaphore of the kernel's own. -/
def reg3 : RegionSeg (pcfgs (F := F)) adm (pdats m) () defs₀ Variants.none noL noLv 3 where
  win := launch3.win.to₀
  block_pos := launch3.block_pos
  stage_whole := launch3.stage_whole
  K := PEmpty
  osem k := k.elim
  ho := Pipeline.OwnSemFacts.none _
  hbody c := (body_obligation3 (atTc (W9 m)) c).loose
  hwaits := Pipeline.hwaits_of_owed_zero _ _ _ _ noL noLv 3 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W9 m) c) (atTc (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state "every unscoped buffer at the boundary's contents, the generator register at some
    state, nothing owed": its arrays split out of the unscoped buffers at entry and put back at the exit contents;
    the generator register into the class invariant and out; no semaphore of the kernel's own. -/
def reg4 : RegionSeg (pcfgs (F := F)) adm (pdats m) () defs₀ Variants.none noL noLv 4 where
  win := launch4.win.to₀
  block_pos := launch4.block_pos
  stage_whole := launch4.stage_whole
  K := PEmpty
  osem k := k.elim
  ho := Pipeline.OwnSemFacts.none _
  hbody c := (body_obligation4 (atTc (W11 m)) c).loose
  hwaits := Pipeline.hwaits_of_owed_zero _ _ _ _ noL noLv 4 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W11 m) c) (atTc (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state "every unscoped buffer at the boundary's contents, the generator register at some
    state, nothing owed": its arrays split out of the unscoped buffers at entry and put back at the exit contents;
    the generator register into the class invariant and out; no semaphore of the kernel's own. -/
def reg5 : RegionSeg (pcfgs (F := F)) adm (pdats m) () defs₀ Variants.none noL noLv 5 where
  win := launch5.win.to₀
  block_pos := launch5.block_pos
  stage_whole := launch5.stage_whole
  K := PEmpty
  osem k := k.elim
  ho := Pipeline.OwnSemFacts.none _
  hbody c := (body_obligation5 (atTc (W13 m)) c).loose
  hwaits := Pipeline.hwaits_of_owed_zero _ _ _ _ noL noLv 5 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (W13 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W13 m) c) (atTc (W14 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state "every unscoped buffer at the boundary's contents, the generator register at some
    state, nothing owed": its arrays split out of the unscoped buffers at entry and put back at the exit contents;
    the generator register into the class invariant and out; no semaphore of the kernel's own. -/
def reg6 : RegionSeg (pcfgs (F := F)) adm (pdats m) () defs₀ Variants.none noL noLv 6 where
  win := launch6.win.to₀
  block_pos := launch6.block_pos
  stage_whole := launch6.stage_whole
  K := PEmpty
  osem k := k.elim
  ho := Pipeline.OwnSemFacts.none _
  hbody c := (body_obligation6 (atTc (W15 m)) c).loose
  hwaits := Pipeline.hwaits_of_owed_zero _ _ _ _ noL noLv 6 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (W15 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W15 m) c) (atTc (W16 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state "every unscoped buffer at the boundary's contents, the generator register at some
    state, nothing owed": its arrays split out of the unscoped buffers at entry and put back at the exit contents;
    the generator register into the class invariant and out; no semaphore of the kernel's own. -/
def reg7 : RegionSeg (pcfgs (F := F)) adm (pdats m) () defs₀ Variants.none noL noLv 7 where
  win := launch7.win.to₀
  block_pos := launch7.block_pos
  stage_whole := launch7.stage_whole
  K := PEmpty
  osem k := k.elim
  ho := Pipeline.OwnSemFacts.none _
  hbody c := (body_obligation7 (atTc (W17 m)) c).loose
  hwaits := Pipeline.hwaits_of_owed_zero _ _ _ _ noL noLv 7 fun _ _ => rfl
  pre c := iprop(StableHlo.held (c : Thread nD τ) (Pipeline.ucRefs τ sig) (W17 m c) ∗ Rst c)
  post c := iprop(StableHlo.held (c : Thread nD τ) (Pipeline.ucRefs τ sig) (W18 m c) ∗ Rst c)
  X c := iprop(∃ r, prngReg c r)
  Y c := iprop(∃ r, prngReg c r)
  Z c := Pipeline.unscopedRest (Ix := Unit) (Name := ℕ) (U := UR sig nD τ) (Lvl := ℕ) spec7 c (atTc (W17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (W17 m) c) (atTc (W18 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

-- the conditional frame's implicit arguments are found by unifying its conclusion with this one, which takes unfolding
-- plain definitions in a metavariable's type
set_option backward.isDefEq.respectTransparency.types false in
/-- From any memory with zero counters every weakly fair execution of the program terminates, nothing faulting, and
    every final state holds the argument arrays as launched: the conditional frame at the fold's contents, each
    region's record entered from the boundary before it and left at the one after it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := Variants.none) (L := noL) (lv := noLv) (hL := fun _ _ => rfl) (ρ := ρ)
    (outs := outsW m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach noL noLv fun c => by
      iintro ⟨⟨-, HO, -, Hp, -⟩, -⟩
      imodintro
      isplitl [Hp]; · iexists _; iexact Hp
      iexists ∅; iexact HO)
    (hE8 := fun c => by iintro ⟨-, HO⟩; iexact HO)
    (R0 := reg0 m) (hpre0 := fun c => .rfl) (hpost0 := fun c => Entails.of_eq (by rw [V4_eq]; rfl))
    (R1 := reg1 m) (hpre1 := fun c => Entails.of_eq (by rw [V5_eq]; rfl)) (hpost1 := fun c => Entails.of_eq (by rw [V6_eq]; rfl))
    (R2 := reg2 m) (hpre2 := fun c => Entails.of_eq (by rw [V7_eq]; rfl)) (hpost2 := fun c => Entails.of_eq (by rw [V8_eq]; rfl))
    (R3 := reg3 m) (hpre3 := fun c => Entails.of_eq (by rw [V9_eq]; rfl)) (hpost3 := fun c => Entails.of_eq (by rw [V10_eq]; rfl))
    (R4 := reg4 m) (hpre4 := fun c => Entails.of_eq (by rw [V11_eq]; rfl)) (hpost4 := fun c => Entails.of_eq (by rw [V12_eq]; rfl))
    (R5 := reg5 m) (hpre5 := fun c => Entails.of_eq (by rw [V13_eq]; rfl)) (hpost5 := fun c => Entails.of_eq (by rw [V14_eq]; rfl))
    (R6 := reg6 m) (hpre6 := fun c => Entails.of_eq (by rw [V15_eq]; rfl)) (hpost6 := fun c => Entails.of_eq (by rw [V16_eq]; rfl))
    (R7 := reg7 m) (hpre7 := fun c => Entails.of_eq (by rw [V17_eq]; rfl)) (hpost7 := fun c => Entails.of_eq (by rw [V18_eq]; rfl))

end Cert.Kernel.Gen

end
-- ==== Proof.KI.Reg0.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0: the first two dense layers on a block of 5000 rows

At every grid point the body reads a block of 5000 rows of the input features and the whole of both weight
matrices and bias rows, and stores `max (max (x · W1 + b1) 0 · W2 + b2) 0` into the output block. Here: what
the output block holds after the body (the canon of its one store), the body's triple, and the pipeline's
proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole blocks as rectangles: the 5000×64 rows, a 64×64 weight matrix, a bias row of 64. -/
abbrev r0_a : Rect S5000x64 := Rect.unit (s := S5000x64) ![0, 0] S5000x64.size inb_S5000x64_S5000x64_0_0
abbrev r0_w : Rect S64x64 := Rect.unit (s := S64x64) ![0, 0] S64x64.size inb_S64x64_S64x64_0_0
abbrev r0_v : Rect S64 := Rect.unit (s := S64) ![0] S64.size inb_S64_S64_0

/-- The output block after the body: its one store, of the two layers over the loaded blocks. -/
def out0_5 (x0 : Vec F S5000x64 .f32) (x1 : Vec F S64x64 .f32) (x2 : Vec F S64 .f32) (x3 : Vec F S64x64 .f32) (x4 : Vec F S64 .f32) : Vec F S5000x64 .f32 :=
  View.canon [⟨r0_a, k0_pay1 (View.ld x0 r0_a) (View.ld x1 r0_w) (View.ld x2 r0_v) (View.ld x3 r0_w) (View.ld x4 r0_v)⟩]

/-- One store of the whole block covers it. -/
theorem cover0_a (p0 : Vec F S5000x64 .f32) (y : S5000x64.Idx) :
    ∃ pc ∈ ([⟨r0_a, p0⟩] : List (View.Piece (Elt F) S5000x64 .f32)), y ∈ pc.1.set :=
  View.cover_of_tiled [⟨r0_a, p0⟩] S5000x64.size (by rfl) y

set_option maxHeartbeats 4000000 in
/-- The body on whole staging memrefs: the five inputs at read contents, the output at anything, runs to the
    continuation with the inputs as they were and the output at `out0_5`. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64x64 .f32) (x2 : Vec F S64 .f32) (x3 : Vec F S64x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_a_kernel i arg1 harg1 arg2 harg2 arg3 harg3 arg4 harg4 arg5 harg5 arg6 harg6) K := by
  simp only [cc0__mlp_a_kernel_eq_skeleton]; unfold cc0__mlp_a_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_a _)

/-- The proof data of this pipeline on core `c`: the arrays as the region finds them; after the body each input's
    buffer at its block and the output's at the canon of its store; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole 5000×64 block and the whole 5000×1 column, as rectangles. -/
abbrev r1_a : Rect S5000x64 := Rect.unit (s := S5000x64) ![0, 0] S5000x64.size inb_S5000x64_S5000x64_0_0
abbrev r1_b : Rect S5000x1 := Rect.unit (s := S5000x1) ![0, 0] S5000x1.size inb_S5000x1_S5000x1_0_0

/-- The first output block after the body: its one store, of `f - agg * dinv` over the loaded blocks. -/
def out1_4 (x0 x1 : Vec F S5000x64 .f32) (x2 : Vec F S5000x1 .f32) : Vec F S5000x64 .f32 :=
  View.canon [⟨r1_a, k1_pay1 (View.ld x2 r1_b) (View.ld x0 r1_a) (View.ld x1 r1_a)⟩]

/-- The second output block after the body: its one store, of `acc + t * (f - agg * dinv)`. -/
def out1_5 (x0 x1 : Vec F S5000x64 .f32) (x2 : Vec F S5000x1 .f32) (x3 : Vec F S5000x64 .f32) : Vec F S5000x64 .f32 :=
  View.canon [⟨r1_a, k1_pay2 (View.ld x2 r1_b) (View.ld x0 r1_a) (View.ld x1 r1_a) (View.ld x3 r1_a)⟩]

/-- One store of the whole block covers it. -/
theorem cover1_a (p0 : Vec F S5000x64 .f32) (y : S5000x64.Idx) :
    ∃ pc ∈ ([⟨r1_a, p0⟩] : List (View.Piece (Elt F) S5000x64 .f32)), y ∈ pc.1.set :=
  View.cover_of_tiled [⟨r1_a, p0⟩] S5000x64.size (by rfl) y

set_option maxHeartbeats 4000000 in
/-- The body on whole staging memrefs: the four inputs at read contents, the two outputs at anything, runs to the
    continuation with the inputs as they were and the outputs at `out1_4`, `out1_5`. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2)
            ∗ owns (c : Thread nD τ) arg6 fullShare (out1_5 x0 x1 x2 x3)) -∗ K ⟨⟩))
      ⊢ wp frame (wpE (defs₀ (F := F)) Variants.none c none) E (cc1__lap_step_kernel i arg1 harg1 arg2 harg2 arg3 harg3 arg4 harg4 arg5 harg5 arg6 harg6) K := by
  simp only [cc1__lap_step_kernel_eq_skeleton]; unfold cc1__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_a _)
  iexists _; isplitr
  swap; · iexact H5
  ipureintro
  exact View.read_writes_eq_canon _ _ _ (cover1_a _)

/-- The proof data of this pipeline on core `c`: the arrays as the region finds them; after the body each input's
    buffer at its block and each output's at the canon of its store; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 2: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole 5000×64 block and the whole 5000×1 column, as rectangles. -/
abbrev r2_a : Rect S5000x64 := Rect.unit (s := S5000x64) ![0, 0] S5000x64.size inb_S5000x64_S5000x64_0_0
abbrev r2_b : Rect S5000x1 := Rect.unit (s := S5000x1) ![0, 0] S5000x1.size inb_S5000x1_S5000x1_0_0

/-- The first output block after the body: its one store, of `f - agg * dinv` over the loaded blocks. -/
def out2_4 (x0 x1 : Vec F S5000x64 .f32) (x2 : Vec F S5000x1 .f32) : Vec F S5000x64 .f32 :=
  View.canon [⟨r2_a, k2_pay1 (View.ld x2 r2_b) (View.ld x0 r2_a) (View.ld x1 r2_a)⟩]

/-- The second output block after the body: its one store, of `acc + t * (f - agg * dinv)`. -/
def out2_5 (x0 x1 : Vec F S5000x64 .f32) (x2 : Vec F S5000x1 .f32) (x3 : Vec F S5000x64 .f32) : Vec F S5000x64 .f32 :=
  View.canon [⟨r2_a, k2_pay2 (View.ld x2 r2_b) (View.ld x0 r2_a) (View.ld x1 r2_a) (View.ld x3 r2_a)⟩]

/-- One store of the whole block covers it. -/
theorem cover2_a (p0 : Vec F S5000x64 .f32) (y : S5000x64.Idx) :
    ∃ pc ∈ ([⟨r2_a, p0⟩] : List (View.Piece (Elt F) S5000x64 .f32)), y ∈ pc.1.set :=
  View.cover_of_tiled [⟨r2_a, p0⟩] S5000x64.size (by rfl) y

set_option maxHeartbeats 4000000 in
/-- The body on whole staging memrefs: the four inputs at read contents, the two outputs at anything, runs to the
    continuation with the inputs as they were and the outputs at `out2_4`, `out2_5`. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2)
            ∗ owns (c : Thread nD τ) arg6 fullShare (out2_5 x0 x1 x2 x3)) -∗ K ⟨⟩))
      ⊢ wp frame (wpE (defs₀ (F := F)) Variants.none c none) E (cc2__lap_step_kernel i arg1 harg1 arg2 harg2 arg3 harg3 arg4 harg4 arg5 harg5 arg6 harg6) K := by
  simp only [cc2__lap_step_kernel_eq_skeleton]; unfold cc2__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_a _)
  iexists _; isplitr
  swap; · iexact H5
  ipureintro
  exact View.read_writes_eq_canon _ _ _ (cover2_a _)

/-- The proof data of this pipeline on core `c`: the arrays as the region finds them; after the body each input's
    buffer at its block and each output's at the canon of its store; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.Reg3.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 3: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The whole 5000×64 block and the whole 5000×1 column, as rectangles. -/
abbrev r3_a : Rect S5000x64 := Rect.unit (s := S5000x64) ![0, 0] S5000x64.size inb_S5000x64_S5000x64_0_0
abbrev r3_b : Rect S5000x1 := Rect.unit (s := S5000x1) ![0, 0] S5000x1.size inb_S5000x1_S5000x1_0_0

/-- The first output block after the body: its one store, of `f - agg * dinv` over the loaded blocks. -/
def out3_4 (x0 x1 : Vec F S5000x64 .f32) (x2 : Vec F S5000x1 .f32) : Vec F S5000x64 .f32 :=
  View.canon [⟨r3_a, k3_pay1 (View.ld x2 r3_b) (View.ld x0 r3_a) (View.ld x1 r3_a)⟩]

/-- The second output block after the body: its one store, of `acc + t * (f - agg * dinv)`. -/
def out3_5 (x0 x1 : Vec F S5000x64 .f32) (x2 : Vec F S5000x1 .f32) (x3 : Vec F S5000x64 .f32) : Vec F S5000x64 .f32 :=
  View.canon [⟨r3_a, k3_pay2 (View.ld x2 r3_b) (View.ld x0 r3_a) (View.ld x1 r3_a) (View.ld x3 r3_a)⟩]

/-- One store of the whole block covers it. -/
theorem cover3_a (p0 : Vec F S5000x64 .f32) (y : S5000x64.Idx) :
    ∃ pc ∈ ([⟨r3_a, p0⟩] : List (View.Piece (Elt F) S5000x64 .f32)), y ∈ pc.1.set :=
  View.cover_of_tiled [⟨r3_a, p0⟩] S5000x64.size (by rfl) y

set_option maxHeartbeats 4000000 in
/-- The body on whole staging memrefs: the four inputs at read contents, the two outputs at anything, runs to the
    continuation with the inputs as they were and the outputs at `out3_4`, `out3_5`. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2)
            ∗ owns (c : Thread nD τ) arg6 fullShare (out3_5 x0 x1 x2 x3)) -∗ K ⟨⟩))
      ⊢ wp frame (wpE (defs₀ (F := F)) Variants.none c none) E (cc3__lap_step_kernel i arg1 harg1 arg2 harg2 arg3 harg3 arg4 harg4 arg5 harg5 arg6 harg6) K := by
  simp only [cc3__lap_step_kernel_eq_skeleton]; unfold cc3__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_a _)
  iexists _; isplitr
  swap; · iexact H5
  ipureintro
  exact View.read_writes_eq_canon _ _ _ (cover3_a _)

/-- The proof data of this pipeline on core `c`: the arrays as the region finds them; after the body each input's
    buffer at its block and each output's at the canon of its store; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) := by dsimp only [dat3]
theorem after3_5 (c : Dev nD) (t : Fin cfg3.N) : (dat3 V c).after 5 t = out3_5 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Reg4.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 4: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The whole 5000×64 block and the whole 5000×1 column, as rectangles. -/
abbrev r4_a : Rect S5000x64 := Rect.unit (s := S5000x64) ![0, 0] S5000x64.size inb_S5000x64_S5000x64_0_0
abbrev r4_b : Rect S5000x1 := Rect.unit (s := S5000x1) ![0, 0] S5000x1.size inb_S5000x1_S5000x1_0_0

/-- The first output block after the body: its one store, of `f - agg * dinv` over the loaded blocks. -/
def out4_4 (x0 x1 : Vec F S5000x64 .f32) (x2 : Vec F S5000x1 .f32) : Vec F S5000x64 .f32 :=
  View.canon [⟨r4_a, k4_pay1 (View.ld x2 r4_b) (View.ld x0 r4_a) (View.ld x1 r4_a)⟩]

/-- The second output block after the body: its one store, of `acc + t * (f - agg * dinv)`. -/
def out4_5 (x0 x1 : Vec F S5000x64 .f32) (x2 : Vec F S5000x1 .f32) (x3 : Vec F S5000x64 .f32) : Vec F S5000x64 .f32 :=
  View.canon [⟨r4_a, k4_pay2 (View.ld x2 r4_b) (View.ld x0 r4_a) (View.ld x1 r4_a) (View.ld x3 r4_a)⟩]

/-- One store of the whole block covers it. -/
theorem cover4_a (p0 : Vec F S5000x64 .f32) (y : S5000x64.Idx) :
    ∃ pc ∈ ([⟨r4_a, p0⟩] : List (View.Piece (Elt F) S5000x64 .f32)), y ∈ pc.1.set :=
  View.cover_of_tiled [⟨r4_a, p0⟩] S5000x64.size (by rfl) y

set_option maxHeartbeats 4000000 in
/-- The body on whole staging memrefs: the four inputs at read contents, the two outputs at anything, runs to the
    continuation with the inputs as they were and the outputs at `out4_4`, `out4_5`. -/
theorem sound_kernel4 (c : Dev nD) (E : Set ℕ) (i : grid4.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4_4 x0 x1 x2)
            ∗ owns (c : Thread nD τ) arg6 fullShare (out4_5 x0 x1 x2 x3)) -∗ K ⟨⟩))
      ⊢ wp frame (wpE (defs₀ (F := F)) Variants.none c none) E (cc4__lap_step_kernel i arg1 harg1 arg2 harg2 arg3 harg3 arg4 harg4 arg5 harg5 arg6 harg6) K := by
  simp only [cc4__lap_step_kernel_eq_skeleton]; unfold cc4__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_a _)
  iexists _; isplitr
  swap; · iexact H5
  ipureintro
  exact View.read_writes_eq_canon _ _ _ (cover4_a _)

/-- The proof data of this pipeline on core `c`: the arrays as the region finds them; after the body each input's
    buffer at its block and each output's at the canon of its store; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.Reg5.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 5: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The whole 5000×64 block and the whole 5000×1 column, as rectangles. -/
abbrev r5_a : Rect S5000x64 := Rect.unit (s := S5000x64) ![0, 0] S5000x64.size inb_S5000x64_S5000x64_0_0
abbrev r5_b : Rect S5000x1 := Rect.unit (s := S5000x1) ![0, 0] S5000x1.size inb_S5000x1_S5000x1_0_0

/-- The first output block after the body: its one store, of `f - agg * dinv` over the loaded blocks. -/
def out5_4 (x0 x1 : Vec F S5000x64 .f32) (x2 : Vec F S5000x1 .f32) : Vec F S5000x64 .f32 :=
  View.canon [⟨r5_a, k5_pay1 (View.ld x2 r5_b) (View.ld x0 r5_a) (View.ld x1 r5_a)⟩]

/-- The second output block after the body: its one store, of `acc + t * (f - agg * dinv)`. -/
def out5_5 (x0 x1 : Vec F S5000x64 .f32) (x2 : Vec F S5000x1 .f32) (x3 : Vec F S5000x64 .f32) : Vec F S5000x64 .f32 :=
  View.canon [⟨r5_a, k5_pay2 (View.ld x2 r5_b) (View.ld x0 r5_a) (View.ld x1 r5_a) (View.ld x3 r5_a)⟩]

/-- One store of the whole block covers it. -/
theorem cover5_a (p0 : Vec F S5000x64 .f32) (y : S5000x64.Idx) :
    ∃ pc ∈ ([⟨r5_a, p0⟩] : List (View.Piece (Elt F) S5000x64 .f32)), y ∈ pc.1.set :=
  View.cover_of_tiled [⟨r5_a, p0⟩] S5000x64.size (by rfl) y

set_option maxHeartbeats 4000000 in
/-- The body on whole staging memrefs: the four inputs at read contents, the two outputs at anything, runs to the
    continuation with the inputs as they were and the outputs at `out5_4`, `out5_5`. -/
theorem sound_kernel5 (c : Dev nD) (E : Set ℕ) (i : grid5.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2)
            ∗ owns (c : Thread nD τ) arg6 fullShare (out5_5 x0 x1 x2 x3)) -∗ K ⟨⟩))
      ⊢ wp frame (wpE (defs₀ (F := F)) Variants.none c none) E (cc5__lap_step_kernel i arg1 harg1 arg2 harg2 arg3 harg3 arg4 harg4 arg5 harg5 arg6 harg6) K := by
  simp only [cc5__lap_step_kernel_eq_skeleton]; unfold cc5__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover5_a _)
  iexists _; isplitr
  swap; · iexact H5
  ipureintro
  exact View.read_writes_eq_canon _ _ _ (cover5_a _)

/-- The proof data of this pipeline on core `c`: the arrays as the region finds them; after the body each input's
    buffer at its block and each output's at the canon of its store; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t)
    | ⟨5, _⟩ => out5_5 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) := by dsimp only [dat5]
theorem after5_5 (c : Dev nD) (t : Fin cfg5.N) : (dat5 V c).after 5 t = out5_5 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.KI.Reg6.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 6: one Laplacian step on a block of 5000 rows

At every grid point the body reads a block of `f`, of the aggregate, of the degree column and of the
accumulator, and stores `f - agg * dinv` into the first output block and `acc + t * (f - agg * dinv)`
into the second. Here: what each output block holds after the body (the canon of its one store), the
body's triple, and the pipeline's proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- The whole 5000×64 block and the whole 5000×1 column, as rectangles. -/
abbrev r6_a : Rect S5000x64 := Rect.unit (s := S5000x64) ![0, 0] S5000x64.size inb_S5000x64_S5000x64_0_0
abbrev r6_b : Rect S5000x1 := Rect.unit (s := S5000x1) ![0, 0] S5000x1.size inb_S5000x1_S5000x1_0_0

/-- The first output block after the body: its one store, of `f - agg * dinv` over the loaded blocks. -/
def out6_4 (x0 x1 : Vec F S5000x64 .f32) (x2 : Vec F S5000x1 .f32) : Vec F S5000x64 .f32 :=
  View.canon [⟨r6_a, k6_pay1 (View.ld x2 r6_b) (View.ld x0 r6_a) (View.ld x1 r6_a)⟩]

/-- The second output block after the body: its one store, of `acc + t * (f - agg * dinv)`. -/
def out6_5 (x0 x1 : Vec F S5000x64 .f32) (x2 : Vec F S5000x1 .f32) (x3 : Vec F S5000x64 .f32) : Vec F S5000x64 .f32 :=
  View.canon [⟨r6_a, k6_pay2 (View.ld x2 r6_b) (View.ld x0 r6_a) (View.ld x1 r6_a) (View.ld x3 r6_a)⟩]

/-- One store of the whole block covers it. -/
theorem cover6_a (p0 : Vec F S5000x64 .f32) (y : S5000x64.Idx) :
    ∃ pc ∈ ([⟨r6_a, p0⟩] : List (View.Piece (Elt F) S5000x64 .f32)), y ∈ pc.1.set :=
  View.cover_of_tiled [⟨r6_a, p0⟩] S5000x64.size (by rfl) y

set_option maxHeartbeats 4000000 in
/-- The body on whole staging memrefs: the four inputs at read contents, the two outputs at anything, runs to the
    continuation with the inputs as they were and the outputs at `out6_4`, `out6_5`. -/
theorem sound_kernel6 (c : Dev nD) (E : Set ℕ) (i : grid6.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S5000x64 .f32) (harg4 : arg4.IsWhole)
    (arg5 : Memref sig .tc .vmem S5000x64 .f32) (harg5 : arg5.IsWhole) (arg6 : Memref sig .tc .vmem S5000x64 .f32) (harg6 : arg6.IsWhole)
    (x0 x1 : Vec F S5000x64 .f32) (x2 : Vec F S5000x1 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out6_4 x0 x1 x2)
            ∗ owns (c : Thread nD τ) arg6 fullShare (out6_5 x0 x1 x2 x3)) -∗ K ⟨⟩))
      ⊢ wp frame (wpE (defs₀ (F := F)) Variants.none c none) E (cc6__lap_step_kernel i arg1 harg1 arg2 harg2 arg3 harg3 arg4 harg4 arg5 harg5 arg6 harg6) K := by
  simp only [cc6__lap_step_kernel_eq_skeleton]; unfold cc6__lap_step_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_a _)
  iexists _; isplitr
  swap; · iexact H5
  ipureintro
  exact View.read_writes_eq_canon _ _ _ (cover6_a _)

/-- The proof data of this pipeline on core `c`: the arrays as the region finds them; after the body each input's
    buffer at its block and each output's at the canon of its store; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t)
    | ⟨5, _⟩ => out6_5 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks, so the triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Gen

end
-- ==== Proof.KI.Reg7.lean ====
import proofs.«107957_j86157043957975_1_alg».proof.Proof.Gen.KernelIdeal.Launch
import proofs.«107957_j86157043957975_1_alg».proof.Proof.Gen.KernelIdeal.Skeleton
import proofs.«107957_j86157043957975_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 7: the head's two dense layers on a block of 5000 rows

At every grid point the body reads a block of 5000 rows of the concatenated features and the whole of both weight
matrices and bias rows, and stores `max (max (x · W1 + b1) 0 · W2 + b2) 0` into the output block. Here: what
the output block holds after the body (the canon of its one store), the body's triple, and the pipeline's
proof data at arbitrary region-entry contents `V`.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- The whole blocks as rectangles: the 5000×192 rows, the 192×64 and 64×2 weight matrices, the bias rows of 64 and 2, the 5000×2 output. -/
abbrev r7_a : Rect S5000x192 := Rect.unit (s := S5000x192) ![0, 0] S5000x192.size inb_S5000x192_S5000x192_0_0
abbrev r7_w : Rect S192x64 := Rect.unit (s := S192x64) ![0, 0] S192x64.size inb_S192x64_S192x64_0_0
abbrev r7_v : Rect S64 := Rect.unit (s := S64) ![0] S64.size inb_S64_S64_0
abbrev r7_w' : Rect S64x2 := Rect.unit (s := S64x2) ![0, 0] S64x2.size inb_S64x2_S64x2_0_0
abbrev r7_v' : Rect S2 := Rect.unit (s := S2) ![0] S2.size inb_S2_S2_0
abbrev r7_o : Rect S5000x2 := Rect.unit (s := S5000x2) ![0, 0] S5000x2.size inb_S5000x2_S5000x2_0_0

/-- The output block after the body: its one store, of the two layers over the loaded blocks. -/
def out7_5 (x0 : Vec F S5000x192 .f32) (x1 : Vec F S192x64 .f32) (x2 : Vec F S64 .f32) (x3 : Vec F S64x2 .f32) (x4 : Vec F S2 .f32) : Vec F S5000x2 .f32 :=
  View.canon [⟨r7_o, k7_pay1 (View.ld x0 r7_a) (View.ld x1 r7_w) (View.ld x2 r7_v) (View.ld x3 r7_w') (View.ld x4 r7_v')⟩]

/-- One store of the whole block covers it. -/
theorem cover7_a (p0 : Vec F S5000x2 .f32) (y : S5000x2.Idx) :
    ∃ pc ∈ ([⟨r7_o, p0⟩] : List (View.Piece (Elt F) S5000x2 .f32)), y ∈ pc.1.set :=
  View.cover_of_tiled [⟨r7_o, p0⟩] S5000x2.size (by rfl) y

set_option maxHeartbeats 4000000 in
/-- The body on whole staging memrefs: the five inputs at read contents, the output at anything, runs to the
    continuation with the inputs as they were and the output at `out7_5`. -/
theorem sound_kernel7 (c : Dev nD) (E : Set ℕ) (i : grid7.Coords)
    (arg1 : Memref sig .tc .vmem S5000x192 .f32) (harg1 : arg1.IsWhole) (arg2 : Memref sig .tc .vmem S192x64 .f32) (harg2 : arg2.IsWhole)
    (arg3 : Memref sig .tc .vmem S64 .f32) (harg3 : arg3.IsWhole) (arg4 : Memref sig .tc .vmem S64x2 .f32) (harg4 : arg4.IsWhole)
    (arg5 : Memref sig .tc .vmem S2 .f32) (harg5 : arg5.IsWhole) (arg6 : Memref sig .tc .vmem S5000x2 .f32) (harg6 : arg6.IsWhole)
    (x0 : Vec F S5000x192 .f32) (x1 : Vec F S192x64 .f32) (x2 : Vec F S64 .f32) (x3 : Vec F S64x2 .f32) (x4 : Vec F S2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out7_5 x0 x1 x2 x3 x4)) -∗ K ⟨⟩))
      ⊢ wp frame (wpE (defs₀ (F := F)) Variants.none c none) E (cc7__mlp_b_kernel i arg1 harg1 arg2 harg2 arg3 harg3 arg4 harg4 arg5 harg5 arg6 harg6) K := by
  simp only [cc7__mlp_b_kernel_eq_skeleton]; unfold cc7__mlp_b_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_a _)

/-- The proof data of this pipeline on core `c`: the arrays as the region finds them; after the body each input's
    buffer at its block and the output's at the canon of its store; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.KI.Run.lean ====
import proofs.«107957_j86157043957975_1_alg».proof.Proof.KI.Reg0
import proofs.«107957_j86157043957975_1_alg».proof.Proof.KI.Reg1
import proofs.«107957_j86157043957975_1_alg».proof.Proof.KI.Reg2
import proofs.«107957_j86157043957975_1_alg».proof.Proof.KI.Reg3
import proofs.«107957_j86157043957975_1_alg».proof.Proof.KI.Reg4
import proofs.«107957_j86157043957975_1_alg».proof.Proof.KI.Reg5
import proofs.«107957_j86157043957975_1_alg».proof.Proof.KI.Reg6
import proofs.«107957_j86157043957975_1_alg».proof.Proof.KI.Reg7
import proofs.«107957_j86157043957975_1_alg».proof.Proof.Gen.KernelIdeal.Regions

/-!
# The buffers between the program's items

The program is nine stretches of host operations around eight kernel regions. Core `c`'s unscoped buffers after
each item are a fold from the launch memory: a host stretch applies its operations; a region leaves every buffer
as it found it except its output arrays, which end at what the pipeline's write-backs leave (`Dat.arrAt … N`).
`WJ` is the valuation after item `J - 1`; `XJ` is a region's arrays put back over its entry contents. The
unknowns of the conditional frame are then read off these.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- A family of valuations read at the TensorCore's references (what a region's proof data take). -/
abbrev atTc (W : Dev nD → Valuation τ sig (Elt F)) : (c : Dev nD) → (b : Ref sig .tc) → Buf (Elt F) ((c : Thread nD τ).loc b) :=
  fun c b => W c b

/-- Core `c`'s buffers at region 0's entry: the launch memory after the first three host stretches. -/
abbrev W3 (c : Dev nD) : Valuation τ sig (Elt F) := V3 m c

/-! ## Region 0 -/

/-- Region 0's arrays at what its write-backs leave, put back over its entry contents. -/
def X4 (c : Dev nD) : Valuation τ sig (Elt F) :=
  Pipeline.withArrays spec0 c (W3 m c) fun w => (dat0 (atTc (W3 m)) c).arrAt w cfg0.N
/-- Core `c`'s buffers after region 0: its entry contents with `main_v13` replaced. -/
def W4 (c : Dev nD) : Valuation τ sig (Elt F) :=
  Function.update (W3 m c) main_v13 (X4 m c main_v13)
/-- Region 0 leaves every buffer but its output arrays as it found it. -/
theorem W4_of (c : Dev nD) (r : Ref sig .tc) (h : r ∉ ([main_v13] : List (Ref sig .tc))) : W4 m c r = W3 m c r := by
  unfold W4
  simp only [Function.update_of_ne (StableHlo.devRef_ne_of_ne (List.ne_of_not_mem_cons h) : (Proc.devRef .tc r : DevRef τ sig) ≠ Proc.devRef .tc main_v13)]
/-- After region 0, `main_v13` holds what the write-backs of window 5 leave. -/
theorem W4_out_5 (c : Dev nD) : W4 m c main_v13 = (dat0 (atTc (W3 m)) c).arrAt 5 cfg0.N := by
  unfold W4
  rw [Function.update_self]
  exact Pipeline.withArrays_arr spec0 launch0.win.arr_inj c _ _ 5
set_option maxHeartbeats 4000000 in
/-- Each array of region 0 holds, after it, what the pipeline leaves there: an input array its entry contents,
    an output array its folded write-backs. -/
theorem hF0 (c : Dev nD) : ∀ w : Fin cfg0.W, (dat0 (atTc (W3 m)) c).arrAt w cfg0.N = atTc (W4 m) c (Pipeline.arrRef spec0 w)
  | ⟨0, _⟩ => ((dat0 (atTc (W3 m)) c).arrAt_in 0 rfl _).trans ((A_eq0 (atTc (W3 m)) c 0).trans (W4_of m c main_arg0 (by decide)).symm)
  | ⟨1, _⟩ => ((dat0 (atTc (W3 m)) c).arrAt_in 1 rfl _).trans ((A_eq0 (atTc (W3 m)) c 1).trans (W4_of m c main_arg3 (by decide)).symm)
  | ⟨2, _⟩ => ((dat0 (atTc (W3 m)) c).arrAt_in 2 rfl _).trans ((A_eq0 (atTc (W3 m)) c 2).trans (W4_of m c main_arg4 (by decide)).symm)
  | ⟨3, _⟩ => ((dat0 (atTc (W3 m)) c).arrAt_in 3 rfl _).trans ((A_eq0 (atTc (W3 m)) c 3).trans (W4_of m c main_arg5 (by decide)).symm)
  | ⟨4, _⟩ => ((dat0 (atTc (W3 m)) c).arrAt_in 4 rfl _).trans ((A_eq0 (atTc (W3 m)) c 4).trans (W4_of m c main_arg6 (by decide)).symm)
  | ⟨5, _⟩ => (W4_out_5 m c).symm
/-- A buffer that is no array of region 0 is as the region found it. -/
theorem hrest0 (c : Dev nD) : ∀ b, b ∉ Finset.univ.image (Pipeline.arrRef spec0) → atTc (W4 m) c b = atTc (W3 m) c b :=
  fun b hb => W4_of m c b (fun h => by
    exact hb (Finset.mem_image.mpr ⟨5, Finset.mem_univ _, (List.mem_singleton.mp h).symm⟩))
/-- Core `c`'s buffers after the host stretch `hostOps1`. -/
abbrev W5 (c : Dev nD) : Valuation τ sig (Elt F) := StableHlo.after hostOps1 (W4 m c)

/-! ## Region 1 -/

/-- Region 1's arrays at what its write-backs leave, put back over its entry contents. -/
def X6 (c : Dev nD) : Valuation τ sig (Elt F) :=
  Pipeline.withArrays spec1 c (W5 m c) fun w => (dat1 (atTc (W5 m)) c).arrAt w cfg1.N
/-- Core `c`'s buffers after region 1: its entry contents with `main_v28_0`, `main_v28_1` replaced. -/
def W6 (c : Dev nD) : Valuation τ sig (Elt F) :=
  Function.update (Function.update (W5 m c) main_v28_0 (X6 m c main_v28_0)) main_v28_1 (X6 m c main_v28_1)
/-- Region 1 leaves every buffer but its output arrays as it found it. -/
theorem W6_of (c : Dev nD) (r : Ref sig .tc) (h : r ∉ ([main_v28_0, main_v28_1] : List (Ref sig .tc))) : W6 m c r = W5 m c r := by
  unfold W6
  simp only [Function.update_of_ne (StableHlo.devRef_ne_of_ne (List.ne_of_not_mem_cons (List.not_mem_of_not_mem_cons h)) : (Proc.devRef .tc r : DevRef τ sig) ≠ Proc.devRef .tc main_v28_1), Function.update_of_ne (StableHlo.devRef_ne_of_ne (List.ne_of_not_mem_cons h) : (Proc.devRef .tc r : DevRef τ sig) ≠ Proc.devRef .tc main_v28_0)]
/-- After region 1, `main_v28_0` holds what the write-backs of window 4 leave. -/
theorem W6_out_4 (c : Dev nD) : W6 m c main_v28_0 = (dat1 (atTc (W5 m)) c).arrAt 4 cfg1.N := by
  unfold W6
  rw [Function.update_of_ne (StableHlo.devRef_ne_of_ne (by decide) : (Proc.devRef .tc main_v28_0 : DevRef τ sig) ≠ Proc.devRef .tc main_v28_1), Function.update_self]
  exact Pipeline.withArrays_arr spec1 launch1.win.arr_inj c _ _ 4
/-- After region 1, `main_v28_1` holds what the write-backs of window 5 leave. -/
theorem W6_out_5 (c : Dev nD) : W6 m c main_v28_1 = (dat1 (atTc (W5 m)) c).arrAt 5 cfg1.N := by
  unfold W6
  rw [Function.update_self]
  exact Pipeline.withArrays_arr spec1 launch1.win.arr_inj c _ _ 5
set_option maxHeartbeats 4000000 in
/-- Each array of region 1 holds, after it, what the pipeline leaves there: an input array its entry contents,
    an output array its folded write-backs. -/
theorem hF1 (c : Dev nD) : ∀ w : Fin cfg1.W, (dat1 (atTc (W5 m)) c).arrAt w cfg1.N = atTc (W6 m) c (Pipeline.arrRef spec1 w)
  | ⟨0, _⟩ => ((dat1 (atTc (W5 m)) c).arrAt_in 0 rfl _).trans ((A_eq1 (atTc (W5 m)) c 0).trans (W6_of m c main_v13 (by decide)).symm)
  | ⟨1, _⟩ => ((dat1 (atTc (W5 m)) c).arrAt_in 1 rfl _).trans ((A_eq1 (atTc (W5 m)) c 1).trans (W6_of m c main_v27 (by decide)).symm)
  | ⟨2, _⟩ => ((dat1 (atTc (W5 m)) c).arrAt_in 2 rfl _).trans ((A_eq1 (atTc (W5 m)) c 2).trans (W6_of m c main_v12 (by decide)).symm)
  | ⟨3, _⟩ => ((dat1 (atTc (W5 m)) c).arrAt_in 3 rfl _).trans ((A_eq1 (atTc (W5 m)) c 3).trans (W6_of m c main_v15 (by decide)).symm)
  | ⟨4, _⟩ => (W6_out_4 m c).symm
  | ⟨5, _⟩ => (W6_out_5 m c).symm
/-- A buffer that is no array of region 1 is as the region found it. -/
theorem hrest1 (c : Dev nD) : ∀ b, b ∉ Finset.univ.image (Pipeline.arrRef spec1) → atTc (W6 m) c b = atTc (W5 m) c b :=
  fun b hb => W6_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps2`. -/
abbrev W7 (c : Dev nD) : Valuation τ sig (Elt F) := StableHlo.after hostOps2 (W6 m c)

/-! ## Region 2 -/

/-- Region 2's arrays at what its write-backs leave, put back over its entry contents. -/
def X8 (c : Dev nD) : Valuation τ sig (Elt F) :=
  Pipeline.withArrays spec2 c (W7 m c) fun w => (dat2 (atTc (W7 m)) c).arrAt w cfg2.N
/-- Core `c`'s buffers after region 2: its entry contents with `main_v41_0`, `main_v41_1` replaced. -/
def W8 (c : Dev nD) : Valuation τ sig (Elt F) :=
  Function.update (Function.update (W7 m c) main_v41_0 (X8 m c main_v41_0)) main_v41_1 (X8 m c main_v41_1)
/-- Region 2 leaves every buffer but its output arrays as it found it. -/
theorem W8_of (c : Dev nD) (r : Ref sig .tc) (h : r ∉ ([main_v41_0, main_v41_1] : List (Ref sig .tc))) : W8 m c r = W7 m c r := by
  unfold W8
  simp only [Function.update_of_ne (StableHlo.devRef_ne_of_ne (List.ne_of_not_mem_cons (List.not_mem_of_not_mem_cons h)) : (Proc.devRef .tc r : DevRef τ sig) ≠ Proc.devRef .tc main_v41_1), Function.update_of_ne (StableHlo.devRef_ne_of_ne (List.ne_of_not_mem_cons h) : (Proc.devRef .tc r : DevRef τ sig) ≠ Proc.devRef .tc main_v41_0)]
/-- After region 2, `main_v41_0` holds what the write-backs of window 4 leave. -/
theorem W8_out_4 (c : Dev nD) : W8 m c main_v41_0 = (dat2 (atTc (W7 m)) c).arrAt 4 cfg2.N := by
  unfold W8
  rw [Function.update_of_ne (StableHlo.devRef_ne_of_ne (by decide) : (Proc.devRef .tc main_v41_0 : DevRef τ sig) ≠ Proc.devRef .tc main_v41_1), Function.update_self]
  exact Pipeline.withArrays_arr spec2 launch2.win.arr_inj c _ _ 4
/-- After region 2, `main_v41_1` holds what the write-backs of window 5 leave. -/
theorem W8_out_5 (c : Dev nD) : W8 m c main_v41_1 = (dat2 (atTc (W7 m)) c).arrAt 5 cfg2.N := by
  unfold W8
  rw [Function.update_self]
  exact Pipeline.withArrays_arr spec2 launch2.win.arr_inj c _ _ 5
set_option maxHeartbeats 4000000 in
/-- Each array of region 2 holds, after it, what the pipeline leaves there: an input array its entry contents,
    an output array its folded write-backs. -/
theorem hF2 (c : Dev nD) : ∀ w : Fin cfg2.W, (dat2 (atTc (W7 m)) c).arrAt w cfg2.N = atTc (W8 m) c (Pipeline.arrRef spec2 w)
  | ⟨0, _⟩ => ((dat2 (atTc (W7 m)) c).arrAt_in 0 rfl _).trans ((A_eq2 (atTc (W7 m)) c 0).trans (W8_of m c main_v28_0 (by decide)).symm)
  | ⟨1, _⟩ => ((dat2 (atTc (W7 m)) c).arrAt_in 1 rfl _).trans ((A_eq2 (atTc (W7 m)) c 1).trans (W8_of m c main_v40 (by decide)).symm)
  | ⟨2, _⟩ => ((dat2 (atTc (W7 m)) c).arrAt_in 2 rfl _).trans ((A_eq2 (atTc (W7 m)) c 2).trans (W8_of m c main_v12 (by decide)).symm)
  | ⟨3, _⟩ => ((dat2 (atTc (W7 m)) c).arrAt_in 3 rfl _).trans ((A_eq2 (atTc (W7 m)) c 3).trans (W8_of m c main_v28_1 (by decide)).symm)
  | ⟨4, _⟩ => (W8_out_4 m c).symm
  | ⟨5, _⟩ => (W8_out_5 m c).symm
/-- A buffer that is no array of region 2 is as the region found it. -/
theorem hrest2 (c : Dev nD) : ∀ b, b ∉ Finset.univ.image (Pipeline.arrRef spec2) → atTc (W8 m) c b = atTc (W7 m) c b :=
  fun b hb => W8_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps3`. -/
abbrev W9 (c : Dev nD) : Valuation τ sig (Elt F) := StableHlo.after hostOps3 (W8 m c)

/-! ## Region 3 -/

/-- Region 3's arrays at what its write-backs leave, put back over its entry contents. -/
def X10 (c : Dev nD) : Valuation τ sig (Elt F) :=
  Pipeline.withArrays spec3 c (W9 m c) fun w => (dat3 (atTc (W9 m)) c).arrAt w cfg3.N
/-- Core `c`'s buffers after region 3: its entry contents with `main_v56_0`, `main_v56_1` replaced. -/
def W10 (c : Dev nD) : Valuation τ sig (Elt F) :=
  Function.update (Function.update (W9 m c) main_v56_0 (X10 m c main_v56_0)) main_v56_1 (X10 m c main_v56_1)
/-- Region 3 leaves every buffer but its output arrays as it found it. -/
theorem W10_of (c : Dev nD) (r : Ref sig .tc) (h : r ∉ ([main_v56_0, main_v56_1] : List (Ref sig .tc))) : W10 m c r = W9 m c r := by
  unfold W10
  simp only [Function.update_of_ne (StableHlo.devRef_ne_of_ne (List.ne_of_not_mem_cons (List.not_mem_of_not_mem_cons h)) : (Proc.devRef .tc r : DevRef τ sig) ≠ Proc.devRef .tc main_v56_1), Function.update_of_ne (StableHlo.devRef_ne_of_ne (List.ne_of_not_mem_cons h) : (Proc.devRef .tc r : DevRef τ sig) ≠ Proc.devRef .tc main_v56_0)]
/-- After region 3, `main_v56_0` holds what the write-backs of window 4 leave. -/
theorem W10_out_4 (c : Dev nD) : W10 m c main_v56_0 = (dat3 (atTc (W9 m)) c).arrAt 4 cfg3.N := by
  unfold W10
  rw [Function.update_of_ne (StableHlo.devRef_ne_of_ne (by decide) : (Proc.devRef .tc main_v56_0 : DevRef τ sig) ≠ Proc.devRef .tc main_v56_1), Function.update_self]
  exact Pipeline.withArrays_arr spec3 launch3.win.arr_inj c _ _ 4
/-- After region 3, `main_v56_1` holds what the write-backs of window 5 leave. -/
theorem W10_out_5 (c : Dev nD) : W10 m c main_v56_1 = (dat3 (atTc (W9 m)) c).arrAt 5 cfg3.N := by
  unfold W10
  rw [Function.update_self]
  exact Pipeline.withArrays_arr spec3 launch3.win.arr_inj c _ _ 5
set_option maxHeartbeats 4000000 in
/-- Each array of region 3 holds, after it, what the pipeline leaves there: an input array its entry contents,
    an output array its folded write-backs. -/
theorem hF3 (c : Dev nD) : ∀ w : Fin cfg3.W, (dat3 (atTc (W9 m)) c).arrAt w cfg3.N = atTc (W10 m) c (Pipeline.arrRef spec3 w)
  | ⟨0, _⟩ => ((dat3 (atTc (W9 m)) c).arrAt_in 0 rfl _).trans ((A_eq3 (atTc (W9 m)) c 0).trans (W10_of m c main_v13 (by decide)).symm)
  | ⟨1, _⟩ => ((dat3 (atTc (W9 m)) c).arrAt_in 1 rfl _).trans ((A_eq3 (atTc (W9 m)) c 1).trans (W10_of m c main_v55 (by decide)).symm)
  | ⟨2, _⟩ => ((dat3 (atTc (W9 m)) c).arrAt_in 2 rfl _).trans ((A_eq3 (atTc (W9 m)) c 2).trans (W10_of m c main_v12 (by decide)).symm)
  | ⟨3, _⟩ => ((dat3 (atTc (W9 m)) c).arrAt_in 3 rfl _).trans ((A_eq3 (atTc (W9 m)) c 3).trans (W10_of m c main_v43 (by decide)).symm)
  | ⟨4, _⟩ => (W10_out_4 m c).symm
  | ⟨5, _⟩ => (W10_out_5 m c).symm
/-- A buffer that is no array of region 3 is as the region found it. -/
theorem hrest3 (c : Dev nD) : ∀ b, b ∉ Finset.univ.image (Pipeline.arrRef spec3) → atTc (W10 m) c b = atTc (W9 m) c b :=
  fun b hb => W10_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps4`. -/
abbrev W11 (c : Dev nD) : Valuation τ sig (Elt F) := StableHlo.after hostOps4 (W10 m c)

/-! ## Region 4 -/

/-- Region 4's arrays at what its write-backs leave, put back over its entry contents. -/
def X12 (c : Dev nD) : Valuation τ sig (Elt F) :=
  Pipeline.withArrays spec4 c (W11 m c) fun w => (dat4 (atTc (W11 m)) c).arrAt w cfg4.N
/-- Core `c`'s buffers after region 4: its entry contents with `main_v69_0`, `main_v69_1` replaced. -/
def W12 (c : Dev nD) : Valuation τ sig (Elt F) :=
  Function.update (Function.update (W11 m c) main_v69_0 (X12 m c main_v69_0)) main_v69_1 (X12 m c main_v69_1)
/-- Region 4 leaves every buffer but its output arrays as it found it. -/
theorem W12_of (c : Dev nD) (r : Ref sig .tc) (h : r ∉ ([main_v69_0, main_v69_1] : List (Ref sig .tc))) : W12 m c r = W11 m c r := by
  unfold W12
  simp only [Function.update_of_ne (StableHlo.devRef_ne_of_ne (List.ne_of_not_mem_cons (List.not_mem_of_not_mem_cons h)) : (Proc.devRef .tc r : DevRef τ sig) ≠ Proc.devRef .tc main_v69_1), Function.update_of_ne (StableHlo.devRef_ne_of_ne (List.ne_of_not_mem_cons h) : (Proc.devRef .tc r : DevRef τ sig) ≠ Proc.devRef .tc main_v69_0)]
/-- After region 4, `main_v69_0` holds what the write-backs of window 4 leave. -/
theorem W12_out_4 (c : Dev nD) : W12 m c main_v69_0 = (dat4 (atTc (W11 m)) c).arrAt 4 cfg4.N := by
  unfold W12
  rw [Function.update_of_ne (StableHlo.devRef_ne_of_ne (by decide) : (Proc.devRef .tc main_v69_0 : DevRef τ sig) ≠ Proc.devRef .tc main_v69_1), Function.update_self]
  exact Pipeline.withArrays_arr spec4 launch4.win.arr_inj c _ _ 4
/-- After region 4, `main_v69_1` holds what the write-backs of window 5 leave. -/
theorem W12_out_5 (c : Dev nD) : W12 m c main_v69_1 = (dat4 (atTc (W11 m)) c).arrAt 5 cfg4.N := by
  unfold W12
  rw [Function.update_self]
  exact Pipeline.withArrays_arr spec4 launch4.win.arr_inj c _ _ 5
set_option maxHeartbeats 4000000 in
/-- Each array of region 4 holds, after it, what the pipeline leaves there: an input array its entry contents,
    an output array its folded write-backs. -/
theorem hF4 (c : Dev nD) : ∀ w : Fin cfg4.W, (dat4 (atTc (W11 m)) c).arrAt w cfg4.N = atTc (W12 m) c (Pipeline.arrRef spec4 w)
  | ⟨0, _⟩ => ((dat4 (atTc (W11 m)) c).arrAt_in 0 rfl _).trans ((A_eq4 (atTc (W11 m)) c 0).trans (W12_of m c main_v56_0 (by decide)).symm)
  | ⟨1, _⟩ => ((dat4 (atTc (W11 m)) c).arrAt_in 1 rfl _).trans ((A_eq4 (atTc (W11 m)) c 1).trans (W12_of m c main_v68 (by decide)).symm)
  | ⟨2, _⟩ => ((dat4 (atTc (W11 m)) c).arrAt_in 2 rfl _).trans ((A_eq4 (atTc (W11 m)) c 2).trans (W12_of m c main_v12 (by decide)).symm)
  | ⟨3, _⟩ => ((dat4 (atTc (W11 m)) c).arrAt_in 3 rfl _).trans ((A_eq4 (atTc (W11 m)) c 3).trans (W12_of m c main_v56_1 (by decide)).symm)
  | ⟨4, _⟩ => (W12_out_4 m c).symm
  | ⟨5, _⟩ => (W12_out_5 m c).symm
/-- A buffer that is no array of region 4 is as the region found it. -/
theorem hrest4 (c : Dev nD) : ∀ b, b ∉ Finset.univ.image (Pipeline.arrRef spec4) → atTc (W12 m) c b = atTc (W11 m) c b :=
  fun b hb => W12_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps5`. -/
abbrev W13 (c : Dev nD) : Valuation τ sig (Elt F) := StableHlo.after hostOps5 (W12 m c)

/-! ## Region 5 -/

/-- Region 5's arrays at what its write-backs leave, put back over its entry contents. -/
def X14 (c : Dev nD) : Valuation τ sig (Elt F) :=
  Pipeline.withArrays spec5 c (W13 m c) fun w => (dat5 (atTc (W13 m)) c).arrAt w cfg5.N
/-- Core `c`'s buffers after region 5: its entry contents with `main_v84_0`, `main_v84_1` replaced. -/
def W14 (c : Dev nD) : Valuation τ sig (Elt F) :=
  Function.update (Function.update (W13 m c) main_v84_0 (X14 m c main_v84_0)) main_v84_1 (X14 m c main_v84_1)
/-- Region 5 leaves every buffer but its output arrays as it found it. -/
theorem W14_of (c : Dev nD) (r : Ref sig .tc) (h : r ∉ ([main_v84_0, main_v84_1] : List (Ref sig .tc))) : W14 m c r = W13 m c r := by
  unfold W14
  simp only [Function.update_of_ne (StableHlo.devRef_ne_of_ne (List.ne_of_not_mem_cons (List.not_mem_of_not_mem_cons h)) : (Proc.devRef .tc r : DevRef τ sig) ≠ Proc.devRef .tc main_v84_1), Function.update_of_ne (StableHlo.devRef_ne_of_ne (List.ne_of_not_mem_cons h) : (Proc.devRef .tc r : DevRef τ sig) ≠ Proc.devRef .tc main_v84_0)]
/-- After region 5, `main_v84_0` holds what the write-backs of window 4 leave. -/
theorem W14_out_4 (c : Dev nD) : W14 m c main_v84_0 = (dat5 (atTc (W13 m)) c).arrAt 4 cfg5.N := by
  unfold W14
  rw [Function.update_of_ne (StableHlo.devRef_ne_of_ne (by decide) : (Proc.devRef .tc main_v84_0 : DevRef τ sig) ≠ Proc.devRef .tc main_v84_1), Function.update_self]
  exact Pipeline.withArrays_arr spec5 launch5.win.arr_inj c _ _ 4
/-- After region 5, `main_v84_1` holds what the write-backs of window 5 leave. -/
theorem W14_out_5 (c : Dev nD) : W14 m c main_v84_1 = (dat5 (atTc (W13 m)) c).arrAt 5 cfg5.N := by
  unfold W14
  rw [Function.update_self]
  exact Pipeline.withArrays_arr spec5 launch5.win.arr_inj c _ _ 5
set_option maxHeartbeats 4000000 in
/-- Each array of region 5 holds, after it, what the pipeline leaves there: an input array its entry contents,
    an output array its folded write-backs. -/
theorem hF5 (c : Dev nD) : ∀ w : Fin cfg5.W, (dat5 (atTc (W13 m)) c).arrAt w cfg5.N = atTc (W14 m) c (Pipeline.arrRef spec5 w)
  | ⟨0, _⟩ => ((dat5 (atTc (W13 m)) c).arrAt_in 0 rfl _).trans ((A_eq5 (atTc (W13 m)) c 0).trans (W14_of m c main_v13 (by decide)).symm)
  | ⟨1, _⟩ => ((dat5 (atTc (W13 m)) c).arrAt_in 1 rfl _).trans ((A_eq5 (atTc (W13 m)) c 1).trans (W14_of m c main_v83 (by decide)).symm)
  | ⟨2, _⟩ => ((dat5 (atTc (W13 m)) c).arrAt_in 2 rfl _).trans ((A_eq5 (atTc (W13 m)) c 2).trans (W14_of m c main_v12 (by decide)).symm)
  | ⟨3, _⟩ => ((dat5 (atTc (W13 m)) c).arrAt_in 3 rfl _).trans ((A_eq5 (atTc (W13 m)) c 3).trans (W14_of m c main_v71 (by decide)).symm)
  | ⟨4, _⟩ => (W14_out_4 m c).symm
  | ⟨5, _⟩ => (W14_out_5 m c).symm
/-- A buffer that is no array of region 5 is as the region found it. -/
theorem hrest5 (c : Dev nD) : ∀ b, b ∉ Finset.univ.image (Pipeline.arrRef spec5) → atTc (W14 m) c b = atTc (W13 m) c b :=
  fun b hb => W14_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps6`. -/
abbrev W15 (c : Dev nD) : Valuation τ sig (Elt F) := StableHlo.after hostOps6 (W14 m c)

/-! ## Region 6 -/

/-- Region 6's arrays at what its write-backs leave, put back over its entry contents. -/
def X16 (c : Dev nD) : Valuation τ sig (Elt F) :=
  Pipeline.withArrays spec6 c (W15 m c) fun w => (dat6 (atTc (W15 m)) c).arrAt w cfg6.N
/-- Core `c`'s buffers after region 6: its entry contents with `main_v97_0`, `main_v97_1` replaced. -/
def W16 (c : Dev nD) : Valuation τ sig (Elt F) :=
  Function.update (Function.update (W15 m c) main_v97_0 (X16 m c main_v97_0)) main_v97_1 (X16 m c main_v97_1)
/-- Region 6 leaves every buffer but its output arrays as it found it. -/
theorem W16_of (c : Dev nD) (r : Ref sig .tc) (h : r ∉ ([main_v97_0, main_v97_1] : List (Ref sig .tc))) : W16 m c r = W15 m c r := by
  unfold W16
  simp only [Function.update_of_ne (StableHlo.devRef_ne_of_ne (List.ne_of_not_mem_cons (List.not_mem_of_not_mem_cons h)) : (Proc.devRef .tc r : DevRef τ sig) ≠ Proc.devRef .tc main_v97_1), Function.update_of_ne (StableHlo.devRef_ne_of_ne (List.ne_of_not_mem_cons h) : (Proc.devRef .tc r : DevRef τ sig) ≠ Proc.devRef .tc main_v97_0)]
/-- After region 6, `main_v97_0` holds what the write-backs of window 4 leave. -/
theorem W16_out_4 (c : Dev nD) : W16 m c main_v97_0 = (dat6 (atTc (W15 m)) c).arrAt 4 cfg6.N := by
  unfold W16
  rw [Function.update_of_ne (StableHlo.devRef_ne_of_ne (by decide) : (Proc.devRef .tc main_v97_0 : DevRef τ sig) ≠ Proc.devRef .tc main_v97_1), Function.update_self]
  exact Pipeline.withArrays_arr spec6 launch6.win.arr_inj c _ _ 4
/-- After region 6, `main_v97_1` holds what the write-backs of window 5 leave. -/
theorem W16_out_5 (c : Dev nD) : W16 m c main_v97_1 = (dat6 (atTc (W15 m)) c).arrAt 5 cfg6.N := by
  unfold W16
  rw [Function.update_self]
  exact Pipeline.withArrays_arr spec6 launch6.win.arr_inj c _ _ 5
set_option maxHeartbeats 4000000 in
/-- Each array of region 6 holds, after it, what the pipeline leaves there: an input array its entry contents,
    an output array its folded write-backs. -/
theorem hF6 (c : Dev nD) : ∀ w : Fin cfg6.W, (dat6 (atTc (W15 m)) c).arrAt w cfg6.N = atTc (W16 m) c (Pipeline.arrRef spec6 w)
  | ⟨0, _⟩ => ((dat6 (atTc (W15 m)) c).arrAt_in 0 rfl _).trans ((A_eq6 (atTc (W15 m)) c 0).trans (W16_of m c main_v84_0 (by decide)).symm)
  | ⟨1, _⟩ => ((dat6 (atTc (W15 m)) c).arrAt_in 1 rfl _).trans ((A_eq6 (atTc (W15 m)) c 1).trans (W16_of m c main_v96 (by decide)).symm)
  | ⟨2, _⟩ => ((dat6 (atTc (W15 m)) c).arrAt_in 2 rfl _).trans ((A_eq6 (atTc (W15 m)) c 2).trans (W16_of m c main_v12 (by decide)).symm)
  | ⟨3, _⟩ => ((dat6 (atTc (W15 m)) c).arrAt_in 3 rfl _).trans ((A_eq6 (atTc (W15 m)) c 3).trans (W16_of m c main_v84_1 (by decide)).symm)
  | ⟨4, _⟩ => (W16_out_4 m c).symm
  | ⟨5, _⟩ => (W16_out_5 m c).symm
/-- A buffer that is no array of region 6 is as the region found it. -/
theorem hrest6 (c : Dev nD) : ∀ b, b ∉ Finset.univ.image (Pipeline.arrRef spec6) → atTc (W16 m) c b = atTc (W15 m) c b :=
  fun b hb => W16_of m c b (fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩))
/-- Core `c`'s buffers after the host stretch `hostOps7`. -/
abbrev W17 (c : Dev nD) : Valuation τ sig (Elt F) := StableHlo.after hostOps7 (W16 m c)

/-! ## Region 7 -/

/-- Region 7's arrays at what its write-backs leave, put back over its entry contents. -/
def X18 (c : Dev nD) : Valuation τ sig (Elt F) :=
  Pipeline.withArrays spec7 c (W17 m c) fun w => (dat7 (atTc (W17 m)) c).arrAt w cfg7.N
/-- Core `c`'s buffers after region 7: its entry contents with `main_v99` replaced. -/
def W18 (c : Dev nD) : Valuation τ sig (Elt F) :=
  Function.update (W17 m c) main_v99 (X18 m c main_v99)
/-- Region 7 leaves every buffer but its output arrays as it found it. -/
theorem W18_of (c : Dev nD) (r : Ref sig .tc) (h : r ∉ ([main_v99] : List (Ref sig .tc))) : W18 m c r = W17 m c r := by
  unfold W18
  simp only [Function.update_of_ne (StableHlo.devRef_ne_of_ne (List.ne_of_not_mem_cons h) : (Proc.devRef .tc r : DevRef τ sig) ≠ Proc.devRef .tc main_v99)]
/-- After region 7, `main_v99` holds what the write-backs of window 5 leave. -/
theorem W18_out_5 (c : Dev nD) : W18 m c main_v99 = (dat7 (atTc (W17 m)) c).arrAt 5 cfg7.N := by
  unfold W18
  rw [Function.update_self]
  exact Pipeline.withArrays_arr spec7 launch7.win.arr_inj c _ _ 5
set_option maxHeartbeats 4000000 in
/-- Each array of region 7 holds, after it, what the pipeline leaves there: an input array its entry contents,
    an output array its folded write-backs. -/
theorem hF7 (c : Dev nD) : ∀ w : Fin cfg7.W, (dat7 (atTc (W17 m)) c).arrAt w cfg7.N = atTc (W18 m) c (Pipeline.arrRef spec7 w)
  | ⟨0, _⟩ => ((dat7 (atTc (W17 m)) c).arrAt_in 0 rfl _).trans ((A_eq7 (atTc (W17 m)) c 0).trans (W18_of m c main_v98 (by decide)).symm)
  | ⟨1, _⟩ => ((dat7 (atTc (W17 m)) c).arrAt_in 1 rfl _).trans ((A_eq7 (atTc (W17 m)) c 1).trans (W18_of m c main_arg7 (by decide)).symm)
  | ⟨2, _⟩ => ((dat7 (atTc (W17 m)) c).arrAt_in 2 rfl _).trans ((A_eq7 (atTc (W17 m)) c 2).trans (W18_of m c main_arg8 (by decide)).symm)
  | ⟨3, _⟩ => ((dat7 (atTc (W17 m)) c).arrAt_in 3 rfl _).trans ((A_eq7 (atTc (W17 m)) c 3).trans (W18_of m c main_arg9 (by decide)).symm)
  | ⟨4, _⟩ => ((dat7 (atTc (W17 m)) c).arrAt_in 4 rfl _).trans ((A_eq7 (atTc (W17 m)) c 4).trans (W18_of m c main_arg10 (by decide)).symm)
  | ⟨5, _⟩ => (W18_out_5 m c).symm
/-- A buffer that is no array of region 7 is as the region found it. -/
theorem hrest7 (c : Dev nD) : ∀ b, b ∉ Finset.univ.image (Pipeline.arrRef spec7) → atTc (W18 m) c b = atTc (W17 m) c b :=
  fun b hb => W18_of m c b (fun h => by
    exact hb (Finset.mem_image.mpr ⟨5, Finset.mem_univ _, (List.mem_singleton.mp h).symm⟩))

/-! ## The unknowns of the conditional frame, read off the fold -/

/-- What each region leaves in each buffer it may change: the fold's valuation after it (anything elsewhere). -/
def outsW : Outs (F := F) := fun J r c =>
  if J = 4 then X4 m c r else if J = 6 then X6 m c r else if J = 8 then X8 m c r else if J = 10 then X10 m c r
  else if J = 12 then X12 m c r else if J = 14 then X14 m c r else if J = 16 then X16 m c r else if J = 18 then X18 m c r
  else V0 m c r

theorem V4_eq (c : Dev nD) : V4 m (outsW m) c = W4 m c := rfl
theorem V5_eq (c : Dev nD) : V5 m (outsW m) c = W5 m c := rfl
theorem V6_eq (c : Dev nD) : V6 m (outsW m) c = W6 m c := rfl
theorem V7_eq (c : Dev nD) : V7 m (outsW m) c = W7 m c := rfl
theorem V8_eq (c : Dev nD) : V8 m (outsW m) c = W8 m c := rfl
theorem V9_eq (c : Dev nD) : V9 m (outsW m) c = W9 m c := rfl
theorem V10_eq (c : Dev nD) : V10 m (outsW m) c = W10 m c := rfl
theorem V11_eq (c : Dev nD) : V11 m (outsW m) c = W11 m c := rfl
theorem V12_eq (c : Dev nD) : V12 m (outsW m) c = W12 m c := rfl
theorem V13_eq (c : Dev nD) : V13 m (outsW m) c = W13 m c := rfl
theorem V14_eq (c : Dev nD) : V14 m (outsW m) c = W14 m c := rfl
theorem V15_eq (c : Dev nD) : V15 m (outsW m) c = W15 m c := rfl
theorem V16_eq (c : Dev nD) : V16 m (outsW m) c = W16 m c := rfl
theorem V17_eq (c : Dev nD) : V17 m (outsW m) c = W17 m c := rfl
theorem V18_eq (c : Dev nD) : V18 m (outsW m) c = W18 m c := rfl

/-! ## The proof data family and the regions as segments -/

local notation "𝕄" => MT nD τ sig Unit (Elt F) ℕ (UR sig nD τ) ℕ

/-- Every pipeline's proof data, each at its region's entry contents. -/
def pdats : (p : Fin 8) → (c : Dev nD) → Dat τ (Elt F) Unit ℕ (UR sig nD τ) ℕ (cfgs p) c
  | ⟨0, _⟩ => fun c => dat0 (atTc (W3 m)) c
  | ⟨1, _⟩ => fun c => dat1 (atTc (W5 m)) c
  | ⟨2, _⟩ => fun c => dat2 (atTc (W7 m)) c
  | ⟨3, _⟩ => fun c => dat3 (atTc (W9 m)) c
  | ⟨4, _⟩ => fun c => dat4 (atTc (W11 m)) c
  | ⟨5, _⟩ => fun c => dat5 (atTc (W13 m)) c
  | ⟨6, _⟩ => fun c => dat6 (atTc (W15 m)) c
  | ⟨7, _⟩ => fun c => dat7 (atTc (W17 m)) c
/-- No core owes another anything: no level is assigned. -/
abbrev noL : GSem nD τ sig → Finset Unit := fun _ => ∅
abbrev noLv : GSem nD τ sig → Unit → ℕ := fun _ _ => 0
/-- What rides beside the buffers through every item: the core's generator register at some state and its dues, at nothing. -/
abbrev Rst (c : Dev nD) : sProp 𝕄 := iprop((∃ r, prngReg c r) ∗ ∃ W, owes (c : Thread nD τ) (0 : CellTallies nD τ sig Unit) W)

-- a library lemma stated over the pinned configuration unifies with the printed one only when unification may unfold
-- plain definitions in a metavariable's type
set_option backward.isDefEq.respectTransparency.types false in
/-- Region 0 over the thread state "every unscoped buffer at the boundary's contents, the generator register at some
    state, nothing owed": its arrays split out of the unscoped buffers at entry and put back at the exit contents;
    the generator register into the class invariant and out; no semaphore of the kernel's own. -/
def reg0 : RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (atTc (W3 m)) c).loose
  hwaits := Pipeline.hwaits_of_owed_zero _ _ _ _ noL noLv 0 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W3 m) c) (atTc (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state "every unscoped buffer at the boundary's contents, the generator register at some
    state, nothing owed": its arrays split out of the unscoped buffers at entry and put back at the exit contents;
    the generator register into the class invariant and out; no semaphore of the kernel's own. -/
def reg1 : RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (atTc (W5 m)) c).loose
  hwaits := Pipeline.hwaits_of_owed_zero _ _ _ _ noL noLv 1 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W5 m) c) (atTc (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state "every unscoped buffer at the boundary's contents, the generator register at some
    state, nothing owed": its arrays split out of the unscoped buffers at entry and put back at the exit contents;
    the generator register into the class invariant and out; no semaphore of the kernel's own. -/
def reg2 : RegionSeg (pcfgs (F := F)) adm (pdats m) () defs₀ Variants.none noL noLv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ noL noLv 2 fun _ _ => rfl
  pre c := iprop(StableHlo.held (c : Thread nD τ) (Pipeline.ucRefs τ sig) (W7 m c) ∗ Rst c)
  post c := iprop(StableHlo.held (c : Thread nD τ) (Pipeline.ucRefs τ sig) (W8 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state "every unscoped buffer at the boundary's contents, the generator register at some
    state, nothing owed": its arrays split out of the unscoped buffers at entry and put back at the exit contents;
    the generator register into the class invariant and out; no semaphore of the kernel's own. -/
def reg3 : RegionSeg (pcfgs (F := F)) adm (pdats m) () defs₀ Variants.none noL noLv 3 where
  win := launch3.win.to₀
  block_pos := launch3.block_pos
  stage_whole := launch3.stage_whole
  K := PEmpty
  osem k := k.elim
  ho := Pipeline.OwnSemFacts.none _
  hbody c := (body_obligation3 (atTc (W9 m)) c).loose
  hwaits := Pipeline.hwaits_of_owed_zero _ _ _ _ noL noLv 3 fun _ _ => rfl
  pre c := iprop(StableHlo.held (c : Thread nD τ) (Pipeline.ucRefs τ sig) (W9 m c) ∗ Rst c)
  post c := iprop(StableHlo.held (c : Thread nD τ) (Pipeline.ucRefs τ sig) (W10 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W9 m) c) (atTc (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state "every unscoped buffer at the boundary's contents, the generator register at some
    state, nothing owed": its arrays split out of the unscoped buffers at entry and put back at the exit contents;
    the generator register into the class invariant and out; no semaphore of the kernel's own. -/
def reg4 : RegionSeg (pcfgs (F := F)) adm (pdats m) () defs₀ Variants.none noL noLv 4 where
  win := launch4.win.to₀
  block_pos := launch4.block_pos
  stage_whole := launch4.stage_whole
  K := PEmpty
  osem k := k.elim
  ho := Pipeline.OwnSemFacts.none _
  hbody c := (body_obligation4 (atTc (W11 m)) c).loose
  hwaits := Pipeline.hwaits_of_owed_zero _ _ _ _ noL noLv 4 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (W11 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W11 m) c) (atTc (W12 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 5 over the thread state "every unscoped buffer at the boundary's contents, the generator register at some
    state, nothing owed": its arrays split out of the unscoped buffers at entry and put back at the exit contents;
    the generator register into the class invariant and out; no semaphore of the kernel's own. -/
def reg5 : RegionSeg (pcfgs (F := F)) adm (pdats m) () defs₀ Variants.none noL noLv 5 where
  win := launch5.win.to₀
  block_pos := launch5.block_pos
  stage_whole := launch5.stage_whole
  K := PEmpty
  osem k := k.elim
  ho := Pipeline.OwnSemFacts.none _
  hbody c := (body_obligation5 (atTc (W13 m)) c).loose
  hwaits := Pipeline.hwaits_of_owed_zero _ _ _ _ noL noLv 5 fun _ _ => rfl
  pre c := iprop(StableHlo.held (c : Thread nD τ) (Pipeline.ucRefs τ sig) (W13 m c) ∗ Rst c)
  post c := iprop(StableHlo.held (c : Thread nD τ) (Pipeline.ucRefs τ sig) (W14 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (W13 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W13 m) c) (atTc (W14 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 6 over the thread state "every unscoped buffer at the boundary's contents, the generator register at some
    state, nothing owed": its arrays split out of the unscoped buffers at entry and put back at the exit contents;
    the generator register into the class invariant and out; no semaphore of the kernel's own. -/
def reg6 : RegionSeg (pcfgs (F := F)) adm (pdats m) () defs₀ Variants.none noL noLv 6 where
  win := launch6.win.to₀
  block_pos := launch6.block_pos
  stage_whole := launch6.stage_whole
  K := PEmpty
  osem k := k.elim
  ho := Pipeline.OwnSemFacts.none _
  hbody c := (body_obligation6 (atTc (W15 m)) c).loose
  hwaits := Pipeline.hwaits_of_owed_zero _ _ _ _ noL noLv 6 fun _ _ => rfl
  pre c := iprop(StableHlo.held (c : Thread nD τ) (Pipeline.ucRefs τ sig) (W15 m c) ∗ Rst c)
  post c := iprop(StableHlo.held (c : Thread nD τ) (Pipeline.ucRefs τ sig) (W16 m c) ∗ Rst c)
  X c := iprop(∃ r, prngReg c r)
  Y c := iprop(∃ r, prngReg c r)
  Z c := Pipeline.unscopedRest (Ix := Unit) (Name := ℕ) (U := UR sig nD τ) (Lvl := ℕ) spec6 c (atTc (W15 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W15 m) c) (atTc (W16 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 7 over the thread state "every unscoped buffer at the boundary's contents, the generator register at some
    state, nothing owed": its arrays split out of the unscoped buffers at entry and put back at the exit contents;
    the generator register into the class invariant and out; no semaphore of the kernel's own. -/
def reg7 : RegionSeg (pcfgs (F := F)) adm (pdats m) () defs₀ Variants.none noL noLv 7 where
  win := launch7.win.to₀
  block_pos := launch7.block_pos
  stage_whole := launch7.stage_whole
  K := PEmpty
  osem k := k.elim
  ho := Pipeline.OwnSemFacts.none _
  hbody c := (body_obligation7 (atTc (W17 m)) c).loose
  hwaits := Pipeline.hwaits_of_owed_zero _ _ _ _ noL noLv 7 fun _ _ => rfl
  pre c := iprop(StableHlo.held (c : Thread nD τ) (Pipeline.ucRefs τ sig) (W17 m c) ∗ Rst c)
  post c := iprop(StableHlo.held (c : Thread nD τ) (Pipeline.ucRefs τ sig) (W18 m c) ∗ Rst c)
  X c := iprop(∃ r, prngReg c r)
  Y c := iprop(∃ r, prngReg c r)
  Z c := Pipeline.unscopedRest (Ix := Unit) (Name := ℕ) (U := UR sig nD τ) (Lvl := ℕ) spec7 c (atTc (W17 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (W17 m) c) (atTc (W18 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

variable (ρ : Dev nD → PrngReg)

-- the conditional frame's implicit arguments are found by unifying its conclusion with this one, which takes unfolding
-- plain definitions in a metavariable's type
set_option backward.isDefEq.respectTransparency.types false in
/-- From any memory with zero counters every weakly fair execution of the program terminates, nothing faulting, and
    every final state holds the argument arrays as launched: the conditional frame at the fold's contents, each
    region's record entered from the boundary before it and left at the one after it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := Variants.none) (L := noL) (lv := noLv) (hL := fun _ _ => rfl) (ρ := ρ)
    (outs := outsW m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach noL noLv fun c => by
      iintro ⟨⟨-, HO, -, Hp, -⟩, -⟩
      imodintro
      isplitl [Hp]; · iexists _; iexact Hp
      iexists ∅; iexact HO)
    (hE8 := fun c => by iintro ⟨-, HO⟩; iexact HO)
    (R0 := reg0 m) (hpre0 := fun c => .rfl) (hpost0 := fun c => Entails.of_eq (by rw [V4_eq]; rfl))
    (R1 := reg1 m) (hpre1 := fun c => Entails.of_eq (by rw [V5_eq]; rfl)) (hpost1 := fun c => Entails.of_eq (by rw [V6_eq]; rfl))
    (R2 := reg2 m) (hpre2 := fun c => Entails.of_eq (by rw [V7_eq]; rfl)) (hpost2 := fun c => Entails.of_eq (by rw [V8_eq]; rfl))
    (R3 := reg3 m) (hpre3 := fun c => Entails.of_eq (by rw [V9_eq]; rfl)) (hpost3 := fun c => Entails.of_eq (by rw [V10_eq]; rfl))
    (R4 := reg4 m) (hpre4 := fun c => Entails.of_eq (by rw [V11_eq]; rfl)) (hpost4 := fun c => Entails.of_eq (by rw [V12_eq]; rfl))
    (R5 := reg5 m) (hpre5 := fun c => Entails.of_eq (by rw [V13_eq]; rfl)) (hpost5 := fun c => Entails.of_eq (by rw [V14_eq]; rfl))
    (R6 := reg6 m) (hpre6 := fun c => Entails.of_eq (by rw [V15_eq]; rfl)) (hpost6 := fun c => Entails.of_eq (by rw [V16_eq]; rfl))
    (R7 := reg7 m) (hpre7 := fun c => Entails.of_eq (by rw [V17_eq]; rfl)) (hpost7 := fun c => Entails.of_eq (by rw [V18_eq]; rfl))

end Cert.KernelIdeal.Gen

end
-- ==== Proof.KI.RunCond.lean ====
import proofs.«107957_j86157043957975_1_alg».proof.Proof.Gen.KernelIdeal.Regions

/-!
# The program's run with its result named

The conditional frame says the argument arrays end as launched. The value claim also needs what the RESULT buffer
holds at the end: the last thread state holds every unscoped buffer at the last valuation, so the result's final
contents are that valuation's, read against the final state exactly as the arguments are.
-/

set_option maxRecDepth 1448

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The conditional run with the result named. Under the same hypotheses as the conditional frame — per region a
    segment record entered from the thread state before it and left at the one after it — every weakly fair execution
    from memory `m` with zero counters terminates, and every final memory holds the result buffer at the last
    valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c)) :
    θ_run defs (onTc (τ := τ) (main (F := F))) ⟨m, fun _ => 0, ρ⟩ (fun r => ∀ c : Dev nD,
      r.2.mem ((c.tc : Thread nD τ).loc main_v99) = V18 m outs c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, .rfl, .rfl, hpre0 c, hpost0 c, hpre1 c, hpost1 c, hpre2 c, hpost2 c, hpre3 c, hpost3 c, hpre4 c, hpost4 c, hpre5 c, hpost5 c, hpre6 c, hpost6 c, hpre7 c, (hpost7 c).trans (sep_mono .rfl (hE8 c))⟩)
    (hinit := ?_) (QY := fun c s => s.mem ((c.tc : Thread nD τ).loc main_v99) = V18 m outs c main_v99 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨h (Proc.devRef .tc main_v99) (Finset.mem_filter.mpr ⟨StableHlo.devRef_mem_tcRefs main_v99, by decide⟩),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c),
        (h (Proc.devRef .tc main_arg9) (Finset.mem_filter.mpr ⟨StableHlo.devRef_mem_tcRefs main_arg9, by decide⟩)).trans (V18_main_arg9 m outs c),
        (h (Proc.devRef .tc main_arg10) (Finset.mem_filter.mpr ⟨StableHlo.devRef_mem_tcRefs main_arg10, by decide⟩)).trans (V18_main_arg10 m outs c)⟩
    · iexact HSI

end Cert.KernelIdeal.Gen

end
-- ==== Proof.KI.RunValue.lean ====
import proofs.«107957_j86157043957975_1_alg».proof.Proof.KI.Run
import proofs.«107957_j86157043957975_1_alg».proof.Proof.KI.RunCond

/-!
# What the result buffer holds at the end

The run with its result named, at the fold's contents: the result buffer ends at the last valuation of the fold,
`W18`, which is region 7's output array put back over what the last host stretch left.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

local notation "𝕄" => MT nD τ sig Unit (Elt F) ℕ (UR sig nD τ) ℕ

-- the conditional run's implicit arguments are found by unifying its conclusion with this one, which takes unfolding
-- plain definitions in a metavariable's type
set_option backward.isDefEq.respectTransparency.types false in
/-- Every weakly fair execution of the program from memory `m` with zero counters terminates, nothing faulting, with
    the result buffer at the fold's last valuation and the argument arrays as launched. -/
theorem value_run : θ_run defs (onTc (τ := τ) (main (F := F))) ⟨m, fun _ => 0, ρ⟩ (fun r => ∀ c : Dev nD,
      r.2.mem ((c.tc : Thread nD τ).loc main_v99) = W18 m c main_v99
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (congrFun (V18_eq m c) _), (h c).2⟩)
    (run_cond m (EP := emb₁) (ι := ()) (𝒱₀ := Variants.none) (L := noL) (lv := noLv) (hL := fun _ _ => rfl) (ρ := ρ)
    (outs := outsW m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach noL noLv fun c => by
      iintro ⟨⟨-, HO, -, Hp, -⟩, -⟩
      imodintro
      isplitl [Hp]; · iexists _; iexact Hp
      iexists ∅; iexact HO)
    (hE8 := fun c => by iintro ⟨-, HO⟩; iexact HO)
    (R0 := reg0 m) (hpre0 := fun c => .rfl) (hpost0 := fun c => Entails.of_eq (by rw [V4_eq]; rfl))
    (R1 := reg1 m) (hpre1 := fun c => Entails.of_eq (by rw [V5_eq]; rfl)) (hpost1 := fun c => Entails.of_eq (by rw [V6_eq]; rfl))
    (R2 := reg2 m) (hpre2 := fun c => Entails.of_eq (by rw [V7_eq]; rfl)) (hpost2 := fun c => Entails.of_eq (by rw [V8_eq]; rfl))
    (R3 := reg3 m) (hpre3 := fun c => Entails.of_eq (by rw [V9_eq]; rfl)) (hpost3 := fun c => Entails.of_eq (by rw [V10_eq]; rfl))
    (R4 := reg4 m) (hpre4 := fun c => Entails.of_eq (by rw [V11_eq]; rfl)) (hpost4 := fun c => Entails.of_eq (by rw [V12_eq]; rfl))
    (R5 := reg5 m) (hpre5 := fun c => Entails.of_eq (by rw [V13_eq]; rfl)) (hpost5 := fun c => Entails.of_eq (by rw [V14_eq]; rfl))
    (R6 := reg6 m) (hpre6 := fun c => Entails.of_eq (by rw [V15_eq]; rfl)) (hpost6 := fun c => Entails.of_eq (by rw [V16_eq]; rfl))
    (R7 := reg7 m) (hpre7 := fun c => Entails.of_eq (by rw [V17_eq]; rfl)) (hpost7 := fun c => Entails.of_eq (by rw [V18_eq]; rfl)))

end Cert.KernelIdeal.Gen

end
-- ==== Proof.KI.HostSpec.lean ====
import proofs.«107957_j86157043957975_1_alg».proof.Proof.Gen.KernelIdeal
import Idealize.ShloMosaic.PureOps.Ideal

/-!
# The host computations between the kernel regions, as functions of whole arrays

Between two kernel regions the program computes, on the host, from the edge list `(src, dst)` (3200000 edges over
100000 nodes), the feature array `f` and the degree column `dinv`:

* `normIdx s`: the indices `s` with a negative index moved up by 100000, as a column of start indices;
* `aggT f dinv src dst`: the rows of `f * dinv` gathered at `normIdx src` and scatter-added, from zero, at `dst`;
* `acc0T t h`: the array `h` scaled by the scalar `t`;
* `dinvT dst`: the in-degrees (ones scatter-added from zero at `normIdx dst`), clipped below at one, raised to the
  power `-1/2`, as a column;
* `catT a b c`: the three arrays side by side along the feature axis.

Each is written with the same whole-array operations, in the same order, as the program's host lines.
-/

noncomputable section

namespace Cert.KernelIdeal.RegionValue

open Cert.KernelIdeal Cert.KernelIdeal.Gen Idealize.ShloMosaic

/-- An index below zero is moved up by the number of nodes; the result as a column of start indices. -/
def normIdx (s : (⟨S3200000, .i32⟩ : BufTy).Contents (Elt Ideal)) : (⟨S3200000x1, .i32⟩ : BufTy).Contents (Elt Ideal) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The neighbour aggregate: rows of `f * dinv` gathered at the sources and scatter-added from zero at the targets. -/
def aggT (f : FVec Ideal S100000x64 .f32) (dinv : FVec Ideal S100000x1 .f32)
    (src dst : (⟨S3200000, .i32⟩ : BufTy).Contents (Elt Ideal)) : FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164
      (mulf f (broadcastInDim S100000x64 ![0, 1] bcast_S100000x1_S100000x64_0_1 dinv)) (normIdx src))

/-- The array `h` scaled by the scalar with bits `tbits`. -/
def acc0T (tbits : BitVec 32) (h : FVec Ideal S100000x64 .f32) : FVec Ideal S100000x64 .f32 :=
  mulf (broadcastInDim S100000x64 ![] bcast_S_S100000x64 (constant (F := Ideal) S_ .f32 tbits)) h

/-- The degree column: in-degrees counted by scatter-adding ones, clipped below at one, to the power `-1/2`. -/
def dinvT (dst : (⟨S3200000, .i32⟩ : BufTy).Contents (Elt Ideal)) : FVec Ideal S100000x1 .f32 :=
  broadcastInDim S100000x1 ![0] bcast_S100000_S100000x1_0
    (Host.powf (F := Ideal)
      (maximumf (broadcastInDim S100000 ![] bcast_S_S100000 (id (constant (F := Ideal) S_ .f32 0x3F800000#32)))
        (Host.scatterAdd (F := Ideal) scatter_S100000_S3200000x1_S3200000_n_0_0_1
          (broadcastInDim S100000 ![] bcast_S_S100000 (constant (F := Ideal) S_ .f32 0x00000000#32))
          (normIdx dst)
          (broadcastInDim S3200000 ![] bcast_S_S3200000 (constant (F := Ideal) S_ .f32 0x3F800000#32))))
      (broadcastInDim S100000 ![] bcast_S_S100000 (constant (F := Ideal) S_ .f32 0xBF000000#32)))

/-- Three feature arrays side by side. -/
def catT (a b c' : FVec Ideal S100000x64 .f32) : FVec Ideal S100000x192 .f32 :=
  concatenate S100000x192 1 [⟨S100000x64, a⟩, ⟨S100000x64, b⟩, ⟨S100000x64, c'⟩]
    concatenates_S100000x64_S100000x64_S100000x64_S100000x192_d1

end Cert.KernelIdeal.RegionValue

end
-- ==== Proof.KI.LapSpec.lean ====
import proofs.«107957_j86157043957975_1_alg».proof.Proof.Gen.KernelIdeal
import Idealize.ShloMosaic.Lib.Pipeline.Value
import Idealize.ShloMosaic.Lib.ValueIdx

/-!
# One Laplacian step, as a function of whole arrays and of one block of rows

A Laplacian step takes a feature array `f`, an aggregate `agg` (both 100000 × 64), a degree column `dinv`
(100000 × 1) and an accumulator `acc` (100000 × 64) and returns

* `lapF f agg dinv = f - agg * dinv` (the column broadcast along the 64 features), and
* `lapAcc t f agg dinv acc = acc + t * lapF f agg dinv` (the scalar `t` broadcast to every entry),

written with the whole-array operations (`broadcastInDim`, `mulf`, `subf`, `addf`). The same two
functions on one block of 5000 rows, written with the block operations (`broadcastTo`, `broadcast`), are
`lapBlk` and `lapAccBlk`. Read at an index, a block's value at row `p`, feature `q` is the array's value at
row `r`, feature `q` as soon as the block's entries are the array's entries at row `r`: the two
broadcasts read the same entry of the column and the same scalar.
-/

noncomputable section

namespace Cert.KernelIdeal.RegionValue

open Cert.KernelIdeal Cert.KernelIdeal.Gen Idealize.ShloMosaic Idealize.ShloMosaic.ValueIdx

/-- The zero offsets of a whole-block rectangle, as a constant function. -/
theorem hz : (![0, 0] : Fin 2 → Nat) = fun _ => 0 := funext fun a => by fin_cases a <;> rfl

/-! ## The whole-array functions -/

/-- `f - agg * dinv`, the degree column broadcast along the features. -/
def lapF (f agg : FVec Ideal S100000x64 .f32) (dinv : FVec Ideal S100000x1 .f32) : FVec Ideal S100000x64 .f32 :=
  subf f (mulf agg (broadcastInDim S100000x64 ![0, 1] bcast_S100000x1_S100000x64_0_1 dinv))

/-- `acc + t * (f - agg * dinv)`, the scalar with bits `tbits` broadcast to every entry. -/
def lapAcc (tbits : BitVec 32) (f agg : FVec Ideal S100000x64 .f32) (dinv : FVec Ideal S100000x1 .f32)
    (acc : FVec Ideal S100000x64 .f32) : FVec Ideal S100000x64 .f32 :=
  addf acc (mulf (broadcastInDim S100000x64 ![] bcast_S_S100000x64 (constant (F := Ideal) S_ .f32 tbits)) (lapF f agg dinv))

/-- `lapF` at row `r`, feature `q`. -/
theorem lapF_apply (f agg : FVec Ideal S100000x64 .f32) (dinv : FVec Ideal S100000x1 .f32) (r : Fin 100000) (q : Fin 64) :
    lapF f agg dinv (ix2 r q) = f (ix2 r q) - agg (ix2 r q) * dinv (ix2 r (0 : Fin 1)) := by
  unfold lapF
  rw [subf_apply, mulf_apply]
  refine congrArg (fun z => f (ix2 r q) - agg (ix2 r q) * z) ?_
  refine broadcastInDim_apply _ _ dinv (ix2 r q) (ix2 r (0 : Fin 1)) fun a => ?_
  match a with
  | ⟨0, _⟩ => rfl
  | ⟨1, _⟩ => rfl

/-- `lapAcc` at row `r`, feature `q`. -/
theorem lapAcc_apply (tbits : BitVec 32) (f agg : FVec Ideal S100000x64 .f32) (dinv : FVec Ideal S100000x1 .f32)
    (acc : FVec Ideal S100000x64 .f32) (r : Fin 100000) (q : Fin 64) :
    lapAcc tbits f agg dinv acc (ix2 r q)
      = acc (ix2 r q) + Ideal.ofBits .f32 tbits * (f (ix2 r q) - agg (ix2 r q) * dinv (ix2 r (0 : Fin 1))) := by
  unfold lapAcc
  rw [addf_apply, mulf_apply, lapF_apply]
  rfl

/-! ## The same functions on one block of 5000 rows -/

/-- `f - agg * dinv` on a block: the block's degree column broadcast along the features. -/
def lapBlk (dB : Vec Ideal S5000x1 .f32) (fB aggB : Vec Ideal S5000x64 .f32) : FVec Ideal S5000x64 .f32 :=
  subf fB (mulf aggB (broadcastTo S5000x64 dB broadcasts_S5000x1_S5000x64))

/-- `acc + t * (f - agg * dinv)` on a block. -/
def lapAccBlk (tbits : BitVec 32) (dB : Vec Ideal S5000x1 .f32) (fB aggB accB : Vec Ideal S5000x64 .f32) : FVec Ideal S5000x64 .f32 :=
  addf accB (mulf (broadcast S5000x64 (Scalar.ofBits (F := Ideal) .f32 tbits)) (lapBlk dB fB aggB))

/-- `lapBlk` at row `p` of the block, feature `q`. -/
theorem lapBlk_apply (dB : Vec Ideal S5000x1 .f32) (fB aggB : Vec Ideal S5000x64 .f32) (p : Fin 5000) (q : Fin 64) :
    lapBlk dB fB aggB (ix2 p q) = fB (ix2 p q) - aggB (ix2 p q) * dB (ix2 p (0 : Fin 1)) := by
  unfold lapBlk
  rw [subf_apply, mulf_apply]
  refine congrArg (fun z => fB (ix2 p q) - aggB (ix2 p q) * z) ?_
  refine broadcastTo_apply dB _ (ix2 p q) (ix2 p (0 : Fin 1)) fun a => ?_
  match a with
  | ⟨0, _⟩ => rfl
  | ⟨1, _⟩ => rfl

/-- `lapAccBlk` at row `p` of the block, feature `q`. -/
theorem lapAccBlk_apply (tbits : BitVec 32) (dB : Vec Ideal S5000x1 .f32) (fB aggB accB : Vec Ideal S5000x64 .f32)
    (p : Fin 5000) (q : Fin 64) :
    lapAccBlk tbits dB fB aggB accB (ix2 p q)
      = accB (ix2 p q) + Ideal.ofBits .f32 tbits * (fB (ix2 p q) - aggB (ix2 p q) * dB (ix2 p (0 : Fin 1))) := by
  unfold lapAccBlk
  rw [addf_apply, mulf_apply, lapBlk_apply]
  rfl

/-! ## A block of rows against the arrays -/

/-- A block whose entries at row `p` are the arrays' entries at row `r` has `lapBlk` at `(p, q)` equal to
    `lapF` of the arrays at `(r, q)`. -/
theorem lapBlk_eq_lapF (f agg : FVec Ideal S100000x64 .f32) (dinv : FVec Ideal S100000x1 .f32)
    (dB : Vec Ideal S5000x1 .f32) (fB aggB : Vec Ideal S5000x64 .f32) (p : Fin 5000) (q : Fin 64) (r : Fin 100000)
    (hf : fB (ix2 p q) = f (ix2 r q)) (ha : aggB (ix2 p q) = agg (ix2 r q))
    (hd : dB (ix2 p (0 : Fin 1)) = dinv (ix2 r (0 : Fin 1))) :
    lapBlk dB fB aggB (ix2 p q) = lapF f agg dinv (ix2 r q) := by
  rw [lapBlk_apply, lapF_apply, hf, ha, hd]

/-- The same for the accumulating output. -/
theorem lapAccBlk_eq_lapAcc (tbits : BitVec 32) (f agg : FVec Ideal S100000x64 .f32) (dinv : FVec Ideal S100000x1 .f32)
    (acc : FVec Ideal S100000x64 .f32) (dB : Vec Ideal S5000x1 .f32) (fB aggB accB : Vec Ideal S5000x64 .f32)
    (p : Fin 5000) (q : Fin 64) (r : Fin 100000)
    (hf : fB (ix2 p q) = f (ix2 r q)) (ha : aggB (ix2 p q) = agg (ix2 r q))
    (hd : dB (ix2 p (0 : Fin 1)) = dinv (ix2 r (0 : Fin 1))) (hc : accB (ix2 p q) = acc (ix2 r q)) :
    lapAccBlk tbits dB fB aggB accB (ix2 p q) = lapAcc tbits f agg dinv acc (ix2 r q) := by
  rw [lapAccBlk_apply, lapAcc_apply, hf, ha, hd, hc]

/-! ## Rows and blocks -/

/-- Row `r` lies in the block of 5000 rows numbered `r / 5000`, of which there are 20. -/
theorem row_block (r : Nat) (hr : r < 100000) : r / 5000 < 20 ∧ r / 5000 * 5000 ≤ r ∧ r < r / 5000 * 5000 + 5000 := by
  omega

end Cert.KernelIdeal.RegionValue

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.KI.MlpSpec.lean ====
import proofs.«107957_j86157043957975_1_alg».proof.Proof.Gen.ReferenceIdeal
import proofs.«107957_j86157043957975_1_alg».proof.Proof.Gen.KernelIdeal.Skeleton
import proofs.«107957_j86157043957975_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The two dense heads: whole-array functions, and their elements

The first head is relu(relu(x·W1 + b1)·W2 + b2) on a 100000×64 array, the second relu(h·W3 + b3)·W4 + b4 from
100000×192 to 100000×2. Here each is written once as a function of whole arrays in the host's operations
(mlpA, mlpB), and read at an element: row r, column q of either depends on row r of the input only, through two dense
layers (denseRow). The same element is what the matrix unit's two products into zero accumulators, the bias row
broadcast over the block and the clamp at zero compute on a block of 5000 rows (mlpA_pay_apply, mlpB_pay_apply).
-/

noncomputable section

namespace Cert.KernelIdeal.RegionValue

open Idealize.ShloMosaic Idealize.ShloMosaic.ValueIdx

/-- The zero both programs clamp against. -/
abbrev mlpZero : Ideal .f32 := Ideal.ofBits .f32 0x00000000#32

/-- The zero offsets of a whole-block rectangle, of rank two and of rank one. -/
theorem mlp_off2 : (![0, 0] : Fin 2 → Nat) = fun _ => 0 := funext fun a => by fin_cases a <;> rfl
theorem mlp_off1 : (![0] : Fin 1 → Nat) = fun _ => 0 := funext fun a => by fin_cases a; rfl

/-- One dense layer at a row: the row times column q of the matrix, plus the bias at q. -/
def denseRow {k n : ℕ} (row : Fin k → Ideal .f32) (W : FVec Ideal ⟨2, ![k, n]⟩ .f32) (b : FVec Ideal ⟨1, ![n]⟩ .f32) (q : Fin n) : Ideal .f32 :=
  (∑ j : Fin k, row j * W (ix2 j q)) + b (ix1 q)

/-- The first head at a row: both layers clamped at zero. -/
def headA (row : Fin 64 → Ideal .f32) (W1 : FVec Ideal ⟨2, ![64, 64]⟩ .f32) (b1 : FVec Ideal ⟨1, ![64]⟩ .f32)
    (W2 : FVec Ideal ⟨2, ![64, 64]⟩ .f32) (b2 : FVec Ideal ⟨1, ![64]⟩ .f32) (q : Fin 64) : Ideal .f32 :=
  max (denseRow (fun k => max (denseRow row W1 b1 k) mlpZero) W2 b2 q) mlpZero

/-- The second head at a row: the hidden layer clamped at zero, the output layer not. -/
def headB (row : Fin 192 → Ideal .f32) (W3 : FVec Ideal ⟨2, ![192, 64]⟩ .f32) (b3 : FVec Ideal ⟨1, ![64]⟩ .f32)
    (W4 : FVec Ideal ⟨2, ![64, 2]⟩ .f32) (b4 : FVec Ideal ⟨1, ![2]⟩ .f32) (q : Fin 2) : Ideal .f32 :=
  denseRow (fun k => max (denseRow row W3 b3 k) mlpZero) W4 b4 q

/-- The first head of whole arrays, in the host's operations. -/
def mlpA (x : FVec Ideal Cert.ReferenceIdeal.S100000x64 .f32) (W1 : FVec Ideal Cert.ReferenceIdeal.S64x64 .f32)
    (b1 : FVec Ideal Cert.ReferenceIdeal.S64 .f32) (W2 : FVec Ideal Cert.ReferenceIdeal.S64x64 .f32)
    (b2 : FVec Ideal Cert.ReferenceIdeal.S64 .f32) : FVec Ideal Cert.ReferenceIdeal.S100000x64 .f32 :=
  maximumf (addf (Host.dotGeneral (F := Ideal) Cert.ReferenceIdeal.dot_S100000x64_S64x64_S100000x64_1_0_0_1_n_n none
      (maximumf (addf (Host.dotGeneral (F := Ideal) Cert.ReferenceIdeal.dot_S100000x64_S64x64_S100000x64_1_0_0_1_n_n none x W1)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b1)))
        (broadcastInDim Cert.ReferenceIdeal.S100000x64 ![] Cert.ReferenceIdeal.Facts₀.bcast_S_S100000x64
          (constant (F := Ideal) Cert.ReferenceIdeal.S_ .f32 0x00000000#32))) W2)
      (broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b2)))
    (broadcastInDim Cert.ReferenceIdeal.S100000x64 ![] Cert.ReferenceIdeal.Facts₀.bcast_S_S100000x64
      (constant (F := Ideal) Cert.ReferenceIdeal.S_ .f32 0x00000000#32))

/-- The second head of whole arrays, in the host's operations. -/
def mlpB (hf : FVec Ideal Cert.ReferenceIdeal.S100000x192 .f32) (W3 : FVec Ideal Cert.ReferenceIdeal.S192x64 .f32)
    (b3 : FVec Ideal Cert.ReferenceIdeal.S64 .f32) (W4 : FVec Ideal Cert.ReferenceIdeal.S64x2 .f32)
    (b4 : FVec Ideal Cert.ReferenceIdeal.S2 .f32) : FVec Ideal Cert.ReferenceIdeal.S100000x2 .f32 :=
  addf (Host.dotGeneral (F := Ideal) Cert.ReferenceIdeal.dot_S100000x64_S64x2_S100000x2_1_0_0_1_n_n none
      (maximumf (addf (Host.dotGeneral (F := Ideal) Cert.ReferenceIdeal.dot_S100000x192_S192x64_S100000x64_1_0_0_1_n_n none hf W3)
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1 b3)))
        (broadcastInDim Cert.ReferenceIdeal.S100000x64 ![] Cert.ReferenceIdeal.Facts₀.bcast_S_S100000x64
          (constant (F := Ideal) Cert.ReferenceIdeal.S_ .f32 0x00000000#32))) W4)
    (broadcastInDim Cert.ReferenceIdeal.S100000x2 ![0, 1] Cert.ReferenceIdeal.Facts₀.bcast_S1x2_S100000x2_0_1
      (broadcastInDim Cert.ReferenceIdeal.S1x2 ![1] Cert.ReferenceIdeal.Facts₀.bcast_S2_S1x2_1 b4))

/-! ## The host's bias row and zero, read at an element -/

/-- A bias of n entries broadcast to one row and then over m rows reads, at (r, q), the bias at q. -/
theorem mlpBias_apply {m n : ℕ} (hn : n ≠ 1) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  refine (broadcastInDim_apply _ h2 _ (ix2 r q) (ix2 (0 : Fin 1) q) fun a => ?_).trans
    (broadcastInDim_apply _ h1 b (ix2 (0 : Fin 1) q) (ix1 q) fun a => ?_)
  · match a with
    | ⟨0, _⟩ => show 0 = if (1 : ℕ) = 1 then 0 else r.val; rw [if_pos rfl]
    | ⟨1, _⟩ => show q.val = if n = 1 then 0 else q.val; rw [if_neg hn]
  · match a with
    | ⟨0, _⟩ => show q.val = if n = 1 then 0 else q.val; rw [if_neg hn]

/-- The scalar zero broadcast to every element. -/
theorem mlpZeros_apply {s : Shape} (h : (⟨0, ![]⟩ : Shape).BroadcastsInDim s ![]) (i : s.Idx) :
    broadcastInDim s ![] h (constant (F := Ideal) ⟨0, ![]⟩ .f32 0x00000000#32) i = mlpZero :=
  broadcastInDim_apply _ h _ i ix0 fun a => a.elim0

/-! ## One dense layer, as either program computes it, read at an element -/

/-- A clamp at the host's broadcast zero. -/
theorem mlpHostRelu_apply {s : Shape} (h : (⟨0, ![]⟩ : Shape).BroadcastsInDim s ![]) (v : FVec Ideal s .f32) (i : s.Idx) :
    maximumf v (broadcastInDim s ![] h (constant (F := Ideal) ⟨0, ![]⟩ .f32 0x00000000#32)) i = max (v i) mlpZero := by
  rw [maximumf_apply, mlpZeros_apply]

/-- The host's layer: the plain product, the bias row added. -/
theorem mlpHostDense_apply {m k n : ℕ} (hn : n ≠ 1)
    (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ .f32) (W : FVec Ideal ⟨2, ![k, n]⟩ .f32) (b : FVec Ideal ⟨1, ![n]⟩ .f32) (r : Fin m) (q : Fin n) :
    addf (Host.dotGeneral (F := Ideal) (⟨[1], [0], [0], [1], [], [], w⟩ : DotDims _ _ _) none A W)
        (broadcastInDim ⟨2, ![m, n]⟩ ![0, 1] h2 (broadcastInDim ⟨2, ![1, n]⟩ ![1] h1 b)) (ix2 r q)
      = denseRow (fun j => A (ix2 r j)) W b q := by
  rw [addf_apply, Cert.LibPlainDot.dotGeneral_apply, mlpBias_apply hn]
  rfl

/-- A clamp at the broadcast scalar zero, as the kernel spells it. -/
theorem mlpUnitRelu_apply {s : Shape} (v : FVec Ideal s .f32) (i : s.Idx) :
    maximumf v (broadcast s (Scalar.ofBits (F := Ideal) .f32 0x00000000#32)) i = max (v i) mlpZero := rfl

/-- The matrix unit's layer on a block: the product of the operands (narrowed to bf16, which changes nothing here) into a
    zero accumulator, the bias cast to one row and broadcast over the block's rows added. -/
theorem mlpUnitDense_apply {m k n : ℕ}
    (w : DotDims.WF ⟨2, ![m, k]⟩ ⟨2, ![k, n]⟩ ⟨2, ![m, n]⟩ [1] [0] [0] [1] [] [])
    (hc : (⟨1, ![n]⟩ : Shape).ShapeCasts ⟨2, ![1, n]⟩) (hb : (⟨2, ![1, n]⟩ : Shape).Broadcasts ⟨2, ![m, n]⟩)
    (hlt : FTy.bits .bf16 < FTy.bits .f32)
    (A : FVec Ideal ⟨2, ![m, k]⟩ .f32) (W : FVec Ideal ⟨2, ![k, n]⟩ .f32) (b : FVec Ideal ⟨1, ![n]⟩ .f32) (p : Fin m) (q : Fin n) :
    addf (matmul (F := Ideal) (⟨[1], [0], [0], [1], [], [], w⟩ : DotDims _ _ _) none (truncf .bf16 A hlt) (truncf .bf16 W hlt)
          (constant ⟨2, ![m, n]⟩ .f32 0x00000000#32))
        (broadcastTo ⟨2, ![m, n]⟩ (shapeCast ⟨2, ![1, n]⟩ b hc) hb) (ix2 p q)
      = denseRow (fun j => A (ix2 p j)) W b q := by
  rw [addf_apply, Cert.LibPlainDot.matmul_zero_apply, broadcastTo_1b_ab_apply, shapeCast_a_1a_apply]
  rfl

/-! ## The two heads at an element -/

/-- Row r, column q of the first head of whole arrays is the first head at row r of the input. -/
theorem mlpA_apply (x : FVec Ideal Cert.ReferenceIdeal.S100000x64 .f32) (W1 : FVec Ideal Cert.ReferenceIdeal.S64x64 .f32)
    (b1 : FVec Ideal Cert.ReferenceIdeal.S64 .f32) (W2 : FVec Ideal Cert.ReferenceIdeal.S64x64 .f32)
    (b2 : FVec Ideal Cert.ReferenceIdeal.S64 .f32) (r : Fin 100000) (q : Fin 64) :
    mlpA x W1 b1 W2 b2 (ix2 r q) = headA (fun j => x (ix2 r j)) W1 b1 W2 b2 q := by
  unfold mlpA headA
  rw [mlpHostRelu_apply]
  refine congrArg (max · mlpZero) ?_
  refine (mlpHostDense_apply (by decide) Cert.ReferenceIdeal.Facts₀.dot_S100000x64_S64x64_S100000x64_1_0_0_1_n_n_wf _ _ _ W2 b2 r q).trans ?_
  refine congrArg (fun row => denseRow row W2 b2 q) (funext fun k => ?_)
  rw [mlpHostRelu_apply]
  exact congrArg (max · mlpZero)
    (mlpHostDense_apply (by decide) Cert.ReferenceIdeal.Facts₀.dot_S100000x64_S64x64_S100000x64_1_0_0_1_n_n_wf _ _ x W1 b1 r k)

/-- Row r, column q of the second head of whole arrays is the second head at row r of the input. -/
theorem mlpB_apply (hf : FVec Ideal Cert.ReferenceIdeal.S100000x192 .f32) (W3 : FVec Ideal Cert.ReferenceIdeal.S192x64 .f32)
    (b3 : FVec Ideal Cert.ReferenceIdeal.S64 .f32) (W4 : FVec Ideal Cert.ReferenceIdeal.S64x2 .f32)
    (b4 : FVec Ideal Cert.ReferenceIdeal.S2 .f32) (r : Fin 100000) (q : Fin 2) :
    mlpB hf W3 b3 W4 b4 (ix2 r q) = headB (fun j => hf (ix2 r j)) W3 b3 W4 b4 q := by
  unfold mlpB headB
  refine (mlpHostDense_apply (by decide) Cert.ReferenceIdeal.Facts₀.dot_S100000x64_S64x2_S100000x2_1_0_0_1_n_n_wf _ _ _ W4 b4 r q).trans ?_
  refine congrArg (fun row => denseRow row W4 b4 q) (funext fun k => ?_)
  rw [mlpHostRelu_apply]
  exact congrArg (max · mlpZero)
    (mlpHostDense_apply (by decide) Cert.ReferenceIdeal.Facts₀.dot_S100000x192_S192x64_S100000x64_1_0_0_1_n_n_wf _ _ hf W3 b3 r k)

/-- Row p, column q of what the first head's body stores is the first head at row p of its input block. -/
theorem mlpA_pay_apply (xB : Vec Ideal Cert.KernelIdeal.S5000x64 .f32) (W1 : Vec Ideal Cert.KernelIdeal.S64x64 .f32)
    (b1 : Vec Ideal Cert.KernelIdeal.S64 .f32) (W2 : Vec Ideal Cert.KernelIdeal.S64x64 .f32)
    (b2 : Vec Ideal Cert.KernelIdeal.S64 .f32) (p : Fin 5000) (q : Fin 64) :
    Cert.KernelIdeal.Gen.k0_pay1 (F := Ideal) xB W1 b1 W2 b2 (ix2 p q) = headA (fun j => xB (ix2 p j)) W1 b1 W2 b2 q := by
  unfold Cert.KernelIdeal.Gen.k0_pay1 headA
  refine (mlpUnitRelu_apply _ (ix2 p q)).trans (congrArg (max · mlpZero) ?_)
  refine (mlpUnitDense_apply Cert.KernelIdeal.Facts₀.dot_S5000x64_S64x64_S5000x64_1_0_0_1_n_n_wf _ _ _ _ W2 b2 p q).trans ?_
  refine congrArg (fun row => denseRow row W2 b2 q) (funext fun k => ?_)
  refine (mlpUnitRelu_apply _ (ix2 p k)).trans (congrArg (max · mlpZero) ?_)
  exact mlpUnitDense_apply Cert.KernelIdeal.Facts₀.dot_S5000x64_S64x64_S5000x64_1_0_0_1_n_n_wf _ _ _ xB W1 b1 p k

/-- Row p, column q of what the second head's body stores is the second head at row p of its input block. -/
theorem mlpB_pay_apply (hB : Vec Ideal Cert.KernelIdeal.S5000x192 .f32) (W3 : Vec Ideal Cert.KernelIdeal.S192x64 .f32)
    (b3 : Vec Ideal Cert.KernelIdeal.S64 .f32) (W4 : Vec Ideal Cert.KernelIdeal.S64x2 .f32)
    (b4 : Vec Ideal Cert.KernelIdeal.S2 .f32) (p : Fin 5000) (q : Fin 2) :
    Cert.KernelIdeal.Gen.k7_pay1 (F := Ideal) hB W3 b3 W4 b4 (ix2 p q) = headB (fun j => hB (ix2 p j)) W3 b3 W4 b4 q := by
  unfold Cert.KernelIdeal.Gen.k7_pay1 headB
  rw [shapeCast_self]
  refine (mlpUnitDense_apply Cert.KernelIdeal.Facts₀.dot_S5000x64_S64x2_S5000x2_1_0_0_1_n_n_wf _ _ _ _ W4 b4 p q).trans ?_
  refine congrArg (fun row => denseRow row W4 b4 q) (funext fun k => ?_)
  refine (mlpUnitRelu_apply _ (ix2 p k)).trans (congrArg (max · mlpZero) ?_)
  exact mlpUnitDense_apply Cert.KernelIdeal.Facts₀.dot_S5000x192_S192x64_S5000x64_1_0_0_1_n_n_wf _ _ _ hB W3 b3 p k

end Cert.KernelIdeal.RegionValue

end
-- ==== Proof.KI.Spec.lean ====
import proofs.«107957_j86157043957975_1_alg».proof.Proof.KI.HostSpec
import proofs.«107957_j86157043957975_1_alg».proof.Proof.KI.LapSpec
import proofs.«107957_j86157043957975_1_alg».proof.Proof.KI.MlpSpec

/-!
# The function both programs compute

Over the seven arrays the body of the network reads — the node features `x`, the edges' source and destination rows,
the first two layers' weights and biases — the intermediates of the forward pass, each spelt as the host operations
spell it:

* `sD`  the inverse square root of the clamped in-degree, as a column;
* `sH`  the two dense layers with `max · 0`;
* `sG1` the aggregate of `sH` (scale by `sD`, gather source rows, sum into destination rows), `sF1 = sH - sG1·sD` the first
  Laplacian step, `sG2` the aggregate of `sF1`;
* for a coefficient triple `(t₀, t₁, t₂)`: `sA0 = t₀·sH`, `sA1 = sA0 + t₁·sF1`, `sA2 = sA1 + t₂·(sF1 - sG2·sD)`;
* `sCat` the three `sA2` side by side, and `sOut` the head's two dense layers of it.

The aggregates and the first step do not depend on the triple: the three branches share them.
-/

noncomputable section

namespace Cert.KernelIdeal.RegionValue

open Cert.KernelIdeal Idealize.ShloMosaic

/-- The seven arrays the network's body reads. -/
structure Inp where
  x : (⟨S100000x64, .f32⟩ : BufTy).Contents (Elt Ideal)
  src : (⟨S3200000, .i32⟩ : BufTy).Contents (Elt Ideal)
  dst : (⟨S3200000, .i32⟩ : BufTy).Contents (Elt Ideal)
  w1 : (⟨S64x64, .f32⟩ : BufTy).Contents (Elt Ideal)
  b1 : (⟨S64, .f32⟩ : BufTy).Contents (Elt Ideal)
  w2 : (⟨S64x64, .f32⟩ : BufTy).Contents (Elt Ideal)
  b2 : (⟨S64, .f32⟩ : BufTy).Contents (Elt Ideal)

variable (a : Inp)

/-- The inverse square root of the clamped in-degree. -/
def sD : (⟨S100000x1, .f32⟩ : BufTy).Contents (Elt Ideal) := dinvT a.dst
/-- The two dense layers. -/
def sH : (⟨S100000x64, .f32⟩ : BufTy).Contents (Elt Ideal) := mlpA a.x a.w1 a.b1 a.w2 a.b2
/-- The aggregate of the hidden features. -/
def sG1 : (⟨S100000x64, .f32⟩ : BufTy).Contents (Elt Ideal) := aggT (sH a) (sD a) a.src a.dst
/-- One Laplacian step of the hidden features. -/
def sF1 : (⟨S100000x64, .f32⟩ : BufTy).Contents (Elt Ideal) := lapF (sH a) (sG1 a) (sD a)
/-- The aggregate of the first step. -/
def sG2 : (⟨S100000x64, .f32⟩ : BufTy).Contents (Elt Ideal) := aggT (sF1 a) (sD a) a.src a.dst
/-- A branch's accumulator before any step, -/
def sA0 (t0 : BitVec 32) : (⟨S100000x64, .f32⟩ : BufTy).Contents (Elt Ideal) := acc0T t0 (sH a)
/-- after the first step, -/
def sA1 (t0 t1 : BitVec 32) : (⟨S100000x64, .f32⟩ : BufTy).Contents (Elt Ideal) := lapAcc t1 (sH a) (sG1 a) (sD a) (sA0 a t0)
/-- and after the second. -/
def sA2 (t0 t1 t2 : BitVec 32) : (⟨S100000x64, .f32⟩ : BufTy).Contents (Elt Ideal) := lapAcc t2 (sF1 a) (sG2 a) (sD a) (sA1 a t0 t1)
/-- The three branches side by side. -/
def sCat : (⟨S100000x192, .f32⟩ : BufTy).Contents (Elt Ideal) :=
  catT (sA2 a 0x40400000#32 0xC0400000#32 0x3F400000#32) (sA2 a 0x00000000#32 0x40400000#32 0xBFC00000#32) (sA2 a 0x00000000#32 0x00000000#32 0x3F400000#32)
/-- The head. -/
def sOut (w3 : (⟨S192x64, .f32⟩ : BufTy).Contents (Elt Ideal)) (b3 : (⟨S64, .f32⟩ : BufTy).Contents (Elt Ideal))
    (w4 : (⟨S64x2, .f32⟩ : BufTy).Contents (Elt Ideal)) (b4 : (⟨S2, .f32⟩ : BufTy).Contents (Elt Ideal)) :
    (⟨S100000x2, .f32⟩ : BufTy).Contents (Elt Ideal) := mlpB (sCat a) w3 b3 w4 b4

end Cert.KernelIdeal.RegionValue

end
-- ==== Proof.KI.HostGenA.lean ====
import proofs.«107957_j86157043957975_1_alg».proof.Proof.Gen.KernelIdeal.Launch
import proofs.«107957_j86157043957975_1_alg».proof.Proof.KI.HostSpec
import Idealize.ShloMosaic.Lib.StableHlo.Run

/-!
# The host stretches read from arbitrary contents: the degree column, the scaled accumulators, the concatenation

Each stretch of host operations is a list of whole-array operations, each writing one buffer of its own from buffers
written before it or found at the stretch's start. Reading one buffer after the stretch therefore unfolds to the
operations that feed it, applied to what the stretch found: from ANY starting contents `Wp`. Here those reads, each
equal to the corresponding whole-array function of `HostSpec`.

The degree column is computed by three stretches in a row (the in-degrees; their clipping below at one, a call of a
module-local function; the power and the column): each is read from arbitrary contents, and the three reads are
chained.
-/

noncomputable section

namespace Cert.KernelIdeal.RegionValue

open Cert.KernelIdeal Cert.KernelIdeal.Gen Idealize.ShloMosaic Idealize.ShloMosaic.TcCoe

variable (Wp : Valuation τ sig (Elt Ideal))

/-- After the first stretch, `main_cst_2` holds the scalar one. -/
theorem hv0a_cst' : StableHlo.after hostOps0 Wp main_cst_2 = constant (F := Ideal) S_ .f32 0x3F800000#32 := by
  show StableHlo.after hostOps0 Wp (Proc.devRef .tc main_cst_2) = _
  after_results

set_option maxHeartbeats 1000000 in
/-- After the first stretch, `main_v8` holds the in-degrees: ones scatter-added from zero at the normalized targets. -/
theorem hv0a_deg' : StableHlo.after hostOps0 Wp main_v8
    = Host.scatterAdd (F := Ideal) scatter_S100000_S3200000x1_S3200000_n_0_0_1
        (broadcastInDim S100000 ![] bcast_S_S100000 (constant (F := Ideal) S_ .f32 0x00000000#32))
        (normIdx (Wp main_arg2))
        (broadcastInDim S3200000 ![] bcast_S_S3200000 (constant (F := Ideal) S_ .f32 0x3F800000#32)) := by
  show StableHlo.after hostOps0 Wp (Proc.devRef .tc main_v8) = _
  after_results
  rfl

/-- After the clipping stretch, `main_v9` holds the maximum of the broadcast scalar and the in-degrees. -/
theorem hv0b' : StableHlo.after hostOps0_1 Wp main_v9
    = (maximumf (F := Ideal) (s := S100000) (φ := .f32)
        (broadcastInDim S100000 ![] bcast_S_S100000 (id (Wp main_cst_2 : FVec Ideal S_ .f32)))
        (Wp main_v8 : FVec Ideal S100000 .f32) : FVec Ideal S100000 .f32) := by
  show StableHlo.after hostOps0_1 Wp (Proc.devRef .tc main_v9) = _
  after_results
  rfl

/-- After the third stretch, `main_v12` holds the clipped degrees to the power `-1/2`, as a column. -/
theorem hv0c' : StableHlo.after hostOps0_2 Wp main_v12
    = broadcastInDim S100000x1 ![0] bcast_S100000_S100000x1_0
        (Host.powf (F := Ideal) (Wp main_v9)
          (broadcastInDim S100000 ![] bcast_S_S100000 (constant (F := Ideal) S_ .f32 0xBF000000#32))) := by
  show StableHlo.after hostOps0_2 Wp (Proc.devRef .tc main_v12) = _
  after_results

/-- After the first three stretches, from any contents `Wp`, `main_v12` holds the degree column of the targets. -/
theorem hv0' : StableHlo.after hostOps0_2 (StableHlo.after hostOps0_1 (StableHlo.after hostOps0 Wp)) main_v12
    = dinvT (Wp main_arg2) := by
  rw [hv0c' (StableHlo.after hostOps0_1 (StableHlo.after hostOps0 Wp)), hv0b' (StableHlo.after hostOps0 Wp),
    hv0a_cst' Wp, hv0a_deg' Wp]
  rfl

/-- After the stretch `hostOps1`, from any contents `Wp`, `main_v15` holds `main_v13` scaled by the stretch's scalar. -/
theorem hv1_acc' : StableHlo.after hostOps1 Wp main_v15 = acc0T 0x40400000#32 (Wp main_v13) := by
  show StableHlo.after hostOps1 Wp (Proc.devRef .tc main_v15) = _
  after_results
  rfl

/-- After the stretch `hostOps3`, from any contents `Wp`, `main_v43` holds `main_v13` scaled by the stretch's scalar. -/
theorem hv3_acc' : StableHlo.after hostOps3 Wp main_v43 = acc0T 0x00000000#32 (Wp main_v13) := by
  show StableHlo.after hostOps3 Wp (Proc.devRef .tc main_v43) = _
  after_results
  rfl

/-- After the stretch `hostOps5`, from any contents `Wp`, `main_v71` holds `main_v13` scaled by the stretch's scalar. -/
theorem hv5_acc' : StableHlo.after hostOps5 Wp main_v71 = acc0T 0x00000000#32 (Wp main_v13) := by
  show StableHlo.after hostOps5 Wp (Proc.devRef .tc main_v71) = _
  after_results
  rfl

/-- After the stretch `hostOps7`, from any contents `Wp`, `main_v98` holds the three accumulators side by side. -/
theorem hv7' : StableHlo.after hostOps7 Wp main_v98
    = catT (Wp main_v41_1) (Wp main_v69_1) (Wp main_v97_1) := by
  show StableHlo.after hostOps7 Wp (Proc.devRef .tc main_v98) = _
  after_results
  rfl

end Cert.KernelIdeal.RegionValue

end
-- ==== Proof.KI.HostGenB.lean ====
import proofs.«107957_j86157043957975_1_alg».proof.Proof.Gen.KernelIdeal.Launch
import proofs.«107957_j86157043957975_1_alg».proof.Proof.KI.HostSpec
import Idealize.ShloMosaic.Lib.StableHlo.Run

/-!
# The host stretches read from arbitrary contents: the neighbour aggregates of stretches 1 and 2

Each stretch of host operations is a list of whole-array operations, each writing one buffer of its own from buffers
written before it or found at the stretch's start. Reading one buffer after the stretch therefore unfolds to the
operations that feed it, applied to what the stretch found: from ANY starting contents `Wp`. Here those reads, each
equal to the corresponding whole-array function of `HostSpec`.
-/

noncomputable section

namespace Cert.KernelIdeal.RegionValue

open Cert.KernelIdeal Cert.KernelIdeal.Gen Idealize.ShloMosaic Idealize.ShloMosaic.TcCoe

variable (Wp : Valuation τ sig (Elt Ideal))

set_option maxHeartbeats 4000000 in
/-- After the stretch `hostOps1`, from any contents `Wp`, `main_v27` holds the neighbour aggregate of `main_v13`. -/
theorem hv1_agg' : StableHlo.after hostOps1 Wp main_v27
    = aggT (Wp main_v13) (Wp main_v12) (Wp main_arg1) (Wp main_arg2) := by
  show StableHlo.after hostOps1 Wp (Proc.devRef .tc main_v27) = _
  after_results
  rfl

set_option maxHeartbeats 4000000 in
/-- After the stretch `hostOps2`, from any contents `Wp`, `main_v40` holds the neighbour aggregate of `main_v28_0`. -/
theorem hv2_agg' : StableHlo.after hostOps2 Wp main_v40
    = aggT (Wp main_v28_0) (Wp main_v12) (Wp main_arg1) (Wp main_arg2) := by
  show StableHlo.after hostOps2 Wp (Proc.devRef .tc main_v40) = _
  after_results
  rfl

end Cert.KernelIdeal.RegionValue

end
-- ==== Proof.KI.HostGenC.lean ====
import proofs.«107957_j86157043957975_1_alg».proof.Proof.Gen.KernelIdeal.Launch
import proofs.«107957_j86157043957975_1_alg».proof.Proof.KI.HostSpec
import Idealize.ShloMosaic.Lib.StableHlo.Run

/-!
# The host stretches read from arbitrary contents: the neighbour aggregates of stretches 3 and 4

Each stretch of host operations is a list of whole-array operations, each writing one buffer of its own from buffers
written before it or found at the stretch's start. Reading one buffer after the stretch therefore unfolds to the
operations that feed it, applied to what the stretch found: from ANY starting contents `Wp`. Here those reads, each
equal to the corresponding whole-array function of `HostSpec`.
-/

noncomputable section

namespace Cert.KernelIdeal.RegionValue

open Cert.KernelIdeal Cert.KernelIdeal.Gen Idealize.ShloMosaic Idealize.ShloMosaic.TcCoe

variable (Wp : Valuation τ sig (Elt Ideal))

set_option maxHeartbeats 4000000 in
/-- After the stretch `hostOps3`, from any contents `Wp`, `main_v55` holds the neighbour aggregate of `main_v13`. -/
theorem hv3_agg' : StableHlo.after hostOps3 Wp main_v55
    = aggT (Wp main_v13) (Wp main_v12) (Wp main_arg1) (Wp main_arg2) := by
  show StableHlo.after hostOps3 Wp (Proc.devRef .tc main_v55) = _
  after_results
  rfl

set_option maxHeartbeats 4000000 in
/-- After the stretch `hostOps4`, from any contents `Wp`, `main_v68` holds the neighbour aggregate of `main_v56_0`. -/
theorem hv4_agg' : StableHlo.after hostOps4 Wp main_v68
    = aggT (Wp main_v56_0) (Wp main_v12) (Wp main_arg1) (Wp main_arg2) := by
  show StableHlo.after hostOps4 Wp (Proc.devRef .tc main_v68) = _
  after_results
  rfl

end Cert.KernelIdeal.RegionValue

end
-- ==== Proof.KI.HostGenD.lean ====
import proofs.«107957_j86157043957975_1_alg».proof.Proof.Gen.KernelIdeal.Launch
import proofs.«107957_j86157043957975_1_alg».proof.Proof.KI.HostSpec
import Idealize.ShloMosaic.Lib.StableHlo.Run

/-!
# The host stretches read from arbitrary contents: the neighbour aggregates of stretches 5 and 6

Each stretch of host operations is a list of whole-array operations, each writing one buffer of its own from buffers
written before it or found at the stretch's start. Reading one buffer after the stretch therefore unfolds to the
operations that feed it, applied to what the stretch found: from ANY starting contents `Wp`. Here those reads, each
equal to the corresponding whole-array function of `HostSpec`.
-/

noncomputable section

namespace Cert.KernelIdeal.RegionValue

open Cert.KernelIdeal Cert.KernelIdeal.Gen Idealize.ShloMosaic Idealize.ShloMosaic.TcCoe

variable (Wp : Valuation τ sig (Elt Ideal))

set_option maxHeartbeats 4000000 in
/-- After the stretch `hostOps5`, from any contents `Wp`, `main_v83` holds the neighbour aggregate of `main_v13`. -/
theorem hv5_agg' : StableHlo.after hostOps5 Wp main_v83
    = aggT (Wp main_v13) (Wp main_v12) (Wp main_arg1) (Wp main_arg2) := by
  show StableHlo.after hostOps5 Wp (Proc.devRef .tc main_v83) = _
  after_results
  rfl

set_option maxHeartbeats 4000000 in
/-- After the stretch `hostOps6`, from any contents `Wp`, `main_v96` holds the neighbour aggregate of `main_v84_0`. -/
theorem hv6_agg' : StableHlo.after hostOps6 Wp main_v96
    = aggT (Wp main_v84_0) (Wp main_v12) (Wp main_arg1) (Wp main_arg2) := by
  show StableHlo.after hostOps6 Wp (Proc.devRef .tc main_v96) = _
  after_results
  rfl

end Cert.KernelIdeal.RegionValue

end
-- ==== Proof.KI.HostVal.lean ====
import proofs.«107957_j86157043957975_1_alg».proof.Proof.KI.Run
import proofs.«107957_j86157043957975_1_alg».proof.Proof.KI.HostGenA
import proofs.«107957_j86157043957975_1_alg».proof.Proof.KI.HostGenB
import proofs.«107957_j86157043957975_1_alg».proof.Proof.KI.HostGenC
import proofs.«107957_j86157043957975_1_alg».proof.Proof.KI.HostGenD

/-!
# What the host stretches write, between the program's items

The buffers of core `c` after each item of the program are a fold from the launch memory `m` (`Gen.W3` … `Gen.W18`);
a host stretch's step of the fold applies the stretch's operations to the buffers the item before left. Each read
of a host-written buffer is therefore the stretch's read from arbitrary contents, taken at the buffers the item
before left: the degree column from the launch memory's target indices; each region's scaled accumulator and
neighbour aggregate from the feature array, the degree column and the edge list as the item before left them; the
final concatenation from the three accumulators.
-/

noncomputable section

namespace Cert.KernelIdeal.RegionValue

open Cert.KernelIdeal Cert.KernelIdeal.Gen Idealize.ShloMosaic Idealize.ShloMosaic.TcCoe

variable (m : (ℓ : Loc nD τ sig) → Buf (Elt Ideal) ℓ) (c : Dev nD)

/-- At region 0's entry the degree column is `dinvT` of the launch memory's target indices. -/
theorem hv0 : Gen.W3 m c main_v12 = dinvT (m ((c : Thread nD τ).loc main_arg2)) :=
  hv0' (Gen.V0 m c)

/-- Region 1's accumulator at entry: the features after region 0, scaled. -/
theorem hv1_acc : Gen.W5 m c main_v15 = acc0T 0x40400000#32 (Gen.W4 m c main_v13) :=
  hv1_acc' (Gen.W4 m c)

/-- Region 1's aggregate at entry. -/
theorem hv1_agg : Gen.W5 m c main_v27
    = aggT (Gen.W4 m c main_v13) (Gen.W4 m c main_v12) (Gen.W4 m c main_arg1) (Gen.W4 m c main_arg2) :=
  hv1_agg' (Gen.W4 m c)

/-- Region 2's aggregate at entry. -/
theorem hv2_agg : Gen.W7 m c main_v40
    = aggT (Gen.W6 m c main_v28_0) (Gen.W6 m c main_v12) (Gen.W6 m c main_arg1) (Gen.W6 m c main_arg2) :=
  hv2_agg' (Gen.W6 m c)

/-- Region 3's accumulator at entry. -/
theorem hv3_acc : Gen.W9 m c main_v43 = acc0T 0x00000000#32 (Gen.W8 m c main_v13) :=
  hv3_acc' (Gen.W8 m c)

/-- Region 3's aggregate at entry. -/
theorem hv3_agg : Gen.W9 m c main_v55
    = aggT (Gen.W8 m c main_v13) (Gen.W8 m c main_v12) (Gen.W8 m c main_arg1) (Gen.W8 m c main_arg2) :=
  hv3_agg' (Gen.W8 m c)

/-- Region 4's aggregate at entry. -/
theorem hv4_agg : Gen.W11 m c main_v68
    = aggT (Gen.W10 m c main_v56_0) (Gen.W10 m c main_v12) (Gen.W10 m c main_arg1) (Gen.W10 m c main_arg2) :=
  hv4_agg' (Gen.W10 m c)

/-- Region 5's accumulator at entry. -/
theorem hv5_acc : Gen.W13 m c main_v71 = acc0T 0x00000000#32 (Gen.W12 m c main_v13) :=
  hv5_acc' (Gen.W12 m c)

/-- Region 5's aggregate at entry. -/
theorem hv5_agg : Gen.W13 m c main_v83
    = aggT (Gen.W12 m c main_v13) (Gen.W12 m c main_v12) (Gen.W12 m c main_arg1) (Gen.W12 m c main_arg2) :=
  hv5_agg' (Gen.W12 m c)

/-- Region 6's aggregate at entry. -/
theorem hv6_agg : Gen.W15 m c main_v96
    = aggT (Gen.W14 m c main_v84_0) (Gen.W14 m c main_v12) (Gen.W14 m c main_arg1) (Gen.W14 m c main_arg2) :=
  hv6_agg' (Gen.W14 m c)

/-- Region 7's input at entry: the three accumulators side by side. -/
theorem hv7 : Gen.W17 m c main_v98
    = catT (Gen.W16 m c main_v41_1) (Gen.W16 m c main_v69_1) (Gen.W16 m c main_v97_1) :=
  hv7' (Gen.W16 m c)

end Cert.KernelIdeal.RegionValue

end
-- ==== Proof.KI.ValLap1.lean ====
import proofs.«107957_j86157043957975_1_alg».proof.Proof.KI.Reg1
import proofs.«107957_j86157043957975_1_alg».proof.Proof.KI.LapSpec
import Idealize.ShloMosaic.Lib.Pipeline.Value
import Idealize.ShloMosaic.Lib.ValueIdx

/-!
# Region 1: the two output arrays of the Laplacian step, as functions of the arrays it finds

The region runs over 20 grid points; point `t` reads rows `5000 t … 5000 t + 4999` of the feature array `f`, of
the aggregate `agg`, of the degree column `dinv` and of the accumulator `acc`, and writes the same rows of its two
outputs. Here: the body's two payloads are the block forms `lapBlk` and `lapAccBlk`; each window's block at
point `t`, read at row `p`, is its array at row `5000 t + p`; so what point `t` writes back is block `t` of
`lapF f agg dinv`, and of `lapAcc t f agg dinv acc`; the 20 blocks cover the 100000 rows (row `r` is in block
`r / 5000`); hence after the run the first output array is `lapF f agg dinv` and the second is
`lapAcc t f agg dinv acc`, whatever the arrays held at the region's entry.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads -/

/-- The first payload is `f - agg * dinv` on the loaded blocks (its shape casts are to the same shape). -/
theorem pay1_1 (dB : Vec Ideal S5000x1 .f32) (fB aggB : Vec Ideal S5000x64 .f32) :
    k1_pay1 dB fB aggB = lapBlk dB fB aggB := by
  unfold k1_pay1 lapBlk
  simp only [shapeCast_self]

/-- The second payload is `acc + t * (f - agg * dinv)` on the loaded blocks, at this region's scalar. -/
theorem pay1_2 (dB : Vec Ideal S5000x1 .f32) (fB aggB accB : Vec Ideal S5000x64 .f32) :
    k1_pay2 dB fB aggB accB = lapAccBlk 0xC0400000#32 dB fB aggB accB := by
  unfold k1_pay2 lapAccBlk
  simp only [shapeCast_self, pay1_1]

/-! ## The index maps: every window's block at point `t` is block `(t, 0)` -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## Each input block, read at a row, is its array at that row of the array -/

/-- The block of `f` at point `t`, row `p`, feature `q`, is `f` at row `5000 t + p`. -/
theorem iblk1_0_apply (c : Dev nD) (t : Fin cfg1.N) (p : Fin 5000) (q : Fin 64) (r : Fin 100000)
    (hr : r.val = 5000 * t.val + p.val) :
    (iblk1 V c 0 t : Vec Ideal S5000x64 .f32) (ix2 p q) = (V c main_v13 : S100000x64.Idx → Elt Ideal .f32) (ix2 r q) := by
  obtain ⟨e0, e1, -⟩ := idx_facts1 t
  unfold iblk1
  rw [View.read_apply]
  show V c main_v13 _ = V c main_v13 _
  congr 1
  funext a
  apply Fin.ext
  match a with
  | ⟨0, _⟩ => show win1_0.index t 0 * 5000 + 1 * p.val = r.val; rw [e0, hr]; omega
  | ⟨1, _⟩ => show win1_0.index t 1 * 64 + 1 * q.val = q.val; rw [e1]; omega

/-- The block of `agg` at point `t`, row `p`, feature `q`, is `agg` at row `5000 t + p`. -/
theorem iblk1_1_apply (c : Dev nD) (t : Fin cfg1.N) (p : Fin 5000) (q : Fin 64) (r : Fin 100000)
    (hr : r.val = 5000 * t.val + p.val) :
    (iblk1 V c 1 t : Vec Ideal S5000x64 .f32) (ix2 p q) = (V c main_v27 : S100000x64.Idx → Elt Ideal .f32) (ix2 r q) := by
  obtain ⟨-, -, e0, e1, -⟩ := idx_facts1 t
  unfold iblk1
  rw [View.read_apply]
  show V c main_v27 _ = V c main_v27 _
  congr 1
  funext a
  apply Fin.ext
  match a with
  | ⟨0, _⟩ => show win1_1.index t 0 * 5000 + 1 * p.val = r.val; rw [e0, hr]; omega
  | ⟨1, _⟩ => show win1_1.index t 1 * 64 + 1 * q.val = q.val; rw [e1]; omega

/-- The block of `dinv` at point `t`, row `p`, is `dinv` at row `5000 t + p`. -/
theorem iblk1_2_apply (c : Dev nD) (t : Fin cfg1.N) (p : Fin 5000) (r : Fin 100000)
    (hr : r.val = 5000 * t.val + p.val) :
    (iblk1 V c 2 t : Vec Ideal S5000x1 .f32) (ix2 p (0 : Fin 1))
      = (V c main_v12 : S100000x1.Idx → Elt Ideal .f32) (ix2 r (0 : Fin 1)) := by
  obtain ⟨-, -, -, -, e0, e1, -⟩ := idx_facts1 t
  unfold iblk1
  rw [View.read_apply]
  show V c main_v12 _ = V c main_v12 _
  congr 1
  funext a
  apply Fin.ext
  match a with
  | ⟨0, _⟩ => show win1_2.index t 0 * 5000 + 1 * p.val = r.val; rw [e0, hr]; omega
  | ⟨1, _⟩ => show win1_2.index t 1 * 1 + 1 * 0 = 0; rw [e1]

/-- The block of `acc` at point `t`, row `p`, feature `q`, is `acc` at row `5000 t + p`. -/
theorem iblk1_3_apply (c : Dev nD) (t : Fin cfg1.N) (p : Fin 5000) (q : Fin 64) (r : Fin 100000)
    (hr : r.val = 5000 * t.val + p.val) :
    (iblk1 V c 3 t : Vec Ideal S5000x64 .f32) (ix2 p q) = (V c main_v15 : S100000x64.Idx → Elt Ideal .f32) (ix2 r q) := by
  obtain ⟨-, -, -, -, -, -, e0, e1, -⟩ := idx_facts1 t
  unfold iblk1
  rw [View.read_apply]
  show V c main_v15 _ = V c main_v15 _
  congr 1
  funext a
  apply Fin.ext
  match a with
  | ⟨0, _⟩ => show win1_3.index t 0 * 5000 + 1 * p.val = r.val; rw [e0, hr]; omega
  | ⟨1, _⟩ => show win1_3.index t 1 * 64 + 1 * q.val = q.val; rw [e1]; omega

/-! ## Where an output block's element sits in its array -/

/-- Element `(p, q)` of the first output's block at point `t` is element `(5000 t + p, q)` of its array. -/
theorem emb1_4 (t : Fin cfg1.N) (p : Fin 5000) (q : Fin 64) (r : Fin 100000) (hr : r.val = 5000 * t.val + p.val) :
    ((cfg1.win 4).blk t).view.emb (ix2 p q) = (ix2 r q : S100000x64.Idx) := by
  obtain ⟨-, -, -, -, -, -, -, -, e0, e1, -⟩ := idx_facts1 t
  funext a
  apply Fin.ext
  match a with
  | ⟨0, _⟩ => show win1_4.index t 0 * 5000 + 1 * p.val = r.val; rw [e0, hr]; omega
  | ⟨1, _⟩ => show win1_4.index t 1 * 64 + 1 * q.val = q.val; rw [e1]; omega

/-- Element `(p, q)` of the second output's block at point `t` is element `(5000 t + p, q)` of its array. -/
theorem emb1_5 (t : Fin cfg1.N) (p : Fin 5000) (q : Fin 64) (r : Fin 100000) (hr : r.val = 5000 * t.val + p.val) :
    ((cfg1.win 5).blk t).view.emb (ix2 p q) = (ix2 r q : S100000x64.Idx) := by
  obtain ⟨-, -, -, -, -, -, -, -, -, -, e0, e1⟩ := idx_facts1 t
  funext a
  apply Fin.ext
  match a with
  | ⟨0, _⟩ => show win1_5.index t 0 * 5000 + 1 * p.val = r.val; rw [e0, hr]; omega
  | ⟨1, _⟩ => show win1_5.index t 1 * 64 + 1 * q.val = q.val; rw [e1]; omega

/-! ## What each point writes back -/

/-- Point `t` writes back, to the first output, block `t` of `lapF f agg dinv`. -/
theorem flushed1_4_eq (c : Dev nD) (t : Fin cfg1.N) :
    (dat1 V c).flushed 4 t
      = ((cfg1.win 4).blk t).view.read (Elt Ideal) (lapF (V c main_v13) (V c main_v27) (V c main_v12)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid1.N = 20 := N_1
  have ht : t.val < 20 := hN ▸ t.isLt
  have hr : 5000 * t.val + p.val < 100000 := by have := p.isLt; omega
  show k1_pay1 (iblk1 V c 2 t) (iblk1 V c 0 t) (iblk1 V c 1 t) (ix2 p q)
    = lapF (V c main_v13) (V c main_v27) (V c main_v12) (((cfg1.win 4).blk t).view.emb (ix2 p q))
  rw [emb1_4 t p q ⟨_, hr⟩ rfl]
  refine (congrFun (pay1_1 _ _ _) (ix2 p q)).trans ?_
  exact lapBlk_eq_lapF _ _ _ _ _ _ p q ⟨_, hr⟩ (iblk1_0_apply V c t p q _ rfl) (iblk1_1_apply V c t p q _ rfl)
    (iblk1_2_apply V c t p _ rfl)

/-- Point `t` writes back, to the second output, block `t` of `lapAcc t f agg dinv acc`. -/
theorem flushed1_5_eq (c : Dev nD) (t : Fin cfg1.N) :
    (dat1 V c).flushed 5 t
      = ((cfg1.win 5).blk t).view.read (Elt Ideal)
          (lapAcc 0xC0400000#32 (V c main_v13) (V c main_v27) (V c main_v12) (V c main_v15)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid1.N = 20 := N_1
  have ht : t.val < 20 := hN ▸ t.isLt
  have hr : 5000 * t.val + p.val < 100000 := by have := p.isLt; omega
  show k1_pay2 (iblk1 V c 2 t) (iblk1 V c 0 t) (iblk1 V c 1 t) (iblk1 V c 3 t) (ix2 p q)
    = lapAcc 0xC0400000#32 (V c main_v13) (V c main_v27) (V c main_v12) (V c main_v15) (((cfg1.win 5).blk t).view.emb (ix2 p q))
  rw [emb1_5 t p q ⟨_, hr⟩ rfl]
  refine (congrFun (pay1_2 _ _ _ _) (ix2 p q)).trans ?_
  exact lapAccBlk_eq_lapAcc _ _ _ _ _ _ _ _ _ p q ⟨_, hr⟩ (iblk1_0_apply V c t p q _ rfl) (iblk1_1_apply V c t p q _ rfl)
    (iblk1_2_apply V c t p _ rfl) (iblk1_3_apply V c t p q _ rfl)

/-! ## The blocks cover the arrays -/

/-- An index of the first output array is in point `t`'s block iff each coordinate is in the block's range. -/
theorem mem_blk1_4 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28_0).slice (win1_4.rect t)).set ↔ _
  rw [View.set_slice_whole, Rect.mem_set_unit]
  exact Iff.rfl

/-- An index of the second output array is in point `t`'s block iff each coordinate is in the block's range. -/
theorem mem_blk1_5 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v28_1).slice (win1_5.rect t)).set ↔ _
  rw [View.set_slice_whole, Rect.mem_set_unit]
  exact Iff.rfl

/-- Every index of the first output array is in the block of the point numbered by its row over 5000. -/
theorem cover1_4 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨hb, hlo, hhi⟩ := row_block (i 0).val hi0
  have hb' : (i 0).val / 5000 < cfg1.N := by rw [show cfg1.N = 20 from N_1]; exact hb
  refine ⟨⟨(i 0).val / 5000, hb'⟩, flush1_4 _, ?_⟩
  rw [mem_blk1_4]
  obtain ⟨-, -, -, -, -, -, -, -, e0, e1, -⟩ := idx_facts1 ⟨(i 0).val / 5000, hb'⟩
  intro a
  match a with
  | ⟨0, _⟩ =>
    show win1_4.index _ 0 * 5000 ≤ (i 0).val ∧ (i 0).val < win1_4.index _ 0 * 5000 + 5000
    rw [e0]; exact ⟨hlo, hhi⟩
  | ⟨1, _⟩ =>
    show win1_4.index _ 1 * 64 ≤ (i 1).val ∧ (i 1).val < win1_4.index _ 1 * 64 + 64
    rw [e1]; omega

/-- Every index of the second output array is in the block of the point numbered by its row over 5000. -/
theorem cover1_5 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨hb, hlo, hhi⟩ := row_block (i 0).val hi0
  have hb' : (i 0).val / 5000 < cfg1.N := by rw [show cfg1.N = 20 from N_1]; exact hb
  refine ⟨⟨(i 0).val / 5000, hb'⟩, flush1_5 _, ?_⟩
  rw [mem_blk1_5]
  obtain ⟨-, -, -, -, -, -, -, -, -, -, e0, e1⟩ := idx_facts1 ⟨(i 0).val / 5000, hb'⟩
  intro a
  match a with
  | ⟨0, _⟩ =>
    show win1_5.index _ 0 * 5000 ≤ (i 0).val ∧ (i 0).val < win1_5.index _ 0 * 5000 + 5000
    rw [e0]; exact ⟨hlo, hhi⟩
  | ⟨1, _⟩ =>
    show win1_5.index _ 1 * 64 ≤ (i 1).val ∧ (i 1).val < win1_5.index _ 1 * 64 + 64
    rw [e1]; omega

/-! ## The two output arrays after the run -/

/-- After the region's run the first output array is `f - agg * dinv` of the arrays the region found. -/
theorem final1_4 (c : Dev nD) :
    (dat1 (F := Ideal) V c).arrAt 4 cfg1.N = lapF (V c main_v13) (V c main_v27) (V c main_v12) :=
  (dat1 V c).arrAt_eq_of_cover 4 (lapF (V c main_v13) (V c main_v27) (V c main_v12))
    (fun t _ => flushed1_4_eq V c t) cover1_4

/-- After the region's run the second output array is `acc + t * (f - agg * dinv)` of the arrays the region found. -/
theorem final1_5 (c : Dev nD) :
    (dat1 (F := Ideal) V c).arrAt 5 cfg1.N
      = lapAcc 0xC0400000#32 (V c main_v13) (V c main_v27) (V c main_v12) (V c main_v15) :=
  (dat1 V c).arrAt_eq_of_cover 5 (lapAcc 0xC0400000#32 (V c main_v13) (V c main_v27) (V c main_v12) (V c main_v15))
    (fun t _ => flushed1_5_eq V c t) cover1_5

end Cert.KernelIdeal.RegionValue

end
-- ==== Proof.KI.ValLap2.lean ====
import proofs.«107957_j86157043957975_1_alg».proof.Proof.KI.Reg2
import proofs.«107957_j86157043957975_1_alg».proof.Proof.KI.LapSpec
import Idealize.ShloMosaic.Lib.Pipeline.Value
import Idealize.ShloMosaic.Lib.ValueIdx

/-!
# Region 2: the two output arrays of the Laplacian step, as functions of the arrays it finds

The region runs over 20 grid points; point `t` reads rows `5000 t … 5000 t + 4999` of the feature array `f`, of
the aggregate `agg`, of the degree column `dinv` and of the accumulator `acc`, and writes the same rows of its two
outputs. Here: the body's two payloads are the block forms `lapBlk` and `lapAccBlk`; each window's block at
point `t`, read at row `p`, is its array at row `5000 t + p`; so what point `t` writes back is block `t` of
`lapF f agg dinv`, and of `lapAcc t f agg dinv acc`; the 20 blocks cover the 100000 rows (row `r` is in block
`r / 5000`); hence after the run the first output array is `lapF f agg dinv` and the second is
`lapAcc t f agg dinv acc`, whatever the arrays held at the region's entry.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads -/

/-- The first payload is `f - agg * dinv` on the loaded blocks (its shape casts are to the same shape). -/
theorem pay2_1 (dB : Vec Ideal S5000x1 .f32) (fB aggB : Vec Ideal S5000x64 .f32) :
    k2_pay1 dB fB aggB = lapBlk dB fB aggB := by
  unfold k2_pay1 lapBlk
  simp only [shapeCast_self]

/-- The second payload is `acc + t * (f - agg * dinv)` on the loaded blocks, at this region's scalar. -/
theorem pay2_2 (dB : Vec Ideal S5000x1 .f32) (fB aggB accB : Vec Ideal S5000x64 .f32) :
    k2_pay2 dB fB aggB accB = lapAccBlk 0x3F400000#32 dB fB aggB accB := by
  unfold k2_pay2 lapAccBlk
  simp only [shapeCast_self, pay2_1]

/-! ## The index maps: every window's block at point `t` is block `(t, 0)` -/

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## Each input block, read at a row, is its array at that row of the array -/

/-- The block of `f` at point `t`, row `p`, feature `q`, is `f` at row `5000 t + p`. -/
theorem iblk2_0_apply (c : Dev nD) (t : Fin cfg2.N) (p : Fin 5000) (q : Fin 64) (r : Fin 100000)
    (hr : r.val = 5000 * t.val + p.val) :
    (iblk2 V c 0 t : Vec Ideal S5000x64 .f32) (ix2 p q) = (V c main_v28_0 : S100000x64.Idx → Elt Ideal .f32) (ix2 r q) := by
  obtain ⟨e0, e1, -⟩ := idx_facts2 t
  unfold iblk2
  rw [View.read_apply]
  show V c main_v28_0 _ = V c main_v28_0 _
  congr 1
  funext a
  apply Fin.ext
  match a with
  | ⟨0, _⟩ => show win2_0.index t 0 * 5000 + 1 * p.val = r.val; rw [e0, hr]; omega
  | ⟨1, _⟩ => show win2_0.index t 1 * 64 + 1 * q.val = q.val; rw [e1]; omega

/-- The block of `agg` at point `t`, row `p`, feature `q`, is `agg` at row `5000 t + p`. -/
theorem iblk2_1_apply (c : Dev nD) (t : Fin cfg2.N) (p : Fin 5000) (q : Fin 64) (r : Fin 100000)
    (hr : r.val = 5000 * t.val + p.val) :
    (iblk2 V c 1 t : Vec Ideal S5000x64 .f32) (ix2 p q) = (V c main_v40 : S100000x64.Idx → Elt Ideal .f32) (ix2 r q) := by
  obtain ⟨-, -, e0, e1, -⟩ := idx_facts2 t
  unfold iblk2
  rw [View.read_apply]
  show V c main_v40 _ = V c main_v40 _
  congr 1
  funext a
  apply Fin.ext
  match a with
  | ⟨0, _⟩ => show win2_1.index t 0 * 5000 + 1 * p.val = r.val; rw [e0, hr]; omega
  | ⟨1, _⟩ => show win2_1.index t 1 * 64 + 1 * q.val = q.val; rw [e1]; omega

/-- The block of `dinv` at point `t`, row `p`, is `dinv` at row `5000 t + p`. -/
theorem iblk2_2_apply (c : Dev nD) (t : Fin cfg2.N) (p : Fin 5000) (r : Fin 100000)
    (hr : r.val = 5000 * t.val + p.val) :
    (iblk2 V c 2 t : Vec Ideal S5000x1 .f32) (ix2 p (0 : Fin 1))
      = (V c main_v12 : S100000x1.Idx → Elt Ideal .f32) (ix2 r (0 : Fin 1)) := by
  obtain ⟨-, -, -, -, e0, e1, -⟩ := idx_facts2 t
  unfold iblk2
  rw [View.read_apply]
  show V c main_v12 _ = V c main_v12 _
  congr 1
  funext a
  apply Fin.ext
  match a with
  | ⟨0, _⟩ => show win2_2.index t 0 * 5000 + 1 * p.val = r.val; rw [e0, hr]; omega
  | ⟨1, _⟩ => show win2_2.index t 1 * 1 + 1 * 0 = 0; rw [e1]

/-- The block of `acc` at point `t`, row `p`, feature `q`, is `acc` at row `5000 t + p`. -/
theorem iblk2_3_apply (c : Dev nD) (t : Fin cfg2.N) (p : Fin 5000) (q : Fin 64) (r : Fin 100000)
    (hr : r.val = 5000 * t.val + p.val) :
    (iblk2 V c 3 t : Vec Ideal S5000x64 .f32) (ix2 p q) = (V c main_v28_1 : S100000x64.Idx → Elt Ideal .f32) (ix2 r q) := by
  obtain ⟨-, -, -, -, -, -, e0, e1, -⟩ := idx_facts2 t
  unfold iblk2
  rw [View.read_apply]
  show V c main_v28_1 _ = V c main_v28_1 _
  congr 1
  funext a
  apply Fin.ext
  match a with
  | ⟨0, _⟩ => show win2_3.index t 0 * 5000 + 1 * p.val = r.val; rw [e0, hr]; omega
  | ⟨1, _⟩ => show win2_3.index t 1 * 64 + 1 * q.val = q.val; rw [e1]; omega

/-! ## Where an output block's element sits in its array -/

/-- Element `(p, q)` of the first output's block at point `t` is element `(5000 t + p, q)` of its array. -/
theorem emb2_4 (t : Fin cfg2.N) (p : Fin 5000) (q : Fin 64) (r : Fin 100000) (hr : r.val = 5000 * t.val + p.val) :
    ((cfg2.win 4).blk t).view.emb (ix2 p q) = (ix2 r q : S100000x64.Idx) := by
  obtain ⟨-, -, -, -, -, -, -, -, e0, e1, -⟩ := idx_facts2 t
  funext a
  apply Fin.ext
  match a with
  | ⟨0, _⟩ => show win2_4.index t 0 * 5000 + 1 * p.val = r.val; rw [e0, hr]; omega
  | ⟨1, _⟩ => show win2_4.index t 1 * 64 + 1 * q.val = q.val; rw [e1]; omega

/-- Element `(p, q)` of the second output's block at point `t` is element `(5000 t + p, q)` of its array. -/
theorem emb2_5 (t : Fin cfg2.N) (p : Fin 5000) (q : Fin 64) (r : Fin 100000) (hr : r.val = 5000 * t.val + p.val) :
    ((cfg2.win 5).blk t).view.emb (ix2 p q) = (ix2 r q : S100000x64.Idx) := by
  obtain ⟨-, -, -, -, -, -, -, -, -, -, e0, e1⟩ := idx_facts2 t
  funext a
  apply Fin.ext
  match a with
  | ⟨0, _⟩ => show win2_5.index t 0 * 5000 + 1 * p.val = r.val; rw [e0, hr]; omega
  | ⟨1, _⟩ => show win2_5.index t 1 * 64 + 1 * q.val = q.val; rw [e1]; omega

/-! ## What each point writes back -/

/-- Point `t` writes back, to the first output, block `t` of `lapF f agg dinv`. -/
theorem flushed2_4_eq (c : Dev nD) (t : Fin cfg2.N) :
    (dat2 V c).flushed 4 t
      = ((cfg2.win 4).blk t).view.read (Elt Ideal) (lapF (V c main_v28_0) (V c main_v40) (V c main_v12)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid2.N = 20 := N_2
  have ht : t.val < 20 := hN ▸ t.isLt
  have hr : 5000 * t.val + p.val < 100000 := by have := p.isLt; omega
  show k2_pay1 (iblk2 V c 2 t) (iblk2 V c 0 t) (iblk2 V c 1 t) (ix2 p q)
    = lapF (V c main_v28_0) (V c main_v40) (V c main_v12) (((cfg2.win 4).blk t).view.emb (ix2 p q))
  rw [emb2_4 t p q ⟨_, hr⟩ rfl]
  refine (congrFun (pay2_1 _ _ _) (ix2 p q)).trans ?_
  exact lapBlk_eq_lapF _ _ _ _ _ _ p q ⟨_, hr⟩ (iblk2_0_apply V c t p q _ rfl) (iblk2_1_apply V c t p q _ rfl)
    (iblk2_2_apply V c t p _ rfl)

/-- Point `t` writes back, to the second output, block `t` of `lapAcc t f agg dinv acc`. -/
theorem flushed2_5_eq (c : Dev nD) (t : Fin cfg2.N) :
    (dat2 V c).flushed 5 t
      = ((cfg2.win 5).blk t).view.read (Elt Ideal)
          (lapAcc 0x3F400000#32 (V c main_v28_0) (V c main_v40) (V c main_v12) (V c main_v28_1)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid2.N = 20 := N_2
  have ht : t.val < 20 := hN ▸ t.isLt
  have hr : 5000 * t.val + p.val < 100000 := by have := p.isLt; omega
  show k2_pay2 (iblk2 V c 2 t) (iblk2 V c 0 t) (iblk2 V c 1 t) (iblk2 V c 3 t) (ix2 p q)
    = lapAcc 0x3F400000#32 (V c main_v28_0) (V c main_v40) (V c main_v12) (V c main_v28_1) (((cfg2.win 5).blk t).view.emb (ix2 p q))
  rw [emb2_5 t p q ⟨_, hr⟩ rfl]
  refine (congrFun (pay2_2 _ _ _ _) (ix2 p q)).trans ?_
  exact lapAccBlk_eq_lapAcc _ _ _ _ _ _ _ _ _ p q ⟨_, hr⟩ (iblk2_0_apply V c t p q _ rfl) (iblk2_1_apply V c t p q _ rfl)
    (iblk2_2_apply V c t p _ rfl) (iblk2_3_apply V c t p q _ rfl)

/-! ## The blocks cover the arrays -/

/-- An index of the first output array is in point `t`'s block iff each coordinate is in the block's range. -/
theorem mem_blk2_4 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v41_0).slice (win2_4.rect t)).set ↔ _
  rw [View.set_slice_whole, Rect.mem_set_unit]
  exact Iff.rfl

/-- An index of the second output array is in point `t`'s block iff each coordinate is in the block's range. -/
theorem mem_blk2_5 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v41_1).slice (win2_5.rect t)).set ↔ _
  rw [View.set_slice_whole, Rect.mem_set_unit]
  exact Iff.rfl

/-- Every index of the first output array is in the block of the point numbered by its row over 5000. -/
theorem cover2_4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨hb, hlo, hhi⟩ := row_block (i 0).val hi0
  have hb' : (i 0).val / 5000 < cfg2.N := by rw [show cfg2.N = 20 from N_2]; exact hb
  refine ⟨⟨(i 0).val / 5000, hb'⟩, flush2_4 _, ?_⟩
  rw [mem_blk2_4]
  obtain ⟨-, -, -, -, -, -, -, -, e0, e1, -⟩ := idx_facts2 ⟨(i 0).val / 5000, hb'⟩
  intro a
  match a with
  | ⟨0, _⟩ =>
    show win2_4.index _ 0 * 5000 ≤ (i 0).val ∧ (i 0).val < win2_4.index _ 0 * 5000 + 5000
    rw [e0]; exact ⟨hlo, hhi⟩
  | ⟨1, _⟩ =>
    show win2_4.index _ 1 * 64 ≤ (i 1).val ∧ (i 1).val < win2_4.index _ 1 * 64 + 64
    rw [e1]; omega

/-- Every index of the second output array is in the block of the point numbered by its row over 5000. -/
theorem cover2_5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨hb, hlo, hhi⟩ := row_block (i 0).val hi0
  have hb' : (i 0).val / 5000 < cfg2.N := by rw [show cfg2.N = 20 from N_2]; exact hb
  refine ⟨⟨(i 0).val / 5000, hb'⟩, flush2_5 _, ?_⟩
  rw [mem_blk2_5]
  obtain ⟨-, -, -, -, -, -, -, -, -, -, e0, e1⟩ := idx_facts2 ⟨(i 0).val / 5000, hb'⟩
  intro a
  match a with
  | ⟨0, _⟩ =>
    show win2_5.index _ 0 * 5000 ≤ (i 0).val ∧ (i 0).val < win2_5.index _ 0 * 5000 + 5000
    rw [e0]; exact ⟨hlo, hhi⟩
  | ⟨1, _⟩ =>
    show win2_5.index _ 1 * 64 ≤ (i 1).val ∧ (i 1).val < win2_5.index _ 1 * 64 + 64
    rw [e1]; omega

/-! ## The two output arrays after the run -/

/-- After the region's run the first output array is `f - agg * dinv` of the arrays the region found. -/
theorem final2_4 (c : Dev nD) :
    (dat2 (F := Ideal) V c).arrAt 4 cfg2.N = lapF (V c main_v28_0) (V c main_v40) (V c main_v12) :=
  (dat2 V c).arrAt_eq_of_cover 4 (lapF (V c main_v28_0) (V c main_v40) (V c main_v12))
    (fun t _ => flushed2_4_eq V c t) cover2_4

/-- After the region's run the second output array is `acc + t * (f - agg * dinv)` of the arrays the region found. -/
theorem final2_5 (c : Dev nD) :
    (dat2 (F := Ideal) V c).arrAt 5 cfg2.N
      = lapAcc 0x3F400000#32 (V c main_v28_0) (V c main_v40) (V c main_v12) (V c main_v28_1) :=
  (dat2 V c).arrAt_eq_of_cover 5 (lapAcc 0x3F400000#32 (V c main_v28_0) (V c main_v40) (V c main_v12) (V c main_v28_1))
    (fun t _ => flushed2_5_eq V c t) cover2_5

end Cert.KernelIdeal.RegionValue

end
-- ==== Proof.KI.ValLap3.lean ====
import proofs.«107957_j86157043957975_1_alg».proof.Proof.KI.Reg3
import proofs.«107957_j86157043957975_1_alg».proof.Proof.KI.LapSpec
import Idealize.ShloMosaic.Lib.Pipeline.Value
import Idealize.ShloMosaic.Lib.ValueIdx

/-!
# Region 3: the two output arrays of the Laplacian step, as functions of the arrays it finds

The region runs over 20 grid points; point `t` reads rows `5000 t … 5000 t + 4999` of the feature array `f`, of
the aggregate `agg`, of the degree column `dinv` and of the accumulator `acc`, and writes the same rows of its two
outputs. Here: the body's two payloads are the block forms `lapBlk` and `lapAccBlk`; each window's block at
point `t`, read at row `p`, is its array at row `5000 t + p`; so what point `t` writes back is block `t` of
`lapF f agg dinv`, and of `lapAcc t f agg dinv acc`; the 20 blocks cover the 100000 rows (row `r` is in block
`r / 5000`); hence after the run the first output array is `lapF f agg dinv` and the second is
`lapAcc t f agg dinv acc`, whatever the arrays held at the region's entry.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads -/

/-- The first payload is `f - agg * dinv` on the loaded blocks (its shape casts are to the same shape). -/
theorem pay3_1 (dB : Vec Ideal S5000x1 .f32) (fB aggB : Vec Ideal S5000x64 .f32) :
    k3_pay1 dB fB aggB = lapBlk dB fB aggB := by
  unfold k3_pay1 lapBlk
  simp only [shapeCast_self]

/-- The second payload is `acc + t * (f - agg * dinv)` on the loaded blocks, at this region's scalar. -/
theorem pay3_2 (dB : Vec Ideal S5000x1 .f32) (fB aggB accB : Vec Ideal S5000x64 .f32) :
    k3_pay2 dB fB aggB accB = lapAccBlk 0x40400000#32 dB fB aggB accB := by
  unfold k3_pay2 lapAccBlk
  simp only [shapeCast_self, pay3_1]

/-! ## The index maps: every window's block at point `t` is block `(t, 0)` -/

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-! ## Each input block, read at a row, is its array at that row of the array -/

/-- The block of `f` at point `t`, row `p`, feature `q`, is `f` at row `5000 t + p`. -/
theorem iblk3_0_apply (c : Dev nD) (t : Fin cfg3.N) (p : Fin 5000) (q : Fin 64) (r : Fin 100000)
    (hr : r.val = 5000 * t.val + p.val) :
    (iblk3 V c 0 t : Vec Ideal S5000x64 .f32) (ix2 p q) = (V c main_v13 : S100000x64.Idx → Elt Ideal .f32) (ix2 r q) := by
  obtain ⟨e0, e1, -⟩ := idx_facts3 t
  unfold iblk3
  rw [View.read_apply]
  show V c main_v13 _ = V c main_v13 _
  congr 1
  funext a
  apply Fin.ext
  match a with
  | ⟨0, _⟩ => show win3_0.index t 0 * 5000 + 1 * p.val = r.val; rw [e0, hr]; omega
  | ⟨1, _⟩ => show win3_0.index t 1 * 64 + 1 * q.val = q.val; rw [e1]; omega

/-- The block of `agg` at point `t`, row `p`, feature `q`, is `agg` at row `5000 t + p`. -/
theorem iblk3_1_apply (c : Dev nD) (t : Fin cfg3.N) (p : Fin 5000) (q : Fin 64) (r : Fin 100000)
    (hr : r.val = 5000 * t.val + p.val) :
    (iblk3 V c 1 t : Vec Ideal S5000x64 .f32) (ix2 p q) = (V c main_v55 : S100000x64.Idx → Elt Ideal .f32) (ix2 r q) := by
  obtain ⟨-, -, e0, e1, -⟩ := idx_facts3 t
  unfold iblk3
  rw [View.read_apply]
  show V c main_v55 _ = V c main_v55 _
  congr 1
  funext a
  apply Fin.ext
  match a with
  | ⟨0, _⟩ => show win3_1.index t 0 * 5000 + 1 * p.val = r.val; rw [e0, hr]; omega
  | ⟨1, _⟩ => show win3_1.index t 1 * 64 + 1 * q.val = q.val; rw [e1]; omega

/-- The block of `dinv` at point `t`, row `p`, is `dinv` at row `5000 t + p`. -/
theorem iblk3_2_apply (c : Dev nD) (t : Fin cfg3.N) (p : Fin 5000) (r : Fin 100000)
    (hr : r.val = 5000 * t.val + p.val) :
    (iblk3 V c 2 t : Vec Ideal S5000x1 .f32) (ix2 p (0 : Fin 1))
      = (V c main_v12 : S100000x1.Idx → Elt Ideal .f32) (ix2 r (0 : Fin 1)) := by
  obtain ⟨-, -, -, -, e0, e1, -⟩ := idx_facts3 t
  unfold iblk3
  rw [View.read_apply]
  show V c main_v12 _ = V c main_v12 _
  congr 1
  funext a
  apply Fin.ext
  match a with
  | ⟨0, _⟩ => show win3_2.index t 0 * 5000 + 1 * p.val = r.val; rw [e0, hr]; omega
  | ⟨1, _⟩ => show win3_2.index t 1 * 1 + 1 * 0 = 0; rw [e1]

/-- The block of `acc` at point `t`, row `p`, feature `q`, is `acc` at row `5000 t + p`. -/
theorem iblk3_3_apply (c : Dev nD) (t : Fin cfg3.N) (p : Fin 5000) (q : Fin 64) (r : Fin 100000)
    (hr : r.val = 5000 * t.val + p.val) :
    (iblk3 V c 3 t : Vec Ideal S5000x64 .f32) (ix2 p q) = (V c main_v43 : S100000x64.Idx → Elt Ideal .f32) (ix2 r q) := by
  obtain ⟨-, -, -, -, -, -, e0, e1, -⟩ := idx_facts3 t
  unfold iblk3
  rw [View.read_apply]
  show V c main_v43 _ = V c main_v43 _
  congr 1
  funext a
  apply Fin.ext
  match a with
  | ⟨0, _⟩ => show win3_3.index t 0 * 5000 + 1 * p.val = r.val; rw [e0, hr]; omega
  | ⟨1, _⟩ => show win3_3.index t 1 * 64 + 1 * q.val = q.val; rw [e1]; omega

/-! ## Where an output block's element sits in its array -/

/-- Element `(p, q)` of the first output's block at point `t` is element `(5000 t + p, q)` of its array. -/
theorem emb3_4 (t : Fin cfg3.N) (p : Fin 5000) (q : Fin 64) (r : Fin 100000) (hr : r.val = 5000 * t.val + p.val) :
    ((cfg3.win 4).blk t).view.emb (ix2 p q) = (ix2 r q : S100000x64.Idx) := by
  obtain ⟨-, -, -, -, -, -, -, -, e0, e1, -⟩ := idx_facts3 t
  funext a
  apply Fin.ext
  match a with
  | ⟨0, _⟩ => show win3_4.index t 0 * 5000 + 1 * p.val = r.val; rw [e0, hr]; omega
  | ⟨1, _⟩ => show win3_4.index t 1 * 64 + 1 * q.val = q.val; rw [e1]; omega

/-- Element `(p, q)` of the second output's block at point `t` is element `(5000 t + p, q)` of its array. -/
theorem emb3_5 (t : Fin cfg3.N) (p : Fin 5000) (q : Fin 64) (r : Fin 100000) (hr : r.val = 5000 * t.val + p.val) :
    ((cfg3.win 5).blk t).view.emb (ix2 p q) = (ix2 r q : S100000x64.Idx) := by
  obtain ⟨-, -, -, -, -, -, -, -, -, -, e0, e1⟩ := idx_facts3 t
  funext a
  apply Fin.ext
  match a with
  | ⟨0, _⟩ => show win3_5.index t 0 * 5000 + 1 * p.val = r.val; rw [e0, hr]; omega
  | ⟨1, _⟩ => show win3_5.index t 1 * 64 + 1 * q.val = q.val; rw [e1]; omega

/-! ## What each point writes back -/

/-- Point `t` writes back, to the first output, block `t` of `lapF f agg dinv`. -/
theorem flushed3_4_eq (c : Dev nD) (t : Fin cfg3.N) :
    (dat3 V c).flushed 4 t
      = ((cfg3.win 4).blk t).view.read (Elt Ideal) (lapF (V c main_v13) (V c main_v55) (V c main_v12)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid3.N = 20 := N_3
  have ht : t.val < 20 := hN ▸ t.isLt
  have hr : 5000 * t.val + p.val < 100000 := by have := p.isLt; omega
  show k3_pay1 (iblk3 V c 2 t) (iblk3 V c 0 t) (iblk3 V c 1 t) (ix2 p q)
    = lapF (V c main_v13) (V c main_v55) (V c main_v12) (((cfg3.win 4).blk t).view.emb (ix2 p q))
  rw [emb3_4 t p q ⟨_, hr⟩ rfl]
  refine (congrFun (pay3_1 _ _ _) (ix2 p q)).trans ?_
  exact lapBlk_eq_lapF _ _ _ _ _ _ p q ⟨_, hr⟩ (iblk3_0_apply V c t p q _ rfl) (iblk3_1_apply V c t p q _ rfl)
    (iblk3_2_apply V c t p _ rfl)

/-- Point `t` writes back, to the second output, block `t` of `lapAcc t f agg dinv acc`. -/
theorem flushed3_5_eq (c : Dev nD) (t : Fin cfg3.N) :
    (dat3 V c).flushed 5 t
      = ((cfg3.win 5).blk t).view.read (Elt Ideal)
          (lapAcc 0x40400000#32 (V c main_v13) (V c main_v55) (V c main_v12) (V c main_v43)) := by
  show (cfg3.win 5).cut (grid3.coords t) ((dat3 V c).after 5 t) = _
  rw [after3_5]
  unfold out3_5
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid3.N = 20 := N_3
  have ht : t.val < 20 := hN ▸ t.isLt
  have hr : 5000 * t.val + p.val < 100000 := by have := p.isLt; omega
  show k3_pay2 (iblk3 V c 2 t) (iblk3 V c 0 t) (iblk3 V c 1 t) (iblk3 V c 3 t) (ix2 p q)
    = lapAcc 0x40400000#32 (V c main_v13) (V c main_v55) (V c main_v12) (V c main_v43) (((cfg3.win 5).blk t).view.emb (ix2 p q))
  rw [emb3_5 t p q ⟨_, hr⟩ rfl]
  refine (congrFun (pay3_2 _ _ _ _) (ix2 p q)).trans ?_
  exact lapAccBlk_eq_lapAcc _ _ _ _ _ _ _ _ _ p q ⟨_, hr⟩ (iblk3_0_apply V c t p q _ rfl) (iblk3_1_apply V c t p q _ rfl)
    (iblk3_2_apply V c t p _ rfl) (iblk3_3_apply V c t p q _ rfl)

/-! ## The blocks cover the arrays -/

/-- An index of the first output array is in point `t`'s block iff each coordinate is in the block's range. -/
theorem mem_blk3_4 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v56_0).slice (win3_4.rect t)).set ↔ _
  rw [View.set_slice_whole, Rect.mem_set_unit]
  exact Iff.rfl

/-- An index of the second output array is in point `t`'s block iff each coordinate is in the block's range. -/
theorem mem_blk3_5 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v56_1).slice (win3_5.rect t)).set ↔ _
  rw [View.set_slice_whole, Rect.mem_set_unit]
  exact Iff.rfl

/-- Every index of the first output array is in the block of the point numbered by its row over 5000. -/
theorem cover3_4 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨hb, hlo, hhi⟩ := row_block (i 0).val hi0
  have hb' : (i 0).val / 5000 < cfg3.N := by rw [show cfg3.N = 20 from N_3]; exact hb
  refine ⟨⟨(i 0).val / 5000, hb'⟩, flush3_4 _, ?_⟩
  rw [mem_blk3_4]
  obtain ⟨-, -, -, -, -, -, -, -, e0, e1, -⟩ := idx_facts3 ⟨(i 0).val / 5000, hb'⟩
  intro a
  match a with
  | ⟨0, _⟩ =>
    show win3_4.index _ 0 * 5000 ≤ (i 0).val ∧ (i 0).val < win3_4.index _ 0 * 5000 + 5000
    rw [e0]; exact ⟨hlo, hhi⟩
  | ⟨1, _⟩ =>
    show win3_4.index _ 1 * 64 ≤ (i 1).val ∧ (i 1).val < win3_4.index _ 1 * 64 + 64
    rw [e1]; omega

/-- Every index of the second output array is in the block of the point numbered by its row over 5000. -/
theorem cover3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨hb, hlo, hhi⟩ := row_block (i 0).val hi0
  have hb' : (i 0).val / 5000 < cfg3.N := by rw [show cfg3.N = 20 from N_3]; exact hb
  refine ⟨⟨(i 0).val / 5000, hb'⟩, flush3_5 _, ?_⟩
  rw [mem_blk3_5]
  obtain ⟨-, -, -, -, -, -, -, -, -, -, e0, e1⟩ := idx_facts3 ⟨(i 0).val / 5000, hb'⟩
  intro a
  match a with
  | ⟨0, _⟩ =>
    show win3_5.index _ 0 * 5000 ≤ (i 0).val ∧ (i 0).val < win3_5.index _ 0 * 5000 + 5000
    rw [e0]; exact ⟨hlo, hhi⟩
  | ⟨1, _⟩ =>
    show win3_5.index _ 1 * 64 ≤ (i 1).val ∧ (i 1).val < win3_5.index _ 1 * 64 + 64
    rw [e1]; omega

/-! ## The two output arrays after the run -/

/-- After the region's run the first output array is `f - agg * dinv` of the arrays the region found. -/
theorem final3_4 (c : Dev nD) :
    (dat3 (F := Ideal) V c).arrAt 4 cfg3.N = lapF (V c main_v13) (V c main_v55) (V c main_v12) :=
  (dat3 V c).arrAt_eq_of_cover 4 (lapF (V c main_v13) (V c main_v55) (V c main_v12))
    (fun t _ => flushed3_4_eq V c t) cover3_4

/-- After the region's run the second output array is `acc + t * (f - agg * dinv)` of the arrays the region found. -/
theorem final3_5 (c : Dev nD) :
    (dat3 (F := Ideal) V c).arrAt 5 cfg3.N
      = lapAcc 0x40400000#32 (V c main_v13) (V c main_v55) (V c main_v12) (V c main_v43) :=
  (dat3 V c).arrAt_eq_of_cover 5 (lapAcc 0x40400000#32 (V c main_v13) (V c main_v55) (V c main_v12) (V c main_v43))
    (fun t _ => flushed3_5_eq V c t) cover3_5

end Cert.KernelIdeal.RegionValue

end
-- ==== Proof.KI.ValLap4.lean ====
import proofs.«107957_j86157043957975_1_alg».proof.Proof.KI.Reg4
import proofs.«107957_j86157043957975_1_alg».proof.Proof.KI.LapSpec
import Idealize.ShloMosaic.Lib.Pipeline.Value
import Idealize.ShloMosaic.Lib.ValueIdx

/-!
# Region 4: the two output arrays of the Laplacian step, as functions of the arrays it finds

The region runs over 20 grid points; point `t` reads rows `5000 t … 5000 t + 4999` of the feature array `f`, of
the aggregate `agg`, of the degree column `dinv` and of the accumulator `acc`, and writes the same rows of its two
outputs. Here: the body's two payloads are the block forms `lapBlk` and `lapAccBlk`; each window's block at
point `t`, read at row `p`, is its array at row `5000 t + p`; so what point `t` writes back is block `t` of
`lapF f agg dinv`, and of `lapAcc t f agg dinv acc`; the 20 blocks cover the 100000 rows (row `r` is in block
`r / 5000`); hence after the run the first output array is `lapF f agg dinv` and the second is
`lapAcc t f agg dinv acc`, whatever the arrays held at the region's entry.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads -/

/-- The first payload is `f - agg * dinv` on the loaded blocks (its shape casts are to the same shape). -/
theorem pay4_1 (dB : Vec Ideal S5000x1 .f32) (fB aggB : Vec Ideal S5000x64 .f32) :
    k4_pay1 dB fB aggB = lapBlk dB fB aggB := by
  unfold k4_pay1 lapBlk
  simp only [shapeCast_self]

/-- The second payload is `acc + t * (f - agg * dinv)` on the loaded blocks, at this region's scalar. -/
theorem pay4_2 (dB : Vec Ideal S5000x1 .f32) (fB aggB accB : Vec Ideal S5000x64 .f32) :
    k4_pay2 dB fB aggB accB = lapAccBlk 0xBFC00000#32 dB fB aggB accB := by
  unfold k4_pay2 lapAccBlk
  simp only [shapeCast_self, pay4_1]

/-! ## The index maps: every window's block at point `t` is block `(t, 0)` -/

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-! ## Each input block, read at a row, is its array at that row of the array -/

/-- The block of `f` at point `t`, row `p`, feature `q`, is `f` at row `5000 t + p`. -/
theorem iblk4_0_apply (c : Dev nD) (t : Fin cfg4.N) (p : Fin 5000) (q : Fin 64) (r : Fin 100000)
    (hr : r.val = 5000 * t.val + p.val) :
    (iblk4 V c 0 t : Vec Ideal S5000x64 .f32) (ix2 p q) = (V c main_v56_0 : S100000x64.Idx → Elt Ideal .f32) (ix2 r q) := by
  obtain ⟨e0, e1, -⟩ := idx_facts4 t
  unfold iblk4
  rw [View.read_apply]
  show V c main_v56_0 _ = V c main_v56_0 _
  congr 1
  funext a
  apply Fin.ext
  match a with
  | ⟨0, _⟩ => show win4_0.index t 0 * 5000 + 1 * p.val = r.val; rw [e0, hr]; omega
  | ⟨1, _⟩ => show win4_0.index t 1 * 64 + 1 * q.val = q.val; rw [e1]; omega

/-- The block of `agg` at point `t`, row `p`, feature `q`, is `agg` at row `5000 t + p`. -/
theorem iblk4_1_apply (c : Dev nD) (t : Fin cfg4.N) (p : Fin 5000) (q : Fin 64) (r : Fin 100000)
    (hr : r.val = 5000 * t.val + p.val) :
    (iblk4 V c 1 t : Vec Ideal S5000x64 .f32) (ix2 p q) = (V c main_v68 : S100000x64.Idx → Elt Ideal .f32) (ix2 r q) := by
  obtain ⟨-, -, e0, e1, -⟩ := idx_facts4 t
  unfold iblk4
  rw [View.read_apply]
  show V c main_v68 _ = V c main_v68 _
  congr 1
  funext a
  apply Fin.ext
  match a with
  | ⟨0, _⟩ => show win4_1.index t 0 * 5000 + 1 * p.val = r.val; rw [e0, hr]; omega
  | ⟨1, _⟩ => show win4_1.index t 1 * 64 + 1 * q.val = q.val; rw [e1]; omega

/-- The block of `dinv` at point `t`, row `p`, is `dinv` at row `5000 t + p`. -/
theorem iblk4_2_apply (c : Dev nD) (t : Fin cfg4.N) (p : Fin 5000) (r : Fin 100000)
    (hr : r.val = 5000 * t.val + p.val) :
    (iblk4 V c 2 t : Vec Ideal S5000x1 .f32) (ix2 p (0 : Fin 1))
      = (V c main_v12 : S100000x1.Idx → Elt Ideal .f32) (ix2 r (0 : Fin 1)) := by
  obtain ⟨-, -, -, -, e0, e1, -⟩ := idx_facts4 t
  unfold iblk4
  rw [View.read_apply]
  show V c main_v12 _ = V c main_v12 _
  congr 1
  funext a
  apply Fin.ext
  match a with
  | ⟨0, _⟩ => show win4_2.index t 0 * 5000 + 1 * p.val = r.val; rw [e0, hr]; omega
  | ⟨1, _⟩ => show win4_2.index t 1 * 1 + 1 * 0 = 0; rw [e1]

/-- The block of `acc` at point `t`, row `p`, feature `q`, is `acc` at row `5000 t + p`. -/
theorem iblk4_3_apply (c : Dev nD) (t : Fin cfg4.N) (p : Fin 5000) (q : Fin 64) (r : Fin 100000)
    (hr : r.val = 5000 * t.val + p.val) :
    (iblk4 V c 3 t : Vec Ideal S5000x64 .f32) (ix2 p q) = (V c main_v56_1 : S100000x64.Idx → Elt Ideal .f32) (ix2 r q) := by
  obtain ⟨-, -, -, -, -, -, e0, e1, -⟩ := idx_facts4 t
  unfold iblk4
  rw [View.read_apply]
  show V c main_v56_1 _ = V c main_v56_1 _
  congr 1
  funext a
  apply Fin.ext
  match a with
  | ⟨0, _⟩ => show win4_3.index t 0 * 5000 + 1 * p.val = r.val; rw [e0, hr]; omega
  | ⟨1, _⟩ => show win4_3.index t 1 * 64 + 1 * q.val = q.val; rw [e1]; omega

/-! ## Where an output block's element sits in its array -/

/-- Element `(p, q)` of the first output's block at point `t` is element `(5000 t + p, q)` of its array. -/
theorem emb4_4 (t : Fin cfg4.N) (p : Fin 5000) (q : Fin 64) (r : Fin 100000) (hr : r.val = 5000 * t.val + p.val) :
    ((cfg4.win 4).blk t).view.emb (ix2 p q) = (ix2 r q : S100000x64.Idx) := by
  obtain ⟨-, -, -, -, -, -, -, -, e0, e1, -⟩ := idx_facts4 t
  funext a
  apply Fin.ext
  match a with
  | ⟨0, _⟩ => show win4_4.index t 0 * 5000 + 1 * p.val = r.val; rw [e0, hr]; omega
  | ⟨1, _⟩ => show win4_4.index t 1 * 64 + 1 * q.val = q.val; rw [e1]; omega

/-- Element `(p, q)` of the second output's block at point `t` is element `(5000 t + p, q)` of its array. -/
theorem emb4_5 (t : Fin cfg4.N) (p : Fin 5000) (q : Fin 64) (r : Fin 100000) (hr : r.val = 5000 * t.val + p.val) :
    ((cfg4.win 5).blk t).view.emb (ix2 p q) = (ix2 r q : S100000x64.Idx) := by
  obtain ⟨-, -, -, -, -, -, -, -, -, -, e0, e1⟩ := idx_facts4 t
  funext a
  apply Fin.ext
  match a with
  | ⟨0, _⟩ => show win4_5.index t 0 * 5000 + 1 * p.val = r.val; rw [e0, hr]; omega
  | ⟨1, _⟩ => show win4_5.index t 1 * 64 + 1 * q.val = q.val; rw [e1]; omega

/-! ## What each point writes back -/

/-- Point `t` writes back, to the first output, block `t` of `lapF f agg dinv`. -/
theorem flushed4_4_eq (c : Dev nD) (t : Fin cfg4.N) :
    (dat4 V c).flushed 4 t
      = ((cfg4.win 4).blk t).view.read (Elt Ideal) (lapF (V c main_v56_0) (V c main_v68) (V c main_v12)) := by
  show (cfg4.win 4).cut (grid4.coords t) ((dat4 V c).after 4 t) = _
  rw [after4_4]
  unfold out4_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid4.N = 20 := N_4
  have ht : t.val < 20 := hN ▸ t.isLt
  have hr : 5000 * t.val + p.val < 100000 := by have := p.isLt; omega
  show k4_pay1 (iblk4 V c 2 t) (iblk4 V c 0 t) (iblk4 V c 1 t) (ix2 p q)
    = lapF (V c main_v56_0) (V c main_v68) (V c main_v12) (((cfg4.win 4).blk t).view.emb (ix2 p q))
  rw [emb4_4 t p q ⟨_, hr⟩ rfl]
  refine (congrFun (pay4_1 _ _ _) (ix2 p q)).trans ?_
  exact lapBlk_eq_lapF _ _ _ _ _ _ p q ⟨_, hr⟩ (iblk4_0_apply V c t p q _ rfl) (iblk4_1_apply V c t p q _ rfl)
    (iblk4_2_apply V c t p _ rfl)

/-- Point `t` writes back, to the second output, block `t` of `lapAcc t f agg dinv acc`. -/
theorem flushed4_5_eq (c : Dev nD) (t : Fin cfg4.N) :
    (dat4 V c).flushed 5 t
      = ((cfg4.win 5).blk t).view.read (Elt Ideal)
          (lapAcc 0xBFC00000#32 (V c main_v56_0) (V c main_v68) (V c main_v12) (V c main_v56_1)) := by
  show (cfg4.win 5).cut (grid4.coords t) ((dat4 V c).after 5 t) = _
  rw [after4_5]
  unfold out4_5
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid4.N = 20 := N_4
  have ht : t.val < 20 := hN ▸ t.isLt
  have hr : 5000 * t.val + p.val < 100000 := by have := p.isLt; omega
  show k4_pay2 (iblk4 V c 2 t) (iblk4 V c 0 t) (iblk4 V c 1 t) (iblk4 V c 3 t) (ix2 p q)
    = lapAcc 0xBFC00000#32 (V c main_v56_0) (V c main_v68) (V c main_v12) (V c main_v56_1) (((cfg4.win 5).blk t).view.emb (ix2 p q))
  rw [emb4_5 t p q ⟨_, hr⟩ rfl]
  refine (congrFun (pay4_2 _ _ _ _) (ix2 p q)).trans ?_
  exact lapAccBlk_eq_lapAcc _ _ _ _ _ _ _ _ _ p q ⟨_, hr⟩ (iblk4_0_apply V c t p q _ rfl) (iblk4_1_apply V c t p q _ rfl)
    (iblk4_2_apply V c t p _ rfl) (iblk4_3_apply V c t p q _ rfl)

/-! ## The blocks cover the arrays -/

/-- An index of the first output array is in point `t`'s block iff each coordinate is in the block's range. -/
theorem mem_blk4_4 (t : Fin cfg4.N) (i : S100000x64.Idx) :
    i ∈ ((cfg4.win 4).blk t).view.set ↔ ∀ a : Fin 2, win4_4.index t a * S5000x64.size a ≤ (i a).val
      ∧ (i a).val < win4_4.index t a * S5000x64.size a + S5000x64.size a := by
  show i ∈ ((View.whole main_v69_0).slice (win4_4.rect t)).set ↔ _
  rw [View.set_slice_whole, Rect.mem_set_unit]
  exact Iff.rfl

/-- An index of the second output array is in point `t`'s block iff each coordinate is in the block's range. -/
theorem mem_blk4_5 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v69_1).slice (win4_5.rect t)).set ↔ _
  rw [View.set_slice_whole, Rect.mem_set_unit]
  exact Iff.rfl

/-- Every index of the first output array is in the block of the point numbered by its row over 5000. -/
theorem cover4_4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  obtain ⟨hb, hlo, hhi⟩ := row_block (i 0).val hi0
  have hb' : (i 0).val / 5000 < cfg4.N := by rw [show cfg4.N = 20 from N_4]; exact hb
  refine ⟨⟨(i 0).val / 5000, hb'⟩, flush4_4 _, ?_⟩
  rw [mem_blk4_4]
  obtain ⟨-, -, -, -, -, -, -, -, e0, e1, -⟩ := idx_facts4 ⟨(i 0).val / 5000, hb'⟩
  intro a
  match a with
  | ⟨0, _⟩ =>
    show win4_4.index _ 0 * 5000 ≤ (i 0).val ∧ (i 0).val < win4_4.index _ 0 * 5000 + 5000
    rw [e0]; exact ⟨hlo, hhi⟩
  | ⟨1, _⟩ =>
    show win4_4.index _ 1 * 64 ≤ (i 1).val ∧ (i 1).val < win4_4.index _ 1 * 64 + 64
    rw [e1]; omega

/-- Every index of the second output array is in the block of the point numbered by its row over 5000. -/
theorem cover4_5 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨hb, hlo, hhi⟩ := row_block (i 0).val hi0
  have hb' : (i 0).val / 5000 < cfg4.N := by rw [show cfg4.N = 20 from N_4]; exact hb
  refine ⟨⟨(i 0).val / 5000, hb'⟩, flush4_5 _, ?_⟩
  rw [mem_blk4_5]
  obtain ⟨-, -, -, -, -, -, -, -, -, -, e0, e1⟩ := idx_facts4 ⟨(i 0).val / 5000, hb'⟩
  intro a
  match a with
  | ⟨0, _⟩ =>
    show win4_5.index _ 0 * 5000 ≤ (i 0).val ∧ (i 0).val < win4_5.index _ 0 * 5000 + 5000
    rw [e0]; exact ⟨hlo, hhi⟩
  | ⟨1, _⟩ =>
    show win4_5.index _ 1 * 64 ≤ (i 1).val ∧ (i 1).val < win4_5.index _ 1 * 64 + 64
    rw [e1]; omega

/-! ## The two output arrays after the run -/

/-- After the region's run the first output array is `f - agg * dinv` of the arrays the region found. -/
theorem final4_4 (c : Dev nD) :
    (dat4 (F := Ideal) V c).arrAt 4 cfg4.N = lapF (V c main_v56_0) (V c main_v68) (V c main_v12) :=
  (dat4 V c).arrAt_eq_of_cover 4 (lapF (V c main_v56_0) (V c main_v68) (V c main_v12))
    (fun t _ => flushed4_4_eq V c t) cover4_4

/-- After the region's run the second output array is `acc + t * (f - agg * dinv)` of the arrays the region found. -/
theorem final4_5 (c : Dev nD) :
    (dat4 (F := Ideal) V c).arrAt 5 cfg4.N
      = lapAcc 0xBFC00000#32 (V c main_v56_0) (V c main_v68) (V c main_v12) (V c main_v56_1) :=
  (dat4 V c).arrAt_eq_of_cover 5 (lapAcc 0xBFC00000#32 (V c main_v56_0) (V c main_v68) (V c main_v12) (V c main_v56_1))
    (fun t _ => flushed4_5_eq V c t) cover4_5

end Cert.KernelIdeal.RegionValue

end
-- ==== Proof.KI.ValLap5.lean ====
import proofs.«107957_j86157043957975_1_alg».proof.Proof.KI.Reg5
import proofs.«107957_j86157043957975_1_alg».proof.Proof.KI.LapSpec
import Idealize.ShloMosaic.Lib.Pipeline.Value
import Idealize.ShloMosaic.Lib.ValueIdx

/-!
# Region 5: the two output arrays of the Laplacian step, as functions of the arrays it finds

The region runs over 20 grid points; point `t` reads rows `5000 t … 5000 t + 4999` of the feature array `f`, of
the aggregate `agg`, of the degree column `dinv` and of the accumulator `acc`, and writes the same rows of its two
outputs. Here: the body's two payloads are the block forms `lapBlk` and `lapAccBlk`; each window's block at
point `t`, read at row `p`, is its array at row `5000 t + p`; so what point `t` writes back is block `t` of
`lapF f agg dinv`, and of `lapAcc t f agg dinv acc`; the 20 blocks cover the 100000 rows (row `r` is in block
`r / 5000`); hence after the run the first output array is `lapF f agg dinv` and the second is
`lapAcc t f agg dinv acc`, whatever the arrays held at the region's entry.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads -/

/-- The first payload is `f - agg * dinv` on the loaded blocks (its shape casts are to the same shape). -/
theorem pay5_1 (dB : Vec Ideal S5000x1 .f32) (fB aggB : Vec Ideal S5000x64 .f32) :
    k5_pay1 dB fB aggB = lapBlk dB fB aggB := by
  unfold k5_pay1 lapBlk
  simp only [shapeCast_self]

/-- The second payload is `acc + t * (f - agg * dinv)` on the loaded blocks, at this region's scalar. -/
theorem pay5_2 (dB : Vec Ideal S5000x1 .f32) (fB aggB accB : Vec Ideal S5000x64 .f32) :
    k5_pay2 dB fB aggB accB = lapAccBlk 0x00000000#32 dB fB aggB accB := by
  unfold k5_pay2 lapAccBlk
  simp only [shapeCast_self, pay5_1]

/-! ## The index maps: every window's block at point `t` is block `(t, 0)` -/

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-! ## Each input block, read at a row, is its array at that row of the array -/

/-- The block of `f` at point `t`, row `p`, feature `q`, is `f` at row `5000 t + p`. -/
theorem iblk5_0_apply (c : Dev nD) (t : Fin cfg5.N) (p : Fin 5000) (q : Fin 64) (r : Fin 100000)
    (hr : r.val = 5000 * t.val + p.val) :
    (iblk5 V c 0 t : Vec Ideal S5000x64 .f32) (ix2 p q) = (V c main_v13 : S100000x64.Idx → Elt Ideal .f32) (ix2 r q) := by
  obtain ⟨e0, e1, -⟩ := idx_facts5 t
  unfold iblk5
  rw [View.read_apply]
  show V c main_v13 _ = V c main_v13 _
  congr 1
  funext a
  apply Fin.ext
  match a with
  | ⟨0, _⟩ => show win5_0.index t 0 * 5000 + 1 * p.val = r.val; rw [e0, hr]; omega
  | ⟨1, _⟩ => show win5_0.index t 1 * 64 + 1 * q.val = q.val; rw [e1]; omega

/-- The block of `agg` at point `t`, row `p`, feature `q`, is `agg` at row `5000 t + p`. -/
theorem iblk5_1_apply (c : Dev nD) (t : Fin cfg5.N) (p : Fin 5000) (q : Fin 64) (r : Fin 100000)
    (hr : r.val = 5000 * t.val + p.val) :
    (iblk5 V c 1 t : Vec Ideal S5000x64 .f32) (ix2 p q) = (V c main_v83 : S100000x64.Idx → Elt Ideal .f32) (ix2 r q) := by
  obtain ⟨-, -, e0, e1, -⟩ := idx_facts5 t
  unfold iblk5
  rw [View.read_apply]
  show V c main_v83 _ = V c main_v83 _
  congr 1
  funext a
  apply Fin.ext
  match a with
  | ⟨0, _⟩ => show win5_1.index t 0 * 5000 + 1 * p.val = r.val; rw [e0, hr]; omega
  | ⟨1, _⟩ => show win5_1.index t 1 * 64 + 1 * q.val = q.val; rw [e1]; omega

/-- The block of `dinv` at point `t`, row `p`, is `dinv` at row `5000 t + p`. -/
theorem iblk5_2_apply (c : Dev nD) (t : Fin cfg5.N) (p : Fin 5000) (r : Fin 100000)
    (hr : r.val = 5000 * t.val + p.val) :
    (iblk5 V c 2 t : Vec Ideal S5000x1 .f32) (ix2 p (0 : Fin 1))
      = (V c main_v12 : S100000x1.Idx → Elt Ideal .f32) (ix2 r (0 : Fin 1)) := by
  obtain ⟨-, -, -, -, e0, e1, -⟩ := idx_facts5 t
  unfold iblk5
  rw [View.read_apply]
  show V c main_v12 _ = V c main_v12 _
  congr 1
  funext a
  apply Fin.ext
  match a with
  | ⟨0, _⟩ => show win5_2.index t 0 * 5000 + 1 * p.val = r.val; rw [e0, hr]; omega
  | ⟨1, _⟩ => show win5_2.index t 1 * 1 + 1 * 0 = 0; rw [e1]

/-- The block of `acc` at point `t`, row `p`, feature `q`, is `acc` at row `5000 t + p`. -/
theorem iblk5_3_apply (c : Dev nD) (t : Fin cfg5.N) (p : Fin 5000) (q : Fin 64) (r : Fin 100000)
    (hr : r.val = 5000 * t.val + p.val) :
    (iblk5 V c 3 t : Vec Ideal S5000x64 .f32) (ix2 p q) = (V c main_v71 : S100000x64.Idx → Elt Ideal .f32) (ix2 r q) := by
  obtain ⟨-, -, -, -, -, -, e0, e1, -⟩ := idx_facts5 t
  unfold iblk5
  rw [View.read_apply]
  show V c main_v71 _ = V c main_v71 _
  congr 1
  funext a
  apply Fin.ext
  match a with
  | ⟨0, _⟩ => show win5_3.index t 0 * 5000 + 1 * p.val = r.val; rw [e0, hr]; omega
  | ⟨1, _⟩ => show win5_3.index t 1 * 64 + 1 * q.val = q.val; rw [e1]; omega

/-! ## Where an output block's element sits in its array -/

/-- Element `(p, q)` of the first output's block at point `t` is element `(5000 t + p, q)` of its array. -/
theorem emb5_4 (t : Fin cfg5.N) (p : Fin 5000) (q : Fin 64) (r : Fin 100000) (hr : r.val = 5000 * t.val + p.val) :
    ((cfg5.win 4).blk t).view.emb (ix2 p q) = (ix2 r q : S100000x64.Idx) := by
  obtain ⟨-, -, -, -, -, -, -, -, e0, e1, -⟩ := idx_facts5 t
  funext a
  apply Fin.ext
  match a with
  | ⟨0, _⟩ => show win5_4.index t 0 * 5000 + 1 * p.val = r.val; rw [e0, hr]; omega
  | ⟨1, _⟩ => show win5_4.index t 1 * 64 + 1 * q.val = q.val; rw [e1]; omega

/-- Element `(p, q)` of the second output's block at point `t` is element `(5000 t + p, q)` of its array. -/
theorem emb5_5 (t : Fin cfg5.N) (p : Fin 5000) (q : Fin 64) (r : Fin 100000) (hr : r.val = 5000 * t.val + p.val) :
    ((cfg5.win 5).blk t).view.emb (ix2 p q) = (ix2 r q : S100000x64.Idx) := by
  obtain ⟨-, -, -, -, -, -, -, -, -, -, e0, e1⟩ := idx_facts5 t
  funext a
  apply Fin.ext
  match a with
  | ⟨0, _⟩ => show win5_5.index t 0 * 5000 + 1 * p.val = r.val; rw [e0, hr]; omega
  | ⟨1, _⟩ => show win5_5.index t 1 * 64 + 1 * q.val = q.val; rw [e1]; omega

/-! ## What each point writes back -/

/-- Point `t` writes back, to the first output, block `t` of `lapF f agg dinv`. -/
theorem flushed5_4_eq (c : Dev nD) (t : Fin cfg5.N) :
    (dat5 V c).flushed 4 t
      = ((cfg5.win 4).blk t).view.read (Elt Ideal) (lapF (V c main_v13) (V c main_v83) (V c main_v12)) := by
  show (cfg5.win 4).cut (grid5.coords t) ((dat5 V c).after 4 t) = _
  rw [after5_4]
  unfold out5_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid5.N = 20 := N_5
  have ht : t.val < 20 := hN ▸ t.isLt
  have hr : 5000 * t.val + p.val < 100000 := by have := p.isLt; omega
  show k5_pay1 (iblk5 V c 2 t) (iblk5 V c 0 t) (iblk5 V c 1 t) (ix2 p q)
    = lapF (V c main_v13) (V c main_v83) (V c main_v12) (((cfg5.win 4).blk t).view.emb (ix2 p q))
  rw [emb5_4 t p q ⟨_, hr⟩ rfl]
  refine (congrFun (pay5_1 _ _ _) (ix2 p q)).trans ?_
  exact lapBlk_eq_lapF _ _ _ _ _ _ p q ⟨_, hr⟩ (iblk5_0_apply V c t p q _ rfl) (iblk5_1_apply V c t p q _ rfl)
    (iblk5_2_apply V c t p _ rfl)

/-- Point `t` writes back, to the second output, block `t` of `lapAcc t f agg dinv acc`. -/
theorem flushed5_5_eq (c : Dev nD) (t : Fin cfg5.N) :
    (dat5 V c).flushed 5 t
      = ((cfg5.win 5).blk t).view.read (Elt Ideal)
          (lapAcc 0x00000000#32 (V c main_v13) (V c main_v83) (V c main_v12) (V c main_v71)) := by
  show (cfg5.win 5).cut (grid5.coords t) ((dat5 V c).after 5 t) = _
  rw [after5_5]
  unfold out5_5
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid5.N = 20 := N_5
  have ht : t.val < 20 := hN ▸ t.isLt
  have hr : 5000 * t.val + p.val < 100000 := by have := p.isLt; omega
  show k5_pay2 (iblk5 V c 2 t) (iblk5 V c 0 t) (iblk5 V c 1 t) (iblk5 V c 3 t) (ix2 p q)
    = lapAcc 0x00000000#32 (V c main_v13) (V c main_v83) (V c main_v12) (V c main_v71) (((cfg5.win 5).blk t).view.emb (ix2 p q))
  rw [emb5_5 t p q ⟨_, hr⟩ rfl]
  refine (congrFun (pay5_2 _ _ _ _) (ix2 p q)).trans ?_
  exact lapAccBlk_eq_lapAcc _ _ _ _ _ _ _ _ _ p q ⟨_, hr⟩ (iblk5_0_apply V c t p q _ rfl) (iblk5_1_apply V c t p q _ rfl)
    (iblk5_2_apply V c t p _ rfl) (iblk5_3_apply V c t p q _ rfl)

/-! ## The blocks cover the arrays -/

/-- An index of the first output array is in point `t`'s block iff each coordinate is in the block's range. -/
theorem mem_blk5_4 (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v84_0).slice (win5_4.rect t)).set ↔ _
  rw [View.set_slice_whole, Rect.mem_set_unit]
  exact Iff.rfl

/-- An index of the second output array is in point `t`'s block iff each coordinate is in the block's range. -/
theorem mem_blk5_5 (t : Fin cfg5.N) (i : S100000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v84_1).slice (win5_5.rect t)).set ↔ _
  rw [View.set_slice_whole, Rect.mem_set_unit]
  exact Iff.rfl

/-- Every index of the first output array is in the block of the point numbered by its row over 5000. -/
theorem cover5_4 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨hb, hlo, hhi⟩ := row_block (i 0).val hi0
  have hb' : (i 0).val / 5000 < cfg5.N := by rw [show cfg5.N = 20 from N_5]; exact hb
  refine ⟨⟨(i 0).val / 5000, hb'⟩, flush5_4 _, ?_⟩
  rw [mem_blk5_4]
  obtain ⟨-, -, -, -, -, -, -, -, e0, e1, -⟩ := idx_facts5 ⟨(i 0).val / 5000, hb'⟩
  intro a
  match a with
  | ⟨0, _⟩ =>
    show win5_4.index _ 0 * 5000 ≤ (i 0).val ∧ (i 0).val < win5_4.index _ 0 * 5000 + 5000
    rw [e0]; exact ⟨hlo, hhi⟩
  | ⟨1, _⟩ =>
    show win5_4.index _ 1 * 64 ≤ (i 1).val ∧ (i 1).val < win5_4.index _ 1 * 64 + 64
    rw [e1]; omega

/-- Every index of the second output array is in the block of the point numbered by its row over 5000. -/
theorem cover5_5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨hb, hlo, hhi⟩ := row_block (i 0).val hi0
  have hb' : (i 0).val / 5000 < cfg5.N := by rw [show cfg5.N = 20 from N_5]; exact hb
  refine ⟨⟨(i 0).val / 5000, hb'⟩, flush5_5 _, ?_⟩
  rw [mem_blk5_5]
  obtain ⟨-, -, -, -, -, -, -, -, -, -, e0, e1⟩ := idx_facts5 ⟨(i 0).val / 5000, hb'⟩
  intro a
  match a with
  | ⟨0, _⟩ =>
    show win5_5.index _ 0 * 5000 ≤ (i 0).val ∧ (i 0).val < win5_5.index _ 0 * 5000 + 5000
    rw [e0]; exact ⟨hlo, hhi⟩
  | ⟨1, _⟩ =>
    show win5_5.index _ 1 * 64 ≤ (i 1).val ∧ (i 1).val < win5_5.index _ 1 * 64 + 64
    rw [e1]; omega

/-! ## The two output arrays after the run -/

/-- After the region's run the first output array is `f - agg * dinv` of the arrays the region found. -/
theorem final5_4 (c : Dev nD) :
    (dat5 (F := Ideal) V c).arrAt 4 cfg5.N = lapF (V c main_v13) (V c main_v83) (V c main_v12) :=
  (dat5 V c).arrAt_eq_of_cover 4 (lapF (V c main_v13) (V c main_v83) (V c main_v12))
    (fun t _ => flushed5_4_eq V c t) cover5_4

/-- After the region's run the second output array is `acc + t * (f - agg * dinv)` of the arrays the region found. -/
theorem final5_5 (c : Dev nD) :
    (dat5 (F := Ideal) V c).arrAt 5 cfg5.N
      = lapAcc 0x00000000#32 (V c main_v13) (V c main_v83) (V c main_v12) (V c main_v71) :=
  (dat5 V c).arrAt_eq_of_cover 5 (lapAcc 0x00000000#32 (V c main_v13) (V c main_v83) (V c main_v12) (V c main_v71))
    (fun t _ => flushed5_5_eq V c t) cover5_5

end Cert.KernelIdeal.RegionValue

end
-- ==== Proof.KI.ValLap6.lean ====
import proofs.«107957_j86157043957975_1_alg».proof.Proof.KI.Reg6
import proofs.«107957_j86157043957975_1_alg».proof.Proof.KI.LapSpec
import Idealize.ShloMosaic.Lib.Pipeline.Value
import Idealize.ShloMosaic.Lib.ValueIdx

/-!
# Region 6: the two output arrays of the Laplacian step, as functions of the arrays it finds

The region runs over 20 grid points; point `t` reads rows `5000 t … 5000 t + 4999` of the feature array `f`, of
the aggregate `agg`, of the degree column `dinv` and of the accumulator `acc`, and writes the same rows of its two
outputs. Here: the body's two payloads are the block forms `lapBlk` and `lapAccBlk`; each window's block at
point `t`, read at row `p`, is its array at row `5000 t + p`; so what point `t` writes back is block `t` of
`lapF f agg dinv`, and of `lapAcc t f agg dinv acc`; the 20 blocks cover the 100000 rows (row `r` is in block
`r / 5000`); hence after the run the first output array is `lapF f agg dinv` and the second is
`lapAcc t f agg dinv acc`, whatever the arrays held at the region's entry.
-/

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The payloads -/

/-- The first payload is `f - agg * dinv` on the loaded blocks (its shape casts are to the same shape). -/
theorem pay6_1 (dB : Vec Ideal S5000x1 .f32) (fB aggB : Vec Ideal S5000x64 .f32) :
    k6_pay1 dB fB aggB = lapBlk dB fB aggB := by
  unfold k6_pay1 lapBlk
  simp only [shapeCast_self]

/-- The second payload is `acc + t * (f - agg * dinv)` on the loaded blocks, at this region's scalar. -/
theorem pay6_2 (dB : Vec Ideal S5000x1 .f32) (fB aggB accB : Vec Ideal S5000x64 .f32) :
    k6_pay2 dB fB aggB accB = lapAccBlk 0x3F400000#32 dB fB aggB accB := by
  unfold k6_pay2 lapAccBlk
  simp only [shapeCast_self, pay6_1]

/-! ## The index maps: every window's block at point `t` is block `(t, 0)` -/

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-! ## Each input block, read at a row, is its array at that row of the array -/

/-- The block of `f` at point `t`, row `p`, feature `q`, is `f` at row `5000 t + p`. -/
theorem iblk6_0_apply (c : Dev nD) (t : Fin cfg6.N) (p : Fin 5000) (q : Fin 64) (r : Fin 100000)
    (hr : r.val = 5000 * t.val + p.val) :
    (iblk6 V c 0 t : Vec Ideal S5000x64 .f32) (ix2 p q) = (V c main_v84_0 : S100000x64.Idx → Elt Ideal .f32) (ix2 r q) := by
  obtain ⟨e0, e1, -⟩ := idx_facts6 t
  unfold iblk6
  rw [View.read_apply]
  show V c main_v84_0 _ = V c main_v84_0 _
  congr 1
  funext a
  apply Fin.ext
  match a with
  | ⟨0, _⟩ => show win6_0.index t 0 * 5000 + 1 * p.val = r.val; rw [e0, hr]; omega
  | ⟨1, _⟩ => show win6_0.index t 1 * 64 + 1 * q.val = q.val; rw [e1]; omega

/-- The block of `agg` at point `t`, row `p`, feature `q`, is `agg` at row `5000 t + p`. -/
theorem iblk6_1_apply (c : Dev nD) (t : Fin cfg6.N) (p : Fin 5000) (q : Fin 64) (r : Fin 100000)
    (hr : r.val = 5000 * t.val + p.val) :
    (iblk6 V c 1 t : Vec Ideal S5000x64 .f32) (ix2 p q) = (V c main_v96 : S100000x64.Idx → Elt Ideal .f32) (ix2 r q) := by
  obtain ⟨-, -, e0, e1, -⟩ := idx_facts6 t
  unfold iblk6
  rw [View.read_apply]
  show V c main_v96 _ = V c main_v96 _
  congr 1
  funext a
  apply Fin.ext
  match a with
  | ⟨0, _⟩ => show win6_1.index t 0 * 5000 + 1 * p.val = r.val; rw [e0, hr]; omega
  | ⟨1, _⟩ => show win6_1.index t 1 * 64 + 1 * q.val = q.val; rw [e1]; omega

/-- The block of `dinv` at point `t`, row `p`, is `dinv` at row `5000 t + p`. -/
theorem iblk6_2_apply (c : Dev nD) (t : Fin cfg6.N) (p : Fin 5000) (r : Fin 100000)
    (hr : r.val = 5000 * t.val + p.val) :
    (iblk6 V c 2 t : Vec Ideal S5000x1 .f32) (ix2 p (0 : Fin 1))
      = (V c main_v12 : S100000x1.Idx → Elt Ideal .f32) (ix2 r (0 : Fin 1)) := by
  obtain ⟨-, -, -, -, e0, e1, -⟩ := idx_facts6 t
  unfold iblk6
  rw [View.read_apply]
  show V c main_v12 _ = V c main_v12 _
  congr 1
  funext a
  apply Fin.ext
  match a with
  | ⟨0, _⟩ => show win6_2.index t 0 * 5000 + 1 * p.val = r.val; rw [e0, hr]; omega
  | ⟨1, _⟩ => show win6_2.index t 1 * 1 + 1 * 0 = 0; rw [e1]

/-- The block of `acc` at point `t`, row `p`, feature `q`, is `acc` at row `5000 t + p`. -/
theorem iblk6_3_apply (c : Dev nD) (t : Fin cfg6.N) (p : Fin 5000) (q : Fin 64) (r : Fin 100000)
    (hr : r.val = 5000 * t.val + p.val) :
    (iblk6 V c 3 t : Vec Ideal S5000x64 .f32) (ix2 p q) = (V c main_v84_1 : S100000x64.Idx → Elt Ideal .f32) (ix2 r q) := by
  obtain ⟨-, -, -, -, -, -, e0, e1, -⟩ := idx_facts6 t
  unfold iblk6
  rw [View.read_apply]
  show V c main_v84_1 _ = V c main_v84_1 _
  congr 1
  funext a
  apply Fin.ext
  match a with
  | ⟨0, _⟩ => show win6_3.index t 0 * 5000 + 1 * p.val = r.val; rw [e0, hr]; omega
  | ⟨1, _⟩ => show win6_3.index t 1 * 64 + 1 * q.val = q.val; rw [e1]; omega

/-! ## Where an output block's element sits in its array -/

/-- Element `(p, q)` of the first output's block at point `t` is element `(5000 t + p, q)` of its array. -/
theorem emb6_4 (t : Fin cfg6.N) (p : Fin 5000) (q : Fin 64) (r : Fin 100000) (hr : r.val = 5000 * t.val + p.val) :
    ((cfg6.win 4).blk t).view.emb (ix2 p q) = (ix2 r q : S100000x64.Idx) := by
  obtain ⟨-, -, -, -, -, -, -, -, e0, e1, -⟩ := idx_facts6 t
  funext a
  apply Fin.ext
  match a with
  | ⟨0, _⟩ => show win6_4.index t 0 * 5000 + 1 * p.val = r.val; rw [e0, hr]; omega
  | ⟨1, _⟩ => show win6_4.index t 1 * 64 + 1 * q.val = q.val; rw [e1]; omega

/-- Element `(p, q)` of the second output's block at point `t` is element `(5000 t + p, q)` of its array. -/
theorem emb6_5 (t : Fin cfg6.N) (p : Fin 5000) (q : Fin 64) (r : Fin 100000) (hr : r.val = 5000 * t.val + p.val) :
    ((cfg6.win 5).blk t).view.emb (ix2 p q) = (ix2 r q : S100000x64.Idx) := by
  obtain ⟨-, -, -, -, -, -, -, -, -, -, e0, e1⟩ := idx_facts6 t
  funext a
  apply Fin.ext
  match a with
  | ⟨0, _⟩ => show win6_5.index t 0 * 5000 + 1 * p.val = r.val; rw [e0, hr]; omega
  | ⟨1, _⟩ => show win6_5.index t 1 * 64 + 1 * q.val = q.val; rw [e1]; omega

/-! ## What each point writes back -/

/-- Point `t` writes back, to the first output, block `t` of `lapF f agg dinv`. -/
theorem flushed6_4_eq (c : Dev nD) (t : Fin cfg6.N) :
    (dat6 V c).flushed 4 t
      = ((cfg6.win 4).blk t).view.read (Elt Ideal) (lapF (V c main_v84_0) (V c main_v96) (V c main_v12)) := by
  show (cfg6.win 4).cut (grid6.coords t) ((dat6 V c).after 4 t) = _
  rw [after6_4]
  unfold out6_4
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid6.N = 20 := N_6
  have ht : t.val < 20 := hN ▸ t.isLt
  have hr : 5000 * t.val + p.val < 100000 := by have := p.isLt; omega
  show k6_pay1 (iblk6 V c 2 t) (iblk6 V c 0 t) (iblk6 V c 1 t) (ix2 p q)
    = lapF (V c main_v84_0) (V c main_v96) (V c main_v12) (((cfg6.win 4).blk t).view.emb (ix2 p q))
  rw [emb6_4 t p q ⟨_, hr⟩ rfl]
  refine (congrFun (pay6_1 _ _ _) (ix2 p q)).trans ?_
  exact lapBlk_eq_lapF _ _ _ _ _ _ p q ⟨_, hr⟩ (iblk6_0_apply V c t p q _ rfl) (iblk6_1_apply V c t p q _ rfl)
    (iblk6_2_apply V c t p _ rfl)

/-- Point `t` writes back, to the second output, block `t` of `lapAcc t f agg dinv acc`. -/
theorem flushed6_5_eq (c : Dev nD) (t : Fin cfg6.N) :
    (dat6 V c).flushed 5 t
      = ((cfg6.win 5).blk t).view.read (Elt Ideal)
          (lapAcc 0x3F400000#32 (V c main_v84_0) (V c main_v96) (V c main_v12) (V c main_v84_1)) := by
  show (cfg6.win 5).cut (grid6.coords t) ((dat6 V c).after 5 t) = _
  rw [after6_5]
  unfold out6_5
  rw [View.canon_unit_zero hz]
  simp only [View.ld_unit_zero (S := S5000x64) hz, View.ld_unit_zero (S := S5000x1) hz]
  funext j
  obtain ⟨p, q, rfl⟩ : ∃ (p : Fin 5000) (q : Fin 64), j = ix2 p q := ⟨j 0, j 1, eq_ix2 j⟩
  have hN : grid6.N = 20 := N_6
  have ht : t.val < 20 := hN ▸ t.isLt
  have hr : 5000 * t.val + p.val < 100000 := by have := p.isLt; omega
  show k6_pay2 (iblk6 V c 2 t) (iblk6 V c 0 t) (iblk6 V c 1 t) (iblk6 V c 3 t) (ix2 p q)
    = lapAcc 0x3F400000#32 (V c main_v84_0) (V c main_v96) (V c main_v12) (V c main_v84_1) (((cfg6.win 5).blk t).view.emb (ix2 p q))
  rw [emb6_5 t p q ⟨_, hr⟩ rfl]
  refine (congrFun (pay6_2 _ _ _ _) (ix2 p q)).trans ?_
  exact lapAccBlk_eq_lapAcc _ _ _ _ _ _ _ _ _ p q ⟨_, hr⟩ (iblk6_0_apply V c t p q _ rfl) (iblk6_1_apply V c t p q _ rfl)
    (iblk6_2_apply V c t p _ rfl) (iblk6_3_apply V c t p q _ rfl)

/-! ## The blocks cover the arrays -/

/-- An index of the first output array is in point `t`'s block iff each coordinate is in the block's range. -/
theorem mem_blk6_4 (t : Fin cfg6.N) (i : S100000x64.Idx) :
    i ∈ ((cfg6.win 4).blk t).view.set ↔ ∀ a : Fin 2, win6_4.index t a * S5000x64.size a ≤ (i a).val
      ∧ (i a).val < win6_4.index t a * S5000x64.size a + S5000x64.size a := by
  show i ∈ ((View.whole main_v97_0).slice (win6_4.rect t)).set ↔ _
  rw [View.set_slice_whole, Rect.mem_set_unit]
  exact Iff.rfl

/-- An index of the second output array is in point `t`'s block iff each coordinate is in the block's range. -/
theorem mem_blk6_5 (t : Fin cfg6.N) (i : S100000x64.Idx) :
    i ∈ ((cfg6.win 5).blk t).view.set ↔ ∀ a : Fin 2, win6_5.index t a * S5000x64.size a ≤ (i a).val
      ∧ (i a).val < win6_5.index t a * S5000x64.size a + S5000x64.size a := by
  show i ∈ ((View.whole main_v97_1).slice (win6_5.rect t)).set ↔ _
  rw [View.set_slice_whole, Rect.mem_set_unit]
  exact Iff.rfl

/-- Every index of the first output array is in the block of the point numbered by its row over 5000. -/
theorem cover6_4 (i : S100000x64.Idx) :
    ∃ t : Fin cfg6.N, (cfg6.win 4).flush t = true ∧ i ∈ ((cfg6.win 4).blk t).view.set := by
  have hi0 : (i 0).val < 100000 := (i 0).isLt
  have hi1 : (i 1).val < 64 := (i 1).isLt
  obtain ⟨hb, hlo, hhi⟩ := row_block (i 0).val hi0
  have hb' : (i 0).val / 5000 < cfg6.N := by rw [show cfg6.N = 20 from N_6]; exact hb
  refine ⟨⟨(i 0).val / 5000, hb'⟩, flush6_4 _, ?_⟩
  rw [mem_blk6_4]
  obtain ⟨-, -, -, -, -, -, -, -, e0, e1, -⟩ := idx_facts6 ⟨(i 0).val / 5000, hb'⟩
  intro a
  match a with
  | ⟨0, _⟩ =>
    show win6_4.index _ 0 * 5000 ≤ (i 0).val ∧ (i 0).val < win6_4.index _ 0 * 5000 + 5000
    rw [e0]; exact ⟨hlo, hhi⟩
  | ⟨1, _⟩ =>
    show win6_4.index _ 1 * 64 ≤ (i 1).val ∧ (i 1).val < win6_4.index _ 1 * 64 + 64
    rw [e1]; omega

/-- Every index of the second output array is in the block of the point numbered by its row over 5000. -/
theorem cover6_5 (i : S100000x64.Idx) :
    ∃ t : Fin cfg6.N, (cfg6.win 5).flush t = true ∧ i ∈ ((cfg6.win 5).blk t).view.set := by
  have hi0 : (i 0).val < 100000 := (i 0).isLt
  have hi1 : (i 1).val < 64 := (i 1).isLt
  obtain ⟨hb, hlo, hhi⟩ := row_block (i 0).val hi0
  have hb' : (i 0).val / 5000 < cfg6.N := by rw [show cfg6.N = 20 from N_6]; exact hb
  refine ⟨⟨(i 0).val / 5000, hb'⟩, flush6_5 _, ?_⟩
  rw [mem_blk6_5]
  obtain ⟨-, -, -, -, -, -, -, -, -, -, e0, e1⟩ := idx_facts6 ⟨(i 0).val / 5000, hb'⟩
  intro a
  match a with
  | ⟨0, _⟩ =>
    show win6_5.index _ 0 * 5000 ≤ (i 0).val ∧ (i 0).val < win6_5.index _ 0 * 5000 + 5000
    rw [e0]; exact ⟨hlo, hhi⟩
  | ⟨1, _⟩ =>
    show win6_5.index _ 1 * 64 ≤ (i 1).val ∧ (i 1).val < win6_5.index _ 1 * 64 + 64
    rw [e1]; omega

/-! ## The two output arrays after the run -/

/-- After the region's run the first output array is `f - agg * dinv` of the arrays the region found. -/
theorem final6_4 (c : Dev nD) :
    (dat6 (F := Ideal) V c).arrAt 4 cfg6.N = lapF (V c main_v84_0) (V c main_v96) (V c main_v12) :=
  (dat6 V c).arrAt_eq_of_cover 4 (lapF (V c main_v84_0) (V c main_v96) (V c main_v12))
    (fun t _ => flushed6_4_eq V c t) cover6_4

/-- After the region's run the second output array is `acc + t * (f - agg * dinv)` of the arrays the region found. -/
theorem final6_5 (c : Dev nD) :
    (dat6 (F := Ideal) V c).arrAt 5 cfg6.N
      = lapAcc 0x3F400000#32 (V c main_v84_0) (V c main_v96) (V c main_v12) (V c main_v84_1) :=
  (dat6 V c).arrAt_eq_of_cover 5 (lapAcc 0x3F400000#32 (V c main_v84_0) (V c main_v96) (V c main_v12) (V c main_v84_1))
    (fun t _ => flushed6_5_eq V c t) cover6_5

end Cert.KernelIdeal.RegionValue

end
-- ==== Proof.KI.ValMlpA.lean ====
import proofs.«107957_j86157043957975_1_alg».proof.Proof.KI.Reg0
import proofs.«107957_j86157043957975_1_alg».proof.Proof.KI.MlpSpec
import Idealize.ShloMosaic.Lib.Pipeline.Value

/-!
# The first head's region: its output array after the run

The region walks twenty blocks of 5000 rows. At block t the body finds rows 5000·t … 5000·t + 4999 of the input and the
whole weights and biases, and stores the first head of those rows; that block is written back to the same rows of the
output array. So each written block is a block of ONE whole-array function, the first head of the arrays the region found
(mlpA), and the twenty blocks cover the array: after the run the output array is that function.
-/

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows sit at block t, the weights and biases at block 0. -/
theorem mlpA_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- On a block whose row p is row r of the array and whose weights are the whole weights, what the body stores at (p, q) is the
    whole-array head at (r, q). -/
theorem mlpA_block (xB : Vec Ideal S5000x64 .f32) (w1B : Vec Ideal S64x64 .f32) (b1B : Vec Ideal S64 .f32)
    (w2B : Vec Ideal S64x64 .f32) (b2B : Vec Ideal S64 .f32)
    (x : FVec Ideal S100000x64 .f32) (W1 : FVec Ideal S64x64 .f32) (b1 : FVec Ideal S64 .f32)
    (W2 : FVec Ideal S64x64 .f32) (b2 : FVec Ideal S64 .f32) (p : Fin 5000) (q : Fin 64) (r : Fin 100000)
    (hx : ∀ k : Fin 64, xB (ix2 p k) = x (ix2 r k)) (h1 : w1B = W1) (h2 : b1B = b1) (h3 : w2B = W2) (h4 : b2B = b2) :
    k0_pay1 (F := Ideal) xB w1B b1B w2B b2B (ix2 p q) = mlpA x W1 b1 W2 b2 (ix2 r q) := by
  subst h1 h2 h3 h4
  rw [mlpA_pay_apply, mlpA_apply]
  exact congrArg (fun row => headA row w1B b1B w2B b2B q) (funext hx)

/-- WHAT POINT t WRITES BACK is block t of the first head of the arrays the region found. -/
theorem mlpA_flushed (c : Dev nD) (t : Fin cfg0.N) :
    (dat0 V c).flushed 5 t = ((cfg0.win 5).blk t).view.read (Elt Ideal)
      (mlpA (V c main_arg0) (V c main_arg3) (V c main_arg4) (V c main_arg5) (V c main_arg6)) := by
  show (cfg0.win 5).cut (grid0.coords t) ((dat0 V c).after 5 t) = _
  rw [after0_5]
  unfold out0_5
  rw [View.canon_unit_zero mlp_off2]
  simp only [View.ld_unit_zero (S := S5000x64) mlp_off2, View.ld_unit_zero (S := S64x64) mlp_off2, View.ld_unit_zero (S := S64) mlp_off1]
  obtain ⟨e0, e1, e2, e3, e4, e5, e6, e7, e8, e9⟩ := mlpA_idx t
  have ht : t.val < 20 := Nat.lt_of_lt_of_eq t.isLt N_0
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = mlpA (V c main_arg0) (V c main_arg3) (V c main_arg4) (V c main_arg5) (V c main_arg6) (((cfg0.win 5).blk t).view.emb (ix2 p q))
  have hemb : ((cfg0.win 5).blk t).view.emb (ix2 p q) = (ix2 (⟨t.val * 5000 + p.val, by omega⟩ : Fin 100000) q : S100000x64.Idx) := by
    funext a; apply Fin.ext
    match a with
    | ⟨0, _⟩ => show win0_5.index t (0 : Fin 2) * 5000 + 1 * p.val = t.val * 5000 + p.val; rw [e8]; omega
    | ⟨1, _⟩ => show win0_5.index t (1 : Fin 2) * 64 + 1 * q.val = q.val; rw [e9]; omega
  rw [hemb]
  have hx : ∀ k : Fin 64, (iblk0 V c 0 t : Vec Ideal S5000x64 .f32) (ix2 p k)
      = (V c main_arg0 : S100000x64.Idx → Ideal .f32) (ix2 (⟨t.val * 5000 + p.val, by omega⟩ : Fin 100000) k) := fun k => by
    unfold iblk0
    rw [View.read_apply]
    show V c main_arg0 _ = V c main_arg0 _
    congr 1
    funext a; apply Fin.ext
    match a with
    | ⟨0, _⟩ => show win0_0.index t (0 : Fin 2) * 5000 + 1 * p.val = t.val * 5000 + p.val; rw [e0]; omega
    | ⟨1, _⟩ => show win0_0.index t (1 : Fin 2) * 64 + 1 * k.val = k.val; rw [e1]; omega
  have h1 : (iblk0 V c 1 t : Vec Ideal S64x64 .f32) = (V c main_arg3 : S64x64.Idx → Ideal .f32) := funext fun y => by
    unfold iblk0
    rw [View.read_apply]
    show V c main_arg3 _ = V c main_arg3 y
    congr 1
    funext a; apply Fin.ext
    match a with
    | ⟨0, _⟩ => show win0_1.index t (0 : Fin 2) * 64 + 1 * (y 0).val = (y 0).val; rw [e2]; omega
    | ⟨1, _⟩ => show win0_1.index t (1 : Fin 2) * 64 + 1 * (y 1).val = (y 1).val; rw [e3]; omega
  have h2 : (iblk0 V c 2 t : Vec Ideal S64 .f32) = (V c main_arg4 : S64.Idx → Ideal .f32) := funext fun y => by
    unfold iblk0
    rw [View.read_apply]
    show V c main_arg4 _ = V c main_arg4 y
    congr 1
    funext a; apply Fin.ext
    match a with
    | ⟨0, _⟩ => show win0_2.index t (0 : Fin 1) * 64 + 1 * (y 0).val = (y 0).val; rw [e4]; omega
  have h3 : (iblk0 V c 3 t : Vec Ideal S64x64 .f32) = (V c main_arg5 : S64x64.Idx → Ideal .f32) := funext fun y => by
    unfold iblk0
    rw [View.read_apply]
    show V c main_arg5 _ = V c main_arg5 y
    congr 1
    funext a; apply Fin.ext
    match a with
    | ⟨0, _⟩ => show win0_3.index t (0 : Fin 2) * 64 + 1 * (y 0).val = (y 0).val; rw [e5]; omega
    | ⟨1, _⟩ => show win0_3.index t (1 : Fin 2) * 64 + 1 * (y 1).val = (y 1).val; rw [e6]; omega
  have h4 : (iblk0 V c 4 t : Vec Ideal S64 .f32) = (V c main_arg6 : S64.Idx → Ideal .f32) := funext fun y => by
    unfold iblk0
    rw [View.read_apply]
    show V c main_arg6 _ = V c main_arg6 y
    congr 1
    funext a; apply Fin.ext
    match a with
    | ⟨0, _⟩ => show win0_4.index t (0 : Fin 1) * 64 + 1 * (y 0).val = (y 0).val; rw [e7]; omega
  exact mlpA_block (iblk0 V c 0 t) (iblk0 V c 1 t) (iblk0 V c 2 t) (iblk0 V c 3 t) (iblk0 V c 4 t)
    (V c main_arg0) (V c main_arg3) (V c main_arg4) (V c main_arg5) (V c main_arg6) p q _ hx h1 h2 h3 h4

/-- An index of the output array is in point t's block iff each coordinate is in the block's range on its axis. -/
theorem mlpA_mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v13).slice (win0_5.rect t)).set ↔ _
  rw [View.set_slice_whole, Rect.mem_set_unit]
  exact Iff.rfl

/-- Every row of the output array is in some point's block: row r in block r / 5000. -/
theorem mlpA_cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨e0, e1, e2, e3, e4, e5, e6, e7, e8, e9⟩ := mlpA_idx t
  refine ⟨t, flush0_5 t, ?_⟩
  rw [mlpA_mem_blk]
  intro a
  match a with
  | ⟨0, _⟩ =>
    show win0_5.index t (0 : Fin 2) * 5000 ≤ (i 0).val ∧ (i 0).val < win0_5.index t (0 : Fin 2) * 5000 + 5000
    rw [e8, ht]; omega
  | ⟨1, _⟩ =>
    show win0_5.index t (1 : Fin 2) * 64 ≤ (i 1).val ∧ (i 1).val < win0_5.index t (1 : Fin 2) * 64 + 64
    rw [e9]; omega

/-- THE OUTPUT ARRAY after the region's run is the first head of the arrays the region found. -/
theorem final0_5 (c : Dev nD) : (dat0 (F := Ideal) V c).arrAt 5 cfg0.N
    = mlpA (V c main_arg0) (V c main_arg3) (V c main_arg4) (V c main_arg5) (V c main_arg6) :=
  (dat0 V c).arrAt_eq_of_cover 5 (mlpA (V c main_arg0) (V c main_arg3) (V c main_arg4) (V c main_arg5) (V c main_arg6))
    (fun t _ => mlpA_flushed V c t) mlpA_cover

end Cert.KernelIdeal.RegionValue

end
-- ==== Proof.KI.ValMlpB.lean ====
import proofs.«107957_j86157043957975_1_alg».proof.Proof.KI.Reg7
import proofs.«107957_j86157043957975_1_alg».proof.Proof.KI.MlpSpec
import Idealize.ShloMosaic.Lib.Pipeline.Value

/-!
# The second head's region: its output array after the run

The region walks twenty blocks of 5000 rows. At block t the body finds rows 5000·t … 5000·t + 4999 of the 192-column input
and the whole weights and biases, and stores the second head of those rows, two columns wide; that block is written back
to the same rows of the output array. Each written block is a block of ONE whole-array function, the second head of the
arrays the region found (mlpB), and the twenty blocks cover the array: after the run the output array is that function.
-/

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows sit at block t, the weights and biases at block 0. -/
theorem mlpB_idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

/-- On a block whose row p is row r of the array and whose weights are the whole weights, what the body stores at (p, q) is the
    whole-array head at (r, q). -/
theorem mlpB_block (hB : Vec Ideal S5000x192 .f32) (w3B : Vec Ideal S192x64 .f32) (b3B : Vec Ideal S64 .f32)
    (w4B : Vec Ideal S64x2 .f32) (b4B : Vec Ideal S2 .f32)
    (hf : FVec Ideal S100000x192 .f32) (W3 : FVec Ideal S192x64 .f32) (b3 : FVec Ideal S64 .f32)
    (W4 : FVec Ideal S64x2 .f32) (b4 : FVec Ideal S2 .f32) (p : Fin 5000) (q : Fin 2) (r : Fin 100000)
    (hx : ∀ k : Fin 192, hB (ix2 p k) = hf (ix2 r k)) (h1 : w3B = W3) (h2 : b3B = b3) (h3 : w4B = W4) (h4 : b4B = b4) :
    k7_pay1 (F := Ideal) hB w3B b3B w4B b4B (ix2 p q) = mlpB hf W3 b3 W4 b4 (ix2 r q) := by
  subst h1 h2 h3 h4
  rw [mlpB_pay_apply, mlpB_apply]
  exact congrArg (fun row => headB row w3B b3B w4B b4B q) (funext hx)

/-- WHAT POINT t WRITES BACK is block t of the second head of the arrays the region found. -/
theorem mlpB_flushed (c : Dev nD) (t : Fin cfg7.N) :
    (dat7 V c).flushed 5 t = ((cfg7.win 5).blk t).view.read (Elt Ideal)
      (mlpB (V c main_v98) (V c main_arg7) (V c main_arg8) (V c main_arg9) (V c main_arg10)) := by
  show (cfg7.win 5).cut (grid7.coords t) ((dat7 V c).after 5 t) = _
  rw [after7_5]
  unfold out7_5
  rw [View.canon_unit_zero mlp_off2]
  simp only [View.ld_unit_zero (S := S5000x192) mlp_off2, View.ld_unit_zero (S := S192x64) mlp_off2,
    View.ld_unit_zero (S := S64x2) mlp_off2, View.ld_unit_zero (S := S64) mlp_off1, View.ld_unit_zero (S := S2) mlp_off1]
  obtain ⟨e0, e1, e2, e3, e4, e5, e6, e7, e8, e9⟩ := mlpB_idx t
  have ht : t.val < 20 := Nat.lt_of_lt_of_eq t.isLt N_7
  funext j
  obtain ⟨p, q, rfl⟩ : ∃ (p : Fin 5000) (q : Fin 2), j = ix2 p q := ⟨j 0, j 1, eq_ix2 j⟩
  show k7_pay1 (F := Ideal) (iblk7 V c 0 t) (iblk7 V c 1 t) (iblk7 V c 2 t) (iblk7 V c 3 t) (iblk7 V c 4 t) (ix2 p q)
    = mlpB (V c main_v98) (V c main_arg7) (V c main_arg8) (V c main_arg9) (V c main_arg10) (((cfg7.win 5).blk t).view.emb (ix2 p q))
  have hemb : ((cfg7.win 5).blk t).view.emb (ix2 p q) = (ix2 (⟨t.val * 5000 + p.val, by omega⟩ : Fin 100000) q : S100000x2.Idx) := by
    funext a; apply Fin.ext
    match a with
    | ⟨0, _⟩ => show win7_5.index t (0 : Fin 2) * 5000 + 1 * p.val = t.val * 5000 + p.val; rw [e8]; omega
    | ⟨1, _⟩ => show win7_5.index t (1 : Fin 2) * 2 + 1 * q.val = q.val; rw [e9]; omega
  rw [hemb]
  have hx : ∀ k : Fin 192, (iblk7 V c 0 t : Vec Ideal S5000x192 .f32) (ix2 p k)
      = (V c main_v98 : S100000x192.Idx → Ideal .f32) (ix2 (⟨t.val * 5000 + p.val, by omega⟩ : Fin 100000) k) := fun k => by
    unfold iblk7
    rw [View.read_apply]
    show V c main_v98 _ = V c main_v98 _
    congr 1
    funext a; apply Fin.ext
    match a with
    | ⟨0, _⟩ => show win7_0.index t (0 : Fin 2) * 5000 + 1 * p.val = t.val * 5000 + p.val; rw [e0]; omega
    | ⟨1, _⟩ => show win7_0.index t (1 : Fin 2) * 192 + 1 * k.val = k.val; rw [e1]; omega
  have h1 : (iblk7 V c 1 t : Vec Ideal S192x64 .f32) = (V c main_arg7 : S192x64.Idx → Ideal .f32) := funext fun y => by
    unfold iblk7
    rw [View.read_apply]
    show V c main_arg7 _ = V c main_arg7 y
    congr 1
    funext a; apply Fin.ext
    match a with
    | ⟨0, _⟩ => show win7_1.index t (0 : Fin 2) * 192 + 1 * (y 0).val = (y 0).val; rw [e2]; omega
    | ⟨1, _⟩ => show win7_1.index t (1 : Fin 2) * 64 + 1 * (y 1).val = (y 1).val; rw [e3]; omega
  have h2 : (iblk7 V c 2 t : Vec Ideal S64 .f32) = (V c main_arg8 : S64.Idx → Ideal .f32) := funext fun y => by
    unfold iblk7
    rw [View.read_apply]
    show V c main_arg8 _ = V c main_arg8 y
    congr 1
    funext a; apply Fin.ext
    match a with
    | ⟨0, _⟩ => show win7_2.index t (0 : Fin 1) * 64 + 1 * (y 0).val = (y 0).val; rw [e4]; omega
  have h3 : (iblk7 V c 3 t : Vec Ideal S64x2 .f32) = (V c main_arg9 : S64x2.Idx → Ideal .f32) := funext fun y => by
    unfold iblk7
    rw [View.read_apply]
    show V c main_arg9 _ = V c main_arg9 y
    congr 1
    funext a; apply Fin.ext
    match a with
    | ⟨0, _⟩ => show win7_3.index t (0 : Fin 2) * 64 + 1 * (y 0).val = (y 0).val; rw [e5]; omega
    | ⟨1, _⟩ => show win7_3.index t (1 : Fin 2) * 2 + 1 * (y 1).val = (y 1).val; rw [e6]; omega
  have h4 : (iblk7 V c 4 t : Vec Ideal S2 .f32) = (V c main_arg10 : S2.Idx → Ideal .f32) := funext fun y => by
    unfold iblk7
    rw [View.read_apply]
    show V c main_arg10 _ = V c main_arg10 y
    congr 1
    funext a; apply Fin.ext
    match a with
    | ⟨0, _⟩ => show win7_4.index t (0 : Fin 1) * 2 + 1 * (y 0).val = (y 0).val; rw [e7]; omega
  exact mlpB_block (iblk7 V c 0 t) (iblk7 V c 1 t) (iblk7 V c 2 t) (iblk7 V c 3 t) (iblk7 V c 4 t)
    (V c main_v98) (V c main_arg7) (V c main_arg8) (V c main_arg9) (V c main_arg10) p q _ hx h1 h2 h3 h4

/-- An index of the output array is in point t's block iff each coordinate is in the block's range on its axis. -/
theorem mlpB_mem_blk (t : Fin cfg7.N) (i : S100000x2.Idx) :
    i ∈ ((cfg7.win 5).blk t).view.set ↔ ∀ a : Fin 2, win7_5.index t a * S5000x2.size a ≤ (i a).val
      ∧ (i a).val < win7_5.index t a * S5000x2.size a + S5000x2.size a := by
  show i ∈ ((View.whole main_v99).slice (win7_5.rect t)).set ↔ _
  rw [View.set_slice_whole, Rect.mem_set_unit]
  exact Iff.rfl

/-- Every row of the output array is in some point's block: row r in block r / 5000. -/
theorem mlpB_cover (i : S100000x2.Idx) : ∃ t : Fin cfg7.N, (cfg7.win 5).flush t = true ∧ i ∈ ((cfg7.win 5).blk t).view.set := by
  have hi0 : (i 0).val < 100000 := (i 0).isLt
  have hi1 : (i 1).val < 2 := (i 1).isLt
  obtain ⟨t, ht⟩ : ∃ t : Fin cfg7.N, t.val = (i 0).val / 5000 :=
    ⟨⟨(i 0).val / 5000, Nat.lt_of_lt_of_eq (by omega : (i 0).val / 5000 < 20) N_7.symm⟩, rfl⟩
  obtain ⟨e0, e1, e2, e3, e4, e5, e6, e7, e8, e9⟩ := mlpB_idx t
  refine ⟨t, flush7_5 t, ?_⟩
  rw [mlpB_mem_blk]
  intro a
  match a with
  | ⟨0, _⟩ =>
    show win7_5.index t (0 : Fin 2) * 5000 ≤ (i 0).val ∧ (i 0).val < win7_5.index t (0 : Fin 2) * 5000 + 5000
    rw [e8, ht]; omega
  | ⟨1, _⟩ =>
    show win7_5.index t (1 : Fin 2) * 2 ≤ (i 1).val ∧ (i 1).val < win7_5.index t (1 : Fin 2) * 2 + 2
    rw [e9]; omega

/-- THE OUTPUT ARRAY after the region's run is the second head of the arrays the region found. -/
theorem final7_5 (c : Dev nD) : (dat7 (F := Ideal) V c).arrAt 5 cfg7.N
    = mlpB (V c main_v98) (V c main_arg7) (V c main_arg8) (V c main_arg9) (V c main_arg10) :=
  (dat7 V c).arrAt_eq_of_cover 5 (mlpB (V c main_v98) (V c main_arg7) (V c main_arg8) (V c main_arg9) (V c main_arg10))
    (fun t _ => mlpB_flushed V c t) mlpB_cover

end Cert.KernelIdeal.RegionValue

end
-- ==== Proof.KI.KernelValue.lean ====
import proofs.«107957_j86157043957975_1_alg».proof.Proof.KI.Run
import proofs.«107957_j86157043957975_1_alg».proof.Proof.KI.Spec
import proofs.«107957_j86157043957975_1_alg».proof.Proof.KI.HostVal
import proofs.«107957_j86157043957975_1_alg».proof.Proof.KI.ValLap1
import proofs.«107957_j86157043957975_1_alg».proof.Proof.KI.ValLap2
import proofs.«107957_j86157043957975_1_alg».proof.Proof.KI.ValLap3
import proofs.«107957_j86157043957975_1_alg».proof.Proof.KI.ValLap4
import proofs.«107957_j86157043957975_1_alg».proof.Proof.KI.ValLap5
import proofs.«107957_j86157043957975_1_alg».proof.Proof.KI.ValLap6
import proofs.«107957_j86157043957975_1_alg».proof.Proof.KI.ValMlpA
import proofs.«107957_j86157043957975_1_alg».proof.Proof.KI.ValMlpB

/-!
# What the kernel program's buffers hold, boundary by boundary

Through the fold of buffer contents between the program's items, each buffer that a later item reads holds its value
of the specification: a host stretch writes the host operations' term of what it reads; a region writes the region's
whole-array function of what it reads; every other buffer is as it was. At the end the result buffer holds `sOut`.
-/

noncomputable section

namespace Cert.KernelIdeal.RegionValue

open Cert.KernelIdeal Idealize.ShloMosaic Idealize.ShloMosaic.TcCoe Idealize.SL.Sem

variable (m : (ℓ : Loc nD τ sig) → Buf (Elt Ideal) ℓ) (c : Dev nD)

/-- The network body's seven input arrays, as launched on core `c`. -/
def inp : Inp where
  x := m ((c : Thread nD τ).loc main_arg0)
  src := m ((c : Thread nD τ).loc main_arg1)
  dst := m ((c : Thread nD τ).loc main_arg2)
  w1 := m ((c : Thread nD τ).loc main_arg3)
  b1 := m ((c : Thread nD τ).loc main_arg4)
  w2 := m ((c : Thread nD τ).loc main_arg5)
  b2 := m ((c : Thread nD τ).loc main_arg6)

/-- The host stretch `hostOps1` leaves every buffer it does not write as it was. -/
theorem keep5 (r : Ref sig .tc) (h : r ∉ Gen.hostOps1_W) : Gen.W5 m c r = Gen.W4 m c r :=
  StableHlo.after_of_writes_sub Gen.hostOps1 _ Gen.hostOps1_writes h
/-- The host stretch `hostOps2` leaves every buffer it does not write as it was. -/
theorem keep7 (r : Ref sig .tc) (h : r ∉ Gen.hostOps2_W) : Gen.W7 m c r = Gen.W6 m c r :=
  StableHlo.after_of_writes_sub Gen.hostOps2 _ Gen.hostOps2_writes h
/-- The host stretch `hostOps3` leaves every buffer it does not write as it was. -/
theorem keep9 (r : Ref sig .tc) (h : r ∉ Gen.hostOps3_W) : Gen.W9 m c r = Gen.W8 m c r :=
  StableHlo.after_of_writes_sub Gen.hostOps3 _ Gen.hostOps3_writes h
/-- The host stretch `hostOps4` leaves every buffer it does not write as it was. -/
theorem keep11 (r : Ref sig .tc) (h : r ∉ Gen.hostOps4_W) : Gen.W11 m c r = Gen.W10 m c r :=
  StableHlo.after_of_writes_sub Gen.hostOps4 _ Gen.hostOps4_writes h
/-- The host stretch `hostOps5` leaves every buffer it does not write as it was. -/
theorem keep13 (r : Ref sig .tc) (h : r ∉ Gen.hostOps5_W) : Gen.W13 m c r = Gen.W12 m c r :=
  StableHlo.after_of_writes_sub Gen.hostOps5 _ Gen.hostOps5_writes h
/-- The host stretch `hostOps6` leaves every buffer it does not write as it was. -/
theorem keep15 (r : Ref sig .tc) (h : r ∉ Gen.hostOps6_W) : Gen.W15 m c r = Gen.W14 m c r :=
  StableHlo.after_of_writes_sub Gen.hostOps6 _ Gen.hostOps6_writes h
/-- The host stretch `hostOps7` leaves every buffer it does not write as it was. -/
theorem keep17 (r : Ref sig .tc) (h : r ∉ Gen.hostOps7_W) : Gen.W17 m c r = Gen.W16 m c r :=
  StableHlo.after_of_writes_sub Gen.hostOps7 _ Gen.hostOps7_writes h

/-! ## Boundary 3: after the first three host stretches -/
theorem at3_main_arg0 : Gen.W3 m c main_arg0 = m ((c : Thread nD τ).loc main_arg0) :=
  (Gen.V3_of m c main_arg0 (by decide)).trans ((Gen.V2_of m c main_arg0 (by decide)).trans ((Gen.V1_of m c main_arg0 (by decide)).trans rfl))
theorem at3_main_arg1 : Gen.W3 m c main_arg1 = m ((c : Thread nD τ).loc main_arg1) :=
  (Gen.V3_of m c main_arg1 (by decide)).trans ((Gen.V2_of m c main_arg1 (by decide)).trans ((Gen.V1_of m c main_arg1 (by decide)).trans rfl))
theorem at3_main_arg2 : Gen.W3 m c main_arg2 = m ((c : Thread nD τ).loc main_arg2) :=
  (Gen.V3_of m c main_arg2 (by decide)).trans ((Gen.V2_of m c main_arg2 (by decide)).trans ((Gen.V1_of m c main_arg2 (by decide)).trans rfl))
theorem at3_main_arg3 : Gen.W3 m c main_arg3 = m ((c : Thread nD τ).loc main_arg3) :=
  (Gen.V3_of m c main_arg3 (by decide)).trans ((Gen.V2_of m c main_arg3 (by decide)).trans ((Gen.V1_of m c main_arg3 (by decide)).trans rfl))
theorem at3_main_arg4 : Gen.W3 m c main_arg4 = m ((c : Thread nD τ).loc main_arg4) :=
  (Gen.V3_of m c main_arg4 (by decide)).trans ((Gen.V2_of m c main_arg4 (by decide)).trans ((Gen.V1_of m c main_arg4 (by decide)).trans rfl))
theorem at3_main_arg5 : Gen.W3 m c main_arg5 = m ((c : Thread nD τ).loc main_arg5) :=
  (Gen.V3_of m c main_arg5 (by decide)).trans ((Gen.V2_of m c main_arg5 (by decide)).trans ((Gen.V1_of m c main_arg5 (by decide)).trans rfl))
theorem at3_main_arg6 : Gen.W3 m c main_arg6 = m ((c : Thread nD τ).loc main_arg6) :=
  (Gen.V3_of m c main_arg6 (by decide)).trans ((Gen.V2_of m c main_arg6 (by decide)).trans ((Gen.V1_of m c main_arg6 (by decide)).trans rfl))
theorem at3_main_arg7 : Gen.W3 m c main_arg7 = m ((c : Thread nD τ).loc main_arg7) :=
  (Gen.V3_of m c main_arg7 (by decide)).trans ((Gen.V2_of m c main_arg7 (by decide)).trans ((Gen.V1_of m c main_arg7 (by decide)).trans rfl))
theorem at3_main_arg8 : Gen.W3 m c main_arg8 = m ((c : Thread nD τ).loc main_arg8) :=
  (Gen.V3_of m c main_arg8 (by decide)).trans ((Gen.V2_of m c main_arg8 (by decide)).trans ((Gen.V1_of m c main_arg8 (by decide)).trans rfl))
theorem at3_main_arg9 : Gen.W3 m c main_arg9 = m ((c : Thread nD τ).loc main_arg9) :=
  (Gen.V3_of m c main_arg9 (by decide)).trans ((Gen.V2_of m c main_arg9 (by decide)).trans ((Gen.V1_of m c main_arg9 (by decide)).trans rfl))
theorem at3_main_arg10 : Gen.W3 m c main_arg10 = m ((c : Thread nD τ).loc main_arg10) :=
  (Gen.V3_of m c main_arg10 (by decide)).trans ((Gen.V2_of m c main_arg10 (by decide)).trans ((Gen.V1_of m c main_arg10 (by decide)).trans rfl))
theorem at3_main_v12 : Gen.W3 m c main_v12 = sD (inp m c) := by rw [hv0]; rfl

/-! ## Boundary 4: after region 0 -/
theorem at4_main_v12 : Gen.W4 m c main_v12 = sD (inp m c) := (Gen.W4_of m c main_v12 (by decide)).trans (at3_main_v12 m c)
theorem at4_main_arg1 : Gen.W4 m c main_arg1 = m ((c : Thread nD τ).loc main_arg1) := (Gen.W4_of m c main_arg1 (by decide)).trans (at3_main_arg1 m c)
theorem at4_main_arg2 : Gen.W4 m c main_arg2 = m ((c : Thread nD τ).loc main_arg2) := (Gen.W4_of m c main_arg2 (by decide)).trans (at3_main_arg2 m c)
theorem at4_main_arg7 : Gen.W4 m c main_arg7 = m ((c : Thread nD τ).loc main_arg7) := (Gen.W4_of m c main_arg7 (by decide)).trans (at3_main_arg7 m c)
theorem at4_main_arg8 : Gen.W4 m c main_arg8 = m ((c : Thread nD τ).loc main_arg8) := (Gen.W4_of m c main_arg8 (by decide)).trans (at3_main_arg8 m c)
theorem at4_main_arg9 : Gen.W4 m c main_arg9 = m ((c : Thread nD τ).loc main_arg9) := (Gen.W4_of m c main_arg9 (by decide)).trans (at3_main_arg9 m c)
theorem at4_main_arg10 : Gen.W4 m c main_arg10 = m ((c : Thread nD τ).loc main_arg10) := (Gen.W4_of m c main_arg10 (by decide)).trans (at3_main_arg10 m c)
theorem at4_main_v13 : Gen.W4 m c main_v13 = sH (inp m c) := by rw [Gen.W4_out_5, final0_5]; dsimp only [Gen.atTc]; rw [at3_main_arg0 m c, at3_main_arg3 m c, at3_main_arg4 m c, at3_main_arg5 m c, at3_main_arg6 m c]; rfl

/-! ## Boundary 5: after the host stretch `hostOps1` -/
theorem at5_main_v13 : Gen.W5 m c main_v13 = sH (inp m c) := (keep5 m c main_v13 (by decide)).trans (at4_main_v13 m c)
theorem at5_main_v12 : Gen.W5 m c main_v12 = sD (inp m c) := (keep5 m c main_v12 (by decide)).trans (at4_main_v12 m c)
theorem at5_main_arg1 : Gen.W5 m c main_arg1 = m ((c : Thread nD τ).loc main_arg1) := (keep5 m c main_arg1 (by decide)).trans (at4_main_arg1 m c)
theorem at5_main_arg2 : Gen.W5 m c main_arg2 = m ((c : Thread nD τ).loc main_arg2) := (keep5 m c main_arg2 (by decide)).trans (at4_main_arg2 m c)
theorem at5_main_arg7 : Gen.W5 m c main_arg7 = m ((c : Thread nD τ).loc main_arg7) := (keep5 m c main_arg7 (by decide)).trans (at4_main_arg7 m c)
theorem at5_main_arg8 : Gen.W5 m c main_arg8 = m ((c : Thread nD τ).loc main_arg8) := (keep5 m c main_arg8 (by decide)).trans (at4_main_arg8 m c)
theorem at5_main_arg9 : Gen.W5 m c main_arg9 = m ((c : Thread nD τ).loc main_arg9) := (keep5 m c main_arg9 (by decide)).trans (at4_main_arg9 m c)
theorem at5_main_arg10 : Gen.W5 m c main_arg10 = m ((c : Thread nD τ).loc main_arg10) := (keep5 m c main_arg10 (by decide)).trans (at4_main_arg10 m c)
theorem at5_main_v15 : Gen.W5 m c main_v15 = sA0 (inp m c) 0x40400000#32 := by rw [hv1_acc, at4_main_v13 m c]; rfl
theorem at5_main_v27 : Gen.W5 m c main_v27 = sG1 (inp m c) := by rw [hv1_agg, at4_main_v13 m c, at4_main_v12 m c, at4_main_arg1 m c, at4_main_arg2 m c]; rfl

/-! ## Boundary 6: after region 1 -/
theorem at6_main_v13 : Gen.W6 m c main_v13 = sH (inp m c) := (Gen.W6_of m c main_v13 (by decide)).trans (at5_main_v13 m c)
theorem at6_main_v12 : Gen.W6 m c main_v12 = sD (inp m c) := (Gen.W6_of m c main_v12 (by decide)).trans (at5_main_v12 m c)
theorem at6_main_arg1 : Gen.W6 m c main_arg1 = m ((c : Thread nD τ).loc main_arg1) := (Gen.W6_of m c main_arg1 (by decide)).trans (at5_main_arg1 m c)
theorem at6_main_arg2 : Gen.W6 m c main_arg2 = m ((c : Thread nD τ).loc main_arg2) := (Gen.W6_of m c main_arg2 (by decide)).trans (at5_main_arg2 m c)
theorem at6_main_arg7 : Gen.W6 m c main_arg7 = m ((c : Thread nD τ).loc main_arg7) := (Gen.W6_of m c main_arg7 (by decide)).trans (at5_main_arg7 m c)
theorem at6_main_arg8 : Gen.W6 m c main_arg8 = m ((c : Thread nD τ).loc main_arg8) := (Gen.W6_of m c main_arg8 (by decide)).trans (at5_main_arg8 m c)
theorem at6_main_arg9 : Gen.W6 m c main_arg9 = m ((c : Thread nD τ).loc main_arg9) := (Gen.W6_of m c main_arg9 (by decide)).trans (at5_main_arg9 m c)
theorem at6_main_arg10 : Gen.W6 m c main_arg10 = m ((c : Thread nD τ).loc main_arg10) := (Gen.W6_of m c main_arg10 (by decide)).trans (at5_main_arg10 m c)
theorem at6_main_v28_0 : Gen.W6 m c main_v28_0 = sF1 (inp m c) := by rw [Gen.W6_out_4, final1_4]; dsimp only [Gen.atTc]; rw [at5_main_v13 m c, at5_main_v27 m c, at5_main_v12 m c]; rfl
theorem at6_main_v28_1 : Gen.W6 m c main_v28_1 = sA1 (inp m c) 0x40400000#32 0xC0400000#32 := by rw [Gen.W6_out_5, final1_5]; dsimp only [Gen.atTc]; rw [at5_main_v13 m c, at5_main_v27 m c, at5_main_v12 m c, at5_main_v15 m c]; rfl

/-! ## Boundary 7: after the host stretch `hostOps2` -/
theorem at7_main_v28_0 : Gen.W7 m c main_v28_0 = sF1 (inp m c) := (keep7 m c main_v28_0 (by decide)).trans (at6_main_v28_0 m c)
theorem at7_main_v28_1 : Gen.W7 m c main_v28_1 = sA1 (inp m c) 0x40400000#32 0xC0400000#32 := (keep7 m c main_v28_1 (by decide)).trans (at6_main_v28_1 m c)
theorem at7_main_v13 : Gen.W7 m c main_v13 = sH (inp m c) := (keep7 m c main_v13 (by decide)).trans (at6_main_v13 m c)
theorem at7_main_v12 : Gen.W7 m c main_v12 = sD (inp m c) := (keep7 m c main_v12 (by decide)).trans (at6_main_v12 m c)
theorem at7_main_arg1 : Gen.W7 m c main_arg1 = m ((c : Thread nD τ).loc main_arg1) := (keep7 m c main_arg1 (by decide)).trans (at6_main_arg1 m c)
theorem at7_main_arg2 : Gen.W7 m c main_arg2 = m ((c : Thread nD τ).loc main_arg2) := (keep7 m c main_arg2 (by decide)).trans (at6_main_arg2 m c)
theorem at7_main_arg7 : Gen.W7 m c main_arg7 = m ((c : Thread nD τ).loc main_arg7) := (keep7 m c main_arg7 (by decide)).trans (at6_main_arg7 m c)
theorem at7_main_arg8 : Gen.W7 m c main_arg8 = m ((c : Thread nD τ).loc main_arg8) := (keep7 m c main_arg8 (by decide)).trans (at6_main_arg8 m c)
theorem at7_main_arg9 : Gen.W7 m c main_arg9 = m ((c : Thread nD τ).loc main_arg9) := (keep7 m c main_arg9 (by decide)).trans (at6_main_arg9 m c)
theorem at7_main_arg10 : Gen.W7 m c main_arg10 = m ((c : Thread nD τ).loc main_arg10) := (keep7 m c main_arg10 (by decide)).trans (at6_main_arg10 m c)
theorem at7_main_v40 : Gen.W7 m c main_v40 = sG2 (inp m c) := by rw [hv2_agg, at6_main_v28_0 m c, at6_main_v12 m c, at6_main_arg1 m c, at6_main_arg2 m c]; rfl

/-! ## Boundary 8: after region 2 -/
theorem at8_main_v13 : Gen.W8 m c main_v13 = sH (inp m c) := (Gen.W8_of m c main_v13 (by decide)).trans (at7_main_v13 m c)
theorem at8_main_v12 : Gen.W8 m c main_v12 = sD (inp m c) := (Gen.W8_of m c main_v12 (by decide)).trans (at7_main_v12 m c)
theorem at8_main_arg1 : Gen.W8 m c main_arg1 = m ((c : Thread nD τ).loc main_arg1) := (Gen.W8_of m c main_arg1 (by decide)).trans (at7_main_arg1 m c)
theorem at8_main_arg2 : Gen.W8 m c main_arg2 = m ((c : Thread nD τ).loc main_arg2) := (Gen.W8_of m c main_arg2 (by decide)).trans (at7_main_arg2 m c)
theorem at8_main_arg7 : Gen.W8 m c main_arg7 = m ((c : Thread nD τ).loc main_arg7) := (Gen.W8_of m c main_arg7 (by decide)).trans (at7_main_arg7 m c)
theorem at8_main_arg8 : Gen.W8 m c main_arg8 = m ((c : Thread nD τ).loc main_arg8) := (Gen.W8_of m c main_arg8 (by decide)).trans (at7_main_arg8 m c)
theorem at8_main_arg9 : Gen.W8 m c main_arg9 = m ((c : Thread nD τ).loc main_arg9) := (Gen.W8_of m c main_arg9 (by decide)).trans (at7_main_arg9 m c)
theorem at8_main_arg10 : Gen.W8 m c main_arg10 = m ((c : Thread nD τ).loc main_arg10) := (Gen.W8_of m c main_arg10 (by decide)).trans (at7_main_arg10 m c)
theorem at8_main_v41_1 : Gen.W8 m c main_v41_1 = sA2 (inp m c) 0x40400000#32 0xC0400000#32 0x3F400000#32 := by rw [Gen.W8_out_5, final2_5]; dsimp only [Gen.atTc]; rw [at7_main_v28_0 m c, at7_main_v40 m c, at7_main_v12 m c, at7_main_v28_1 m c]; rfl

/-! ## Boundary 9: after the host stretch `hostOps3` -/
theorem at9_main_v41_1 : Gen.W9 m c main_v41_1 = sA2 (inp m c) 0x40400000#32 0xC0400000#32 0x3F400000#32 := (keep9 m c main_v41_1 (by decide)).trans (at8_main_v41_1 m c)
theorem at9_main_v13 : Gen.W9 m c main_v13 = sH (inp m c) := (keep9 m c main_v13 (by decide)).trans (at8_main_v13 m c)
theorem at9_main_v12 : Gen.W9 m c main_v12 = sD (inp m c) := (keep9 m c main_v12 (by decide)).trans (at8_main_v12 m c)
theorem at9_main_arg1 : Gen.W9 m c main_arg1 = m ((c : Thread nD τ).loc main_arg1) := (keep9 m c main_arg1 (by decide)).trans (at8_main_arg1 m c)
theorem at9_main_arg2 : Gen.W9 m c main_arg2 = m ((c : Thread nD τ).loc main_arg2) := (keep9 m c main_arg2 (by decide)).trans (at8_main_arg2 m c)
theorem at9_main_arg7 : Gen.W9 m c main_arg7 = m ((c : Thread nD τ).loc main_arg7) := (keep9 m c main_arg7 (by decide)).trans (at8_main_arg7 m c)
theorem at9_main_arg8 : Gen.W9 m c main_arg8 = m ((c : Thread nD τ).loc main_arg8) := (keep9 m c main_arg8 (by decide)).trans (at8_main_arg8 m c)
theorem at9_main_arg9 : Gen.W9 m c main_arg9 = m ((c : Thread nD τ).loc main_arg9) := (keep9 m c main_arg9 (by decide)).trans (at8_main_arg9 m c)
theorem at9_main_arg10 : Gen.W9 m c main_arg10 = m ((c : Thread nD τ).loc main_arg10) := (keep9 m c main_arg10 (by decide)).trans (at8_main_arg10 m c)
theorem at9_main_v43 : Gen.W9 m c main_v43 = sA0 (inp m c) 0x00000000#32 := by rw [hv3_acc, at8_main_v13 m c]; rfl
theorem at9_main_v55 : Gen.W9 m c main_v55 = sG1 (inp m c) := by rw [hv3_agg, at8_main_v13 m c, at8_main_v12 m c, at8_main_arg1 m c, at8_main_arg2 m c]; rfl

/-! ## Boundary 10: after region 3 -/
theorem at10_main_v41_1 : Gen.W10 m c main_v41_1 = sA2 (inp m c) 0x40400000#32 0xC0400000#32 0x3F400000#32 := (Gen.W10_of m c main_v41_1 (by decide)).trans (at9_main_v41_1 m c)
theorem at10_main_v13 : Gen.W10 m c main_v13 = sH (inp m c) := (Gen.W10_of m c main_v13 (by decide)).trans (at9_main_v13 m c)
theorem at10_main_v12 : Gen.W10 m c main_v12 = sD (inp m c) := (Gen.W10_of m c main_v12 (by decide)).trans (at9_main_v12 m c)
theorem at10_main_arg1 : Gen.W10 m c main_arg1 = m ((c : Thread nD τ).loc main_arg1) := (Gen.W10_of m c main_arg1 (by decide)).trans (at9_main_arg1 m c)
theorem at10_main_arg2 : Gen.W10 m c main_arg2 = m ((c : Thread nD τ).loc main_arg2) := (Gen.W10_of m c main_arg2 (by decide)).trans (at9_main_arg2 m c)
theorem at10_main_arg7 : Gen.W10 m c main_arg7 = m ((c : Thread nD τ).loc main_arg7) := (Gen.W10_of m c main_arg7 (by decide)).trans (at9_main_arg7 m c)
theorem at10_main_arg8 : Gen.W10 m c main_arg8 = m ((c : Thread nD τ).loc main_arg8) := (Gen.W10_of m c main_arg8 (by decide)).trans (at9_main_arg8 m c)
theorem at10_main_arg9 : Gen.W10 m c main_arg9 = m ((c : Thread nD τ).loc main_arg9) := (Gen.W10_of m c main_arg9 (by decide)).trans (at9_main_arg9 m c)
theorem at10_main_arg10 : Gen.W10 m c main_arg10 = m ((c : Thread nD τ).loc main_arg10) := (Gen.W10_of m c main_arg10 (by decide)).trans (at9_main_arg10 m c)
theorem at10_main_v56_0 : Gen.W10 m c main_v56_0 = sF1 (inp m c) := by rw [Gen.W10_out_4, final3_4]; dsimp only [Gen.atTc]; rw [at9_main_v13 m c, at9_main_v55 m c, at9_main_v12 m c]; rfl
theorem at10_main_v56_1 : Gen.W10 m c main_v56_1 = sA1 (inp m c) 0x00000000#32 0x40400000#32 := by rw [Gen.W10_out_5, final3_5]; dsimp only [Gen.atTc]; rw [at9_main_v13 m c, at9_main_v55 m c, at9_main_v12 m c, at9_main_v43 m c]; rfl

/-! ## Boundary 11: after the host stretch `hostOps4` -/
theorem at11_main_v56_0 : Gen.W11 m c main_v56_0 = sF1 (inp m c) := (keep11 m c main_v56_0 (by decide)).trans (at10_main_v56_0 m c)
theorem at11_main_v56_1 : Gen.W11 m c main_v56_1 = sA1 (inp m c) 0x00000000#32 0x40400000#32 := (keep11 m c main_v56_1 (by decide)).trans (at10_main_v56_1 m c)
theorem at11_main_v41_1 : Gen.W11 m c main_v41_1 = sA2 (inp m c) 0x40400000#32 0xC0400000#32 0x3F400000#32 := (keep11 m c main_v41_1 (by decide)).trans (at10_main_v41_1 m c)
theorem at11_main_v13 : Gen.W11 m c main_v13 = sH (inp m c) := (keep11 m c main_v13 (by decide)).trans (at10_main_v13 m c)
theorem at11_main_v12 : Gen.W11 m c main_v12 = sD (inp m c) := (keep11 m c main_v12 (by decide)).trans (at10_main_v12 m c)
theorem at11_main_arg1 : Gen.W11 m c main_arg1 = m ((c : Thread nD τ).loc main_arg1) := (keep11 m c main_arg1 (by decide)).trans (at10_main_arg1 m c)
theorem at11_main_arg2 : Gen.W11 m c main_arg2 = m ((c : Thread nD τ).loc main_arg2) := (keep11 m c main_arg2 (by decide)).trans (at10_main_arg2 m c)
theorem at11_main_arg7 : Gen.W11 m c main_arg7 = m ((c : Thread nD τ).loc main_arg7) := (keep11 m c main_arg7 (by decide)).trans (at10_main_arg7 m c)
theorem at11_main_arg8 : Gen.W11 m c main_arg8 = m ((c : Thread nD τ).loc main_arg8) := (keep11 m c main_arg8 (by decide)).trans (at10_main_arg8 m c)
theorem at11_main_arg9 : Gen.W11 m c main_arg9 = m ((c : Thread nD τ).loc main_arg9) := (keep11 m c main_arg9 (by decide)).trans (at10_main_arg9 m c)
theorem at11_main_arg10 : Gen.W11 m c main_arg10 = m ((c : Thread nD τ).loc main_arg10) := (keep11 m c main_arg10 (by decide)).trans (at10_main_arg10 m c)
theorem at11_main_v68 : Gen.W11 m c main_v68 = sG2 (inp m c) := by rw [hv4_agg, at10_main_v56_0 m c, at10_main_v12 m c, at10_main_arg1 m c, at10_main_arg2 m c]; rfl

/-! ## Boundary 12: after region 4 -/
theorem at12_main_v41_1 : Gen.W12 m c main_v41_1 = sA2 (inp m c) 0x40400000#32 0xC0400000#32 0x3F400000#32 := (Gen.W12_of m c main_v41_1 (by decide)).trans (at11_main_v41_1 m c)
theorem at12_main_v13 : Gen.W12 m c main_v13 = sH (inp m c) := (Gen.W12_of m c main_v13 (by decide)).trans (at11_main_v13 m c)
theorem at12_main_v12 : Gen.W12 m c main_v12 = sD (inp m c) := (Gen.W12_of m c main_v12 (by decide)).trans (at11_main_v12 m c)
theorem at12_main_arg1 : Gen.W12 m c main_arg1 = m ((c : Thread nD τ).loc main_arg1) := (Gen.W12_of m c main_arg1 (by decide)).trans (at11_main_arg1 m c)
theorem at12_main_arg2 : Gen.W12 m c main_arg2 = m ((c : Thread nD τ).loc main_arg2) := (Gen.W12_of m c main_arg2 (by decide)).trans (at11_main_arg2 m c)
theorem at12_main_arg7 : Gen.W12 m c main_arg7 = m ((c : Thread nD τ).loc main_arg7) := (Gen.W12_of m c main_arg7 (by decide)).trans (at11_main_arg7 m c)
theorem at12_main_arg8 : Gen.W12 m c main_arg8 = m ((c : Thread nD τ).loc main_arg8) := (Gen.W12_of m c main_arg8 (by decide)).trans (at11_main_arg8 m c)
theorem at12_main_arg9 : Gen.W12 m c main_arg9 = m ((c : Thread nD τ).loc main_arg9) := (Gen.W12_of m c main_arg9 (by decide)).trans (at11_main_arg9 m c)
theorem at12_main_arg10 : Gen.W12 m c main_arg10 = m ((c : Thread nD τ).loc main_arg10) := (Gen.W12_of m c main_arg10 (by decide)).trans (at11_main_arg10 m c)
theorem at12_main_v69_1 : Gen.W12 m c main_v69_1 = sA2 (inp m c) 0x00000000#32 0x40400000#32 0xBFC00000#32 := by rw [Gen.W12_out_5, final4_5]; dsimp only [Gen.atTc]; rw [at11_main_v56_0 m c, at11_main_v68 m c, at11_main_v12 m c, at11_main_v56_1 m c]; rfl

/-! ## Boundary 13: after the host stretch `hostOps5` -/
theorem at13_main_v69_1 : Gen.W13 m c main_v69_1 = sA2 (inp m c) 0x00000000#32 0x40400000#32 0xBFC00000#32 := (keep13 m c main_v69_1 (by decide)).trans (at12_main_v69_1 m c)
theorem at13_main_v41_1 : Gen.W13 m c main_v41_1 = sA2 (inp m c) 0x40400000#32 0xC0400000#32 0x3F400000#32 := (keep13 m c main_v41_1 (by decide)).trans (at12_main_v41_1 m c)
theorem at13_main_v13 : Gen.W13 m c main_v13 = sH (inp m c) := (keep13 m c main_v13 (by decide)).trans (at12_main_v13 m c)
theorem at13_main_v12 : Gen.W13 m c main_v12 = sD (inp m c) := (keep13 m c main_v12 (by decide)).trans (at12_main_v12 m c)
theorem at13_main_arg1 : Gen.W13 m c main_arg1 = m ((c : Thread nD τ).loc main_arg1) := (keep13 m c main_arg1 (by decide)).trans (at12_main_arg1 m c)
theorem at13_main_arg2 : Gen.W13 m c main_arg2 = m ((c : Thread nD τ).loc main_arg2) := (keep13 m c main_arg2 (by decide)).trans (at12_main_arg2 m c)
theorem at13_main_arg7 : Gen.W13 m c main_arg7 = m ((c : Thread nD τ).loc main_arg7) := (keep13 m c main_arg7 (by decide)).trans (at12_main_arg7 m c)
theorem at13_main_arg8 : Gen.W13 m c main_arg8 = m ((c : Thread nD τ).loc main_arg8) := (keep13 m c main_arg8 (by decide)).trans (at12_main_arg8 m c)
theorem at13_main_arg9 : Gen.W13 m c main_arg9 = m ((c : Thread nD τ).loc main_arg9) := (keep13 m c main_arg9 (by decide)).trans (at12_main_arg9 m c)
theorem at13_main_arg10 : Gen.W13 m c main_arg10 = m ((c : Thread nD τ).loc main_arg10) := (keep13 m c main_arg10 (by decide)).trans (at12_main_arg10 m c)
theorem at13_main_v71 : Gen.W13 m c main_v71 = sA0 (inp m c) 0x00000000#32 := by rw [hv5_acc, at12_main_v13 m c]; rfl
theorem at13_main_v83 : Gen.W13 m c main_v83 = sG1 (inp m c) := by rw [hv5_agg, at12_main_v13 m c, at12_main_v12 m c, at12_main_arg1 m c, at12_main_arg2 m c]; rfl

/-! ## Boundary 14: after region 5 -/
theorem at14_main_v69_1 : Gen.W14 m c main_v69_1 = sA2 (inp m c) 0x00000000#32 0x40400000#32 0xBFC00000#32 := (Gen.W14_of m c main_v69_1 (by decide)).trans (at13_main_v69_1 m c)
theorem at14_main_v41_1 : Gen.W14 m c main_v41_1 = sA2 (inp m c) 0x40400000#32 0xC0400000#32 0x3F400000#32 := (Gen.W14_of m c main_v41_1 (by decide)).trans (at13_main_v41_1 m c)
theorem at14_main_v12 : Gen.W14 m c main_v12 = sD (inp m c) := (Gen.W14_of m c main_v12 (by decide)).trans (at13_main_v12 m c)
theorem at14_main_arg1 : Gen.W14 m c main_arg1 = m ((c : Thread nD τ).loc main_arg1) := (Gen.W14_of m c main_arg1 (by decide)).trans (at13_main_arg1 m c)
theorem at14_main_arg2 : Gen.W14 m c main_arg2 = m ((c : Thread nD τ).loc main_arg2) := (Gen.W14_of m c main_arg2 (by decide)).trans (at13_main_arg2 m c)
theorem at14_main_arg7 : Gen.W14 m c main_arg7 = m ((c : Thread nD τ).loc main_arg7) := (Gen.W14_of m c main_arg7 (by decide)).trans (at13_main_arg7 m c)
theorem at14_main_arg8 : Gen.W14 m c main_arg8 = m ((c : Thread nD τ).loc main_arg8) := (Gen.W14_of m c main_arg8 (by decide)).trans (at13_main_arg8 m c)
theorem at14_main_arg9 : Gen.W14 m c main_arg9 = m ((c : Thread nD τ).loc main_arg9) := (Gen.W14_of m c main_arg9 (by decide)).trans (at13_main_arg9 m c)
theorem at14_main_arg10 : Gen.W14 m c main_arg10 = m ((c : Thread nD τ).loc main_arg10) := (Gen.W14_of m c main_arg10 (by decide)).trans (at13_main_arg10 m c)
theorem at14_main_v84_0 : Gen.W14 m c main_v84_0 = sF1 (inp m c) := by rw [Gen.W14_out_4, final5_4]; dsimp only [Gen.atTc]; rw [at13_main_v13 m c, at13_main_v83 m c, at13_main_v12 m c]; rfl
theorem at14_main_v84_1 : Gen.W14 m c main_v84_1 = sA1 (inp m c) 0x00000000#32 0x00000000#32 := by rw [Gen.W14_out_5, final5_5]; dsimp only [Gen.atTc]; rw [at13_main_v13 m c, at13_main_v83 m c, at13_main_v12 m c, at13_main_v71 m c]; rfl

/-! ## Boundary 15: after the host stretch `hostOps6` -/
theorem at15_main_v84_0 : Gen.W15 m c main_v84_0 = sF1 (inp m c) := (keep15 m c main_v84_0 (by decide)).trans (at14_main_v84_0 m c)
theorem at15_main_v84_1 : Gen.W15 m c main_v84_1 = sA1 (inp m c) 0x00000000#32 0x00000000#32 := (keep15 m c main_v84_1 (by decide)).trans (at14_main_v84_1 m c)
theorem at15_main_v69_1 : Gen.W15 m c main_v69_1 = sA2 (inp m c) 0x00000000#32 0x40400000#32 0xBFC00000#32 := (keep15 m c main_v69_1 (by decide)).trans (at14_main_v69_1 m c)
theorem at15_main_v41_1 : Gen.W15 m c main_v41_1 = sA2 (inp m c) 0x40400000#32 0xC0400000#32 0x3F400000#32 := (keep15 m c main_v41_1 (by decide)).trans (at14_main_v41_1 m c)
theorem at15_main_v12 : Gen.W15 m c main_v12 = sD (inp m c) := (keep15 m c main_v12 (by decide)).trans (at14_main_v12 m c)
theorem at15_main_arg7 : Gen.W15 m c main_arg7 = m ((c : Thread nD τ).loc main_arg7) := (keep15 m c main_arg7 (by decide)).trans (at14_main_arg7 m c)
theorem at15_main_arg8 : Gen.W15 m c main_arg8 = m ((c : Thread nD τ).loc main_arg8) := (keep15 m c main_arg8 (by decide)).trans (at14_main_arg8 m c)
theorem at15_main_arg9 : Gen.W15 m c main_arg9 = m ((c : Thread nD τ).loc main_arg9) := (keep15 m c main_arg9 (by decide)).trans (at14_main_arg9 m c)
theorem at15_main_arg10 : Gen.W15 m c main_arg10 = m ((c : Thread nD τ).loc main_arg10) := (keep15 m c main_arg10 (by decide)).trans (at14_main_arg10 m c)
theorem at15_main_v96 : Gen.W15 m c main_v96 = sG2 (inp m c) := by rw [hv6_agg, at14_main_v84_0 m c, at14_main_v12 m c, at14_main_arg1 m c, at14_main_arg2 m c]; rfl

/-! ## Boundary 16: after region 6 -/
theorem at16_main_v69_1 : Gen.W16 m c main_v69_1 = sA2 (inp m c) 0x00000000#32 0x40400000#32 0xBFC00000#32 := (Gen.W16_of m c main_v69_1 (by decide)).trans (at15_main_v69_1 m c)
theorem at16_main_v41_1 : Gen.W16 m c main_v41_1 = sA2 (inp m c) 0x40400000#32 0xC0400000#32 0x3F400000#32 := (Gen.W16_of m c main_v41_1 (by decide)).trans (at15_main_v41_1 m c)
theorem at16_main_arg7 : Gen.W16 m c main_arg7 = m ((c : Thread nD τ).loc main_arg7) := (Gen.W16_of m c main_arg7 (by decide)).trans (at15_main_arg7 m c)
theorem at16_main_arg8 : Gen.W16 m c main_arg8 = m ((c : Thread nD τ).loc main_arg8) := (Gen.W16_of m c main_arg8 (by decide)).trans (at15_main_arg8 m c)
theorem at16_main_arg9 : Gen.W16 m c main_arg9 = m ((c : Thread nD τ).loc main_arg9) := (Gen.W16_of m c main_arg9 (by decide)).trans (at15_main_arg9 m c)
theorem at16_main_arg10 : Gen.W16 m c main_arg10 = m ((c : Thread nD τ).loc main_arg10) := (Gen.W16_of m c main_arg10 (by decide)).trans (at15_main_arg10 m c)
theorem at16_main_v97_1 : Gen.W16 m c main_v97_1 = sA2 (inp m c) 0x00000000#32 0x00000000#32 0x3F400000#32 := by rw [Gen.W16_out_5, final6_5]; dsimp only [Gen.atTc]; rw [at15_main_v84_0 m c, at15_main_v96 m c, at15_main_v12 m c, at15_main_v84_1 m c]; rfl

/-! ## Boundary 17: after the host stretch `hostOps7` -/
theorem at17_main_arg7 : Gen.W17 m c main_arg7 = m ((c : Thread nD τ).loc main_arg7) := (keep17 m c main_arg7 (by decide)).trans (at16_main_arg7 m c)
theorem at17_main_arg8 : Gen.W17 m c main_arg8 = m ((c : Thread nD τ).loc main_arg8) := (keep17 m c main_arg8 (by decide)).trans (at16_main_arg8 m c)
theorem at17_main_arg9 : Gen.W17 m c main_arg9 = m ((c : Thread nD τ).loc main_arg9) := (keep17 m c main_arg9 (by decide)).trans (at16_main_arg9 m c)
theorem at17_main_arg10 : Gen.W17 m c main_arg10 = m ((c : Thread nD τ).loc main_arg10) := (keep17 m c main_arg10 (by decide)).trans (at16_main_arg10 m c)
theorem at17_main_v98 : Gen.W17 m c main_v98 = sCat (inp m c) := by rw [hv7, at16_main_v41_1 m c, at16_main_v69_1 m c, at16_main_v97_1 m c]; rfl

/-! ## Boundary 18: after region 7 -/
theorem at18_main_v99 : Gen.W18 m c main_v99 = sOut (inp m c) (m ((c : Thread nD τ).loc main_arg7)) (m ((c : Thread nD τ).loc main_arg8)) (m ((c : Thread nD τ).loc main_arg9)) (m ((c : Thread nD τ).loc main_arg10)) := by rw [Gen.W18_out_5, final7_5]; dsimp only [Gen.atTc]; rw [at17_main_v98 m c, at17_main_arg7 m c, at17_main_arg8 m c, at17_main_arg9 m c, at17_main_arg10 m c]; rfl

end Cert.KernelIdeal.RegionValue

end
-- ==== Proof.KI.RefValue.lean ====
import proofs.«107957_j86157043957975_1_alg».proof.Proof.Gen.ReferenceIdeal.Read
import proofs.«107957_j86157043957975_1_alg».proof.Proof.KI.Spec

/-!
# The reference computes the specification

The reference is one straight line of host operations. Stage by stage — the degree column, the two dense layers, and
for each branch the starting accumulator, the aggregate, the first step, the accumulator after it, the second
aggregate, the accumulator after the second step; then the three branches side by side and the head — each stage is
the specification's value, because it is the same operations applied to stages already identified.
-/

noncomputable section

namespace Cert.KernelIdeal.RegionValue

open Idealize.ShloMosaic

section
open Cert.ReferenceIdeal

variable (x0 : (⟨S100000x64, .f32⟩ : BufTy).Contents (Elt Ideal)) (x1 x2 : (⟨S3200000, .i32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S192x64, .f32⟩ : BufTy).Contents (Elt Ideal)) (x8 : (⟨S64, .f32⟩ : BufTy).Contents (Elt Ideal))
  (x9 : (⟨S64x2, .f32⟩ : BufTy).Contents (Elt Ideal)) (x10 : (⟨S2, .f32⟩ : BufTy).Contents (Elt Ideal))

/-- The reference's seven body inputs as the specification's bundle. -/
def refInp : Inp := ⟨x0, x1, x2, x3, x4, x5, x6⟩

/-- The degree column. -/
theorem r12 : Cert.ReferenceIdeal.Read.val_main_v12 (F := Ideal) x2 = sD (refInp x0 x1 x2 x3 x4 x5 x6) := rfl

/-- The two dense layers. -/
theorem r22 : Cert.ReferenceIdeal.Read.val_main_v22 (F := Ideal) x0 x3 x4 x5 x6 = sH (refInp x0 x1 x2 x3 x4 x5 x6) := rfl

/-- Branch one: the accumulator starts at the first coefficient times the hidden features. -/
theorem r24 : Cert.ReferenceIdeal.Read.val_main_v24 (F := Ideal) x0 x3 x4 x5 x6 = sA0 (refInp x0 x1 x2 x3 x4 x5 x6) 0x40400000#32 := by
  rw [show Cert.ReferenceIdeal.Read.val_main_v24 (F := Ideal) x0 x3 x4 x5 x6 = acc0T 0x40400000#32 (Cert.ReferenceIdeal.Read.val_main_v22 (F := Ideal) x0 x3 x4 x5 x6) from rfl, r22]
  rfl

/-- Branch one: the aggregate of the hidden features. -/
theorem r36 : Cert.ReferenceIdeal.Read.val_main_v36 (F := Ideal) x0 x1 x2 x3 x4 x5 x6 = sG1 (refInp x0 x1 x2 x3 x4 x5 x6) := by
  rw [show Cert.ReferenceIdeal.Read.val_main_v36 (F := Ideal) x0 x1 x2 x3 x4 x5 x6 = aggT (Cert.ReferenceIdeal.Read.val_main_v22 (F := Ideal) x0 x3 x4 x5 x6) (Cert.ReferenceIdeal.Read.val_main_v12 (F := Ideal) x2) x1 x2 from rfl, r22, r12]
  rfl

/-- Branch one: the first Laplacian step. -/
theorem r39 : Cert.ReferenceIdeal.Read.val_main_v39 (F := Ideal) x0 x1 x2 x3 x4 x5 x6 = sF1 (refInp x0 x1 x2 x3 x4 x5 x6) := by
  rw [show Cert.ReferenceIdeal.Read.val_main_v39 (F := Ideal) x0 x1 x2 x3 x4 x5 x6 = lapF (Cert.ReferenceIdeal.Read.val_main_v22 (F := Ideal) x0 x3 x4 x5 x6) (Cert.ReferenceIdeal.Read.val_main_v36 (F := Ideal) x0 x1 x2 x3 x4 x5 x6) (Cert.ReferenceIdeal.Read.val_main_v12 (F := Ideal) x2) from rfl, r22, r36, r12]
  rfl

/-- Branch one: the accumulator after the first step. -/
theorem r42 : Cert.ReferenceIdeal.Read.val_main_v42 (F := Ideal) x0 x1 x2 x3 x4 x5 x6 = sA1 (refInp x0 x1 x2 x3 x4 x5 x6) 0x40400000#32 0xC0400000#32 := by
  rw [show Cert.ReferenceIdeal.Read.val_main_v42 (F := Ideal) x0 x1 x2 x3 x4 x5 x6 = lapAcc 0xC0400000#32 (Cert.ReferenceIdeal.Read.val_main_v22 (F := Ideal) x0 x3 x4 x5 x6) (Cert.ReferenceIdeal.Read.val_main_v36 (F := Ideal) x0 x1 x2 x3 x4 x5 x6) (Cert.ReferenceIdeal.Read.val_main_v12 (F := Ideal) x2) (Cert.ReferenceIdeal.Read.val_main_v24 (F := Ideal) x0 x3 x4 x5 x6) from rfl, r22, r36, r12, r24]
  rfl

/-- Branch one: the aggregate of the first step. -/
theorem r54 : Cert.ReferenceIdeal.Read.val_main_v54 (F := Ideal) x0 x1 x2 x3 x4 x5 x6 = sG2 (refInp x0 x1 x2 x3 x4 x5 x6) := by
  rw [show Cert.ReferenceIdeal.Read.val_main_v54 (F := Ideal) x0 x1 x2 x3 x4 x5 x6 = aggT (Cert.ReferenceIdeal.Read.val_main_v39 (F := Ideal) x0 x1 x2 x3 x4 x5 x6) (Cert.ReferenceIdeal.Read.val_main_v12 (F := Ideal) x2) x1 x2 from rfl, r39, r12]
  rfl

/-- Branch one: the accumulator after the second step. -/
theorem r60 : Cert.ReferenceIdeal.Read.val_main_v60 (F := Ideal) x0 x1 x2 x3 x4 x5 x6 = sA2 (refInp x0 x1 x2 x3 x4 x5 x6) 0x40400000#32 0xC0400000#32 0x3F400000#32 := by
  rw [show Cert.ReferenceIdeal.Read.val_main_v60 (F := Ideal) x0 x1 x2 x3 x4 x5 x6 = lapAcc 0x3F400000#32 (Cert.ReferenceIdeal.Read.val_main_v39 (F := Ideal) x0 x1 x2 x3 x4 x5 x6) (Cert.ReferenceIdeal.Read.val_main_v54 (F := Ideal) x0 x1 x2 x3 x4 x5 x6) (Cert.ReferenceIdeal.Read.val_main_v12 (F := Ideal) x2) (Cert.ReferenceIdeal.Read.val_main_v42 (F := Ideal) x0 x1 x2 x3 x4 x5 x6) from rfl, r39, r54, r12, r42]
  rfl

/-- Branch two: the accumulator starts at the first coefficient times the hidden features. -/
theorem r62 : Cert.ReferenceIdeal.Read.val_main_v62 (F := Ideal) x0 x3 x4 x5 x6 = sA0 (refInp x0 x1 x2 x3 x4 x5 x6) 0x00000000#32 := by
  rw [show Cert.ReferenceIdeal.Read.val_main_v62 (F := Ideal) x0 x3 x4 x5 x6 = acc0T 0x00000000#32 (Cert.ReferenceIdeal.Read.val_main_v22 (F := Ideal) x0 x3 x4 x5 x6) from rfl, r22]
  rfl

/-- Branch two: the aggregate of the hidden features. -/
theorem r74 : Cert.ReferenceIdeal.Read.val_main_v74 (F := Ideal) x0 x1 x2 x3 x4 x5 x6 = sG1 (refInp x0 x1 x2 x3 x4 x5 x6) := by
  rw [show Cert.ReferenceIdeal.Read.val_main_v74 (F := Ideal) x0 x1 x2 x3 x4 x5 x6 = aggT (Cert.ReferenceIdeal.Read.val_main_v22 (F := Ideal) x0 x3 x4 x5 x6) (Cert.ReferenceIdeal.Read.val_main_v12 (F := Ideal) x2) x1 x2 from rfl, r22, r12]
  rfl

/-- Branch two: the first Laplacian step. -/
theorem r77 : Cert.ReferenceIdeal.Read.val_main_v77 (F := Ideal) x0 x1 x2 x3 x4 x5 x6 = sF1 (refInp x0 x1 x2 x3 x4 x5 x6) := by
  rw [show Cert.ReferenceIdeal.Read.val_main_v77 (F := Ideal) x0 x1 x2 x3 x4 x5 x6 = lapF (Cert.ReferenceIdeal.Read.val_main_v22 (F := Ideal) x0 x3 x4 x5 x6) (Cert.ReferenceIdeal.Read.val_main_v74 (F := Ideal) x0 x1 x2 x3 x4 x5 x6) (Cert.ReferenceIdeal.Read.val_main_v12 (F := Ideal) x2) from rfl, r22, r74, r12]
  rfl

/-- Branch two: the accumulator after the first step. -/
theorem r80 : Cert.ReferenceIdeal.Read.val_main_v80 (F := Ideal) x0 x1 x2 x3 x4 x5 x6 = sA1 (refInp x0 x1 x2 x3 x4 x5 x6) 0x00000000#32 0x40400000#32 := by
  rw [show Cert.ReferenceIdeal.Read.val_main_v80 (F := Ideal) x0 x1 x2 x3 x4 x5 x6 = lapAcc 0x40400000#32 (Cert.ReferenceIdeal.Read.val_main_v22 (F := Ideal) x0 x3 x4 x5 x6) (Cert.ReferenceIdeal.Read.val_main_v74 (F := Ideal) x0 x1 x2 x3 x4 x5 x6) (Cert.ReferenceIdeal.Read.val_main_v12 (F := Ideal) x2) (Cert.ReferenceIdeal.Read.val_main_v62 (F := Ideal) x0 x3 x4 x5 x6) from rfl, r22, r74, r12, r62]
  rfl

/-- Branch two: the aggregate of the first step. -/
theorem r92 : Cert.ReferenceIdeal.Read.val_main_v92 (F := Ideal) x0 x1 x2 x3 x4 x5 x6 = sG2 (refInp x0 x1 x2 x3 x4 x5 x6) := by
  rw [show Cert.ReferenceIdeal.Read.val_main_v92 (F := Ideal) x0 x1 x2 x3 x4 x5 x6 = aggT (Cert.ReferenceIdeal.Read.val_main_v77 (F := Ideal) x0 x1 x2 x3 x4 x5 x6) (Cert.ReferenceIdeal.Read.val_main_v12 (F := Ideal) x2) x1 x2 from rfl, r77, r12]
  rfl

/-- Branch two: the accumulator after the second step. -/
theorem r98 : Cert.ReferenceIdeal.Read.val_main_v98 (F := Ideal) x0 x1 x2 x3 x4 x5 x6 = sA2 (refInp x0 x1 x2 x3 x4 x5 x6) 0x00000000#32 0x40400000#32 0xBFC00000#32 := by
  rw [show Cert.ReferenceIdeal.Read.val_main_v98 (F := Ideal) x0 x1 x2 x3 x4 x5 x6 = lapAcc 0xBFC00000#32 (Cert.ReferenceIdeal.Read.val_main_v77 (F := Ideal) x0 x1 x2 x3 x4 x5 x6) (Cert.ReferenceIdeal.Read.val_main_v92 (F := Ideal) x0 x1 x2 x3 x4 x5 x6) (Cert.ReferenceIdeal.Read.val_main_v12 (F := Ideal) x2) (Cert.ReferenceIdeal.Read.val_main_v80 (F := Ideal) x0 x1 x2 x3 x4 x5 x6) from rfl, r77, r92, r12, r80]
  rfl

/-- Branch three: the accumulator starts at the first coefficient times the hidden features. -/
theorem r100 : Cert.ReferenceIdeal.Read.val_main_v100 (F := Ideal) x0 x3 x4 x5 x6 = sA0 (refInp x0 x1 x2 x3 x4 x5 x6) 0x00000000#32 := by
  rw [show Cert.ReferenceIdeal.Read.val_main_v100 (F := Ideal) x0 x3 x4 x5 x6 = acc0T 0x00000000#32 (Cert.ReferenceIdeal.Read.val_main_v22 (F := Ideal) x0 x3 x4 x5 x6) from rfl, r22]
  rfl

/-- Branch three: the aggregate of the hidden features. -/
theorem r112 : Cert.ReferenceIdeal.Read.val_main_v112 (F := Ideal) x0 x1 x2 x3 x4 x5 x6 = sG1 (refInp x0 x1 x2 x3 x4 x5 x6) := by
  rw [show Cert.ReferenceIdeal.Read.val_main_v112 (F := Ideal) x0 x1 x2 x3 x4 x5 x6 = aggT (Cert.ReferenceIdeal.Read.val_main_v22 (F := Ideal) x0 x3 x4 x5 x6) (Cert.ReferenceIdeal.Read.val_main_v12 (F := Ideal) x2) x1 x2 from rfl, r22, r12]
  rfl

/-- Branch three: the first Laplacian step. -/
theorem r115 : Cert.ReferenceIdeal.Read.val_main_v115 (F := Ideal) x0 x1 x2 x3 x4 x5 x6 = sF1 (refInp x0 x1 x2 x3 x4 x5 x6) := by
  rw [show Cert.ReferenceIdeal.Read.val_main_v115 (F := Ideal) x0 x1 x2 x3 x4 x5 x6 = lapF (Cert.ReferenceIdeal.Read.val_main_v22 (F := Ideal) x0 x3 x4 x5 x6) (Cert.ReferenceIdeal.Read.val_main_v112 (F := Ideal) x0 x1 x2 x3 x4 x5 x6) (Cert.ReferenceIdeal.Read.val_main_v12 (F := Ideal) x2) from rfl, r22, r112, r12]
  rfl

/-- Branch three: the accumulator after the first step. -/
theorem r118 : Cert.ReferenceIdeal.Read.val_main_v118 (F := Ideal) x0 x1 x2 x3 x4 x5 x6 = sA1 (refInp x0 x1 x2 x3 x4 x5 x6) 0x00000000#32 0x00000000#32 := by
  rw [show Cert.ReferenceIdeal.Read.val_main_v118 (F := Ideal) x0 x1 x2 x3 x4 x5 x6 = lapAcc 0x00000000#32 (Cert.ReferenceIdeal.Read.val_main_v22 (F := Ideal) x0 x3 x4 x5 x6) (Cert.ReferenceIdeal.Read.val_main_v112 (F := Ideal) x0 x1 x2 x3 x4 x5 x6) (Cert.ReferenceIdeal.Read.val_main_v12 (F := Ideal) x2) (Cert.ReferenceIdeal.Read.val_main_v100 (F := Ideal) x0 x3 x4 x5 x6) from rfl, r22, r112, r12, r100]
  rfl

/-- Branch three: the aggregate of the first step. -/
theorem r130 : Cert.ReferenceIdeal.Read.val_main_v130 (F := Ideal) x0 x1 x2 x3 x4 x5 x6 = sG2 (refInp x0 x1 x2 x3 x4 x5 x6) := by
  rw [show Cert.ReferenceIdeal.Read.val_main_v130 (F := Ideal) x0 x1 x2 x3 x4 x5 x6 = aggT (Cert.ReferenceIdeal.Read.val_main_v115 (F := Ideal) x0 x1 x2 x3 x4 x5 x6) (Cert.ReferenceIdeal.Read.val_main_v12 (F := Ideal) x2) x1 x2 from rfl, r115, r12]
  rfl

/-- Branch three: the accumulator after the second step. -/
theorem r136 : Cert.ReferenceIdeal.Read.val_main_v136 (F := Ideal) x0 x1 x2 x3 x4 x5 x6 = sA2 (refInp x0 x1 x2 x3 x4 x5 x6) 0x00000000#32 0x00000000#32 0x3F400000#32 := by
  rw [show Cert.ReferenceIdeal.Read.val_main_v136 (F := Ideal) x0 x1 x2 x3 x4 x5 x6 = lapAcc 0x3F400000#32 (Cert.ReferenceIdeal.Read.val_main_v115 (F := Ideal) x0 x1 x2 x3 x4 x5 x6) (Cert.ReferenceIdeal.Read.val_main_v130 (F := Ideal) x0 x1 x2 x3 x4 x5 x6) (Cert.ReferenceIdeal.Read.val_main_v12 (F := Ideal) x2) (Cert.ReferenceIdeal.Read.val_main_v118 (F := Ideal) x0 x1 x2 x3 x4 x5 x6) from rfl, r115, r130, r12, r118]
  rfl

/-- The three branches side by side. -/
theorem r137 : Cert.ReferenceIdeal.Read.val_main_v137 (F := Ideal) x0 x1 x2 x3 x4 x5 x6 = sCat (refInp x0 x1 x2 x3 x4 x5 x6) := by
  rw [show Cert.ReferenceIdeal.Read.val_main_v137 (F := Ideal) x0 x1 x2 x3 x4 x5 x6 = catT (Cert.ReferenceIdeal.Read.val_main_v60 (F := Ideal) x0 x1 x2 x3 x4 x5 x6) (Cert.ReferenceIdeal.Read.val_main_v98 (F := Ideal) x0 x1 x2 x3 x4 x5 x6) (Cert.ReferenceIdeal.Read.val_main_v136 (F := Ideal) x0 x1 x2 x3 x4 x5 x6) from rfl, r60, r98, r136]
  rfl

/-- The head: the reference's result is the specification's output. -/
theorem ref_out : Cert.ReferenceIdeal.Read.val_main_v146 (F := Ideal) x0 x1 x2 x3 x4 x5 x6 x7 x8 x9 x10 = sOut (refInp x0 x1 x2 x3 x4 x5 x6) x7 x8 x9 x10 := by
  rw [show Cert.ReferenceIdeal.Read.val_main_v146 (F := Ideal) x0 x1 x2 x3 x4 x5 x6 x7 x8 x9 x10 = mlpB (Cert.ReferenceIdeal.Read.val_main_v137 (F := Ideal) x0 x1 x2 x3 x4 x5 x6) x7 x8 x9 x10 from rfl, r137]
  rfl

end

end Cert.KernelIdeal.RegionValue

end
-- ==== Proof.KI.Algebraic.lean ====
import proofs.«107957_j86157043957975_1_alg».proof.Defs
import proofs.«107957_j86157043957975_1_alg».proof.Proof.Gen.KernelIdeal
import proofs.«107957_j86157043957975_1_alg».proof.Proof.Gen.ReferenceIdeal
import proofs.«107957_j86157043957975_1_alg».proof.Proof.Gen.Pre_finite_inputs
import proofs.«107957_j86157043957975_1_alg».proof.Proof.Gen.ReferenceIdeal.Read
import proofs.«107957_j86157043957975_1_alg».proof.Proof.KI.RunValue
import proofs.«107957_j86157043957975_1_alg».proof.Proof.KI.KernelValue
import proofs.«107957_j86157043957975_1_alg».proof.Proof.KI.RefValue

/-!
# The two idealized programs end with equal results

From memories that agree on the arguments: the kernel program ends with its result buffer at the fold's last
valuation, which holds the specification's output of its arguments; the reference ends with its result at its
operations' term, which is the specification's output of ITS arguments; and the arguments are the same arrays.
No finiteness is used: both sides apply the same operations in the same order, and the sums that are grouped
differently (a block of rows at a time) are the same sums.
-/

noncomputable section

namespace Cert.KernelIdeal.Bridge

open Idealize.ShloMosaic Idealize.ShloMosaic.TcCoe Idealize.SL.Sem
open Cert.KernelIdeal.RegionValue

theorem algebraic : Cert.algebraic_KernelIdeal_ReferenceIdeal := by
  intro m ρ m' ρ' _ hagree
  refine ⟨fun c => sOut (inp m c)
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono (fun r h c => ⟨(h c).1.trans (at18_main_v99 m c), (h c).2⟩)
      (Cert.KernelIdeal.Gen.value_run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v146_eq, ref_out]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    rfl

end Cert.KernelIdeal.Bridge

end
-- ==== Proof.lean ====
import proofs.«107957_j86157043957975_1_alg».proof.Defs
import proofs.«107957_j86157043957975_1_alg».proof.Proof.Gen.Kernel
import proofs.«107957_j86157043957975_1_alg».proof.Proof.Gen.KernelIdeal
import proofs.«107957_j86157043957975_1_alg».proof.Proof.Gen.ReferenceIdeal
import proofs.«107957_j86157043957975_1_alg».proof.Proof.Gen.Pre_finite_inputs
import proofs.«107957_j86157043957975_1_alg».proof.Proof.Gen.ReferenceIdeal.Run
import proofs.«107957_j86157043957975_1_alg».proof.Proof.K.Run
import proofs.«107957_j86157043957975_1_alg».proof.Proof.KI.Run
import proofs.«107957_j86157043957975_1_alg».proof.Proof.KI.Algebraic
import Idealize.ShloMosaic.Adequacy
import Idealize.ShloMosaic.Init

/-!
# A graph network's forward pass against its plain reference

The program computes, on 100000 nodes and 3200000 edges: the inverse square root of the clamped in-degree; two
dense layers with `max · 0` on the node features; for each of three coefficient triples `(t₀, t₁, t₂)` the
combination `t₀·h + t₁·L h + t₂·L (L h)` of the normalized Laplacian `L f = f - D^{-1/2} A D^{-1/2} f` (a gather of
source rows, a sum into destination rows); the three combinations side by side; two more dense layers. The kernel
program runs the dense layers and each Laplacian step `f ↦ (f - agg·d, acc + t·(f - agg·d))` as pipelined kernels over
blocks of 5000 rows and leaves the gathers and sums to host operations; the reference is host operations throughout.

The frames: each kernel region's body is run symbolically once at a generic grid point (its one or two whole-block
stores), the regions are chained through the buffer contents between them, and the reference is its operations'
run. Nothing is rewritten by the idealization, so `preserves` asks nothing. At the extended reals the two programs
compute one function: a block of rows of a pointwise or row-wise operation is the operation on that block of rows, a
matrix product into a zero accumulator is the sum over the contracted index, a change of float format is the identity,
and the host's gathers and sums are the same operations of equal operands on both sides.
-/

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.KernelIdeal.Bridge.algebraic⟩

end Cert.Proof

end
